-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x256 : Shape := ⟨2, ![128, 256]⟩
abbrev S256x256 : Shape := ⟨2, ![256, 256]⟩
abbrev S256x128 : Shape := ⟨2, ![256, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part2 {F : FTy → Type} [FloatOps F] (main_arg1 : FVec F S8192x8192 .f32) (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_cst_16 : FVec F S_ .f32 := constant S_ .f32 0x00000000#32
  let main_v44 : FVec F S8192 .f32 := (fun x v => Host.reduceAdd x v reducesTo_S8192x8192_S8192_d1 h_S_) main_arg1 main_cst_16
  let main_cst_17 : FVec F S_ .f32 := constant S_ .f32 0x00000000#32
  let main_v45 : FVec F S8192 .f32 := broadcastInDim S8192 ![] bcast_S_S8192 main_cst_17
  let main_v46 : IVec S8192 1 := cmpf .ogt main_v44 main_v45
  let main_c_18 : IVec S_ 1 := constantI S_ 1 1#1
  let main_v47 : IVec S_ 1 := (fun x v => Host.reduce IntOp.andi x v reducesTo_S8192_S_d0 h_S_) main_v46 main_c_18
  let main_v48 : IVec S_ 1 := andi main_v43 main_v47
  main_v48

def fn_part1 {F : FTy → Type} [FloatOps F] (main_arg1 : FVec F S8192x8192 .f32) (main_arg4 : FVec F S256x128 .f32) (main_arg5 : FVec F S128x128 .f32) (main_arg6 : FVec F S128 .f32) (main_arg7 : FVec F S128x1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg7 main_arg8 main_v33

def fn {F : FTy → Type} [FloatOps F] (main_arg0 : FVec F S8192x128 .f32) (main_arg1 : FVec F S8192x8192 .f32) (main_arg2 : FVec F S128x256 .f32) (main_arg3 : FVec F S256x256 .f32) (main_arg4 : FVec F S256x128 .f32) (main_arg5 : FVec F S128x128 .f32) (main_arg6 : FVec F S128 .f32) (main_arg7 : FVec F S128x1 .f32) (main_arg8 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg4 main_arg5 main_arg6 main_arg7 main_arg8 main_v13 main_v16
-- ==== Kernel.lean ====
abbrev S8192x128 : Shape := ⟨2, ![8192, 128]⟩
abbrev S8192x8192 : Shape := ⟨2, ![8192, 8192]⟩
abbrev S128x256 : Shape := ⟨2, ![128, 256]⟩
abbrev S256x256 : Shape := ⟨2, ![256, 256]⟩
abbrev S256x128 : Shape := ⟨2, ![256, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S8192x256 : Shape := ⟨2, ![8192, 256]⟩
abbrev S2048x2048 : Shape := ⟨2, ![2048, 2048]⟩
abbrev S2048x1 : Shape := ⟨2, ![2048, 1]⟩
abbrev S2048x256 : Shape := ⟨2, ![2048, 256]⟩
abbrev S2048x128 : Shape := ⟨2, ![2048, 128]⟩
abbrev S1x128 : Shape := ⟨2, ![1, 128]⟩
abbrev S1x1 : Shape := ⟨2, ![1, 1]⟩

abbrev nBuf : Space → Nat
  | .hbm => 28
  | .vmem => 36
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x256, .f32⟩
  | .hbm, ⟨3, _⟩ => ⟨S256x256, .f32⟩
  | .hbm, ⟨4, _⟩ => ⟨S256x128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S8192x1, .f32⟩
  | .hbm, ⟨10, _⟩ => ⟨S8192x8192, .bf16⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S128x128, .f32⟩
  | .hbm, ⟨24, _⟩ => ⟨S1x128, .f32⟩
  | .hbm, ⟨25, _⟩ => ⟨S1x1, .f32⟩
  | .hbm, ⟨26, _⟩ => ⟨S1x128, .f32⟩
  | .hbm, ⟨27, _⟩ => ⟨S128, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S512x8192, .bf16⟩
  | .local _ .vmem, ⟨5, _⟩ => ⟨S512x8192, .bf16⟩
  | .local _ .vmem, ⟨6, _⟩ => ⟨S2048x2048, .bf16⟩
  | .local _ .vmem, ⟨7, _⟩ => ⟨S2048x2048, .bf16⟩
  | .local _ .vmem, ⟨8, _⟩ => ⟨S2048x1, .f32⟩
  | .local _ .vmem, ⟨9, _⟩ => ⟨S2048x1, .f32⟩
  | .local _ .vmem, ⟨10, _⟩ => ⟨S8192x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x2048, .bf16⟩
  | .local _ .vmem, ⟨15, _⟩ => ⟨S2048x2048, .bf16⟩
  | .local _ .vmem, ⟨16, _⟩ => ⟨S2048x1, .f32⟩
  | .local _ .vmem, ⟨17, _⟩ => ⟨S2048x1, .f32⟩
  | .local _ .vmem, ⟨18, _⟩ => ⟨S8192x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x2048, .bf16⟩
  | .local _ .vmem, ⟨23, _⟩ => ⟨S2048x2048, .bf16⟩
  | .local _ .vmem, ⟨24, _⟩ => ⟨S2048x1, .f32⟩
  | .local _ .vmem, ⟨25, _⟩ => ⟨S2048x1, .f32⟩
  | .local _ .vmem, ⟨26, _⟩ => ⟨S8192x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S8192x128, .f32⟩
  | .local _ .vmem, ⟨31, _⟩ => ⟨S128x128, .f32⟩
  | .local _ .vmem, ⟨32, _⟩ => ⟨S1x128, .f32⟩
  | .local _ .vmem, ⟨33, _⟩ => ⟨S128x1, .f32⟩
  | .local _ .vmem, ⟨34, _⟩ => ⟨S1x1, .f32⟩
  | .local _ .vmem, ⟨35, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem5_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S8192x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_mult1 (i : grid3.Coords) : BitVec 32 :=
  let arg1 : BitVec 32 := BitVec.ofNat 32 (i 1).val
  let c2048_i32 : BitVec 32 := 2048#32
  let v3 : BitVec 32 := Scalar.muli arg1 c2048_i32
  v3
def k3_off1 (i : grid3.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_8 : BitVec 32 := 0#32
  let v24 : BitVec 1 := Scalar.cmpi .ne v23 c0_i32_8
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S8192x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S8192x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  packedbf16_S512x8192_S512x8192_0_0 : (Rect.unit (s := S512x8192) ![0, 0] S512x8192.size inb_S512x8192_S512x8192_0_0).PackedRows (EltTy.packing .bf16)
  bcast_S8192x1_S8192x256_0_1 : S8192x1.BroadcastsInDim S8192x256 (![0, 1] : Fin 2 → Fin S8192x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  bcast_S8192x1_S8192x128_0_1 : S8192x1.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  transposes_S128x128_S128x128_1_0 : S128x128.Transposes [1, 0] S128x128
  shapeCasts_S128_S1x128 : S128.ShapeCasts S1x128
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  reduces_S8192x1_S1 : S8192x1.Reduces [0] S1
  broadcasts_S8192x1_S8192x128 : S8192x1.Broadcasts S8192x128
  reduces_S8192x128_S128 : S8192x128.Reduces [0] S128
  shapeCasts_S1x128_S128 : S1x128.ShapeCasts S128
  dot_S8192x128_S128x256_S8192x256_1_0_0_1_n_n_wf : DotDims.WF S8192x128 S128x256 S8192x256 [1] [0] [0] [1] [] []
  dot_S2048x2048_S2048x256_S2048x256_1_0_0_1_n_n_wf : DotDims.WF S2048x2048 S2048x256 S2048x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S2048x2048_S2048x128_S2048x128_1_0_0_1_n_n_wf : DotDims.WF S2048x2048 S2048x128 S2048x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .bf16 = 32 ∨ (Rect.block (s := S8192x8192) S512x8192.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .f32 = 32 ∨ (Rect.block (s := S8192x256) S8192x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .f32 = 32 ∨ (Rect.block (s := S8192x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x256.size a ≤ S8192x256.size a
  hwx2_2 : ∀ i : grid2.Coords, EltTy.bits .f32 = 32 ∨ (Rect.block (s := S8192x256) S8192x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .f32 = 32 ∨ (Rect.block (s := S8192x256) S2048x256.size (cc2_transform_3 i) (hinb2_3 i)).WholeWords (EltTy.packing .f32)
  hrank3 : 0 < grid3.rank
  k3_mult1_dvd : ∀ i : grid3.Coords, 2048 ∣ (k3_mult1 i).toNat
  k3_off1_inb : ∀ i : grid3.Coords, ∀ a, (k3_off1 i) a + S2048x128.size a ≤ S8192x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1.size a ≤ S8192x1.size a
  hwx3_1 : ∀ i : grid3.Coords, EltTy.bits .f32 = 32 ∨ (Rect.block (s := S8192x1) S2048x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S8192x128.size a
  hwx3_2 : ∀ i : grid3.Coords, EltTy.bits .f32 = 32 ∨ (Rect.block (s := S8192x128) S8192x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .f32 = 32 ∨ (Rect.block (s := S8192x128) S2048x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S8192x128.size a
  hwx4_0 : ∀ i : grid4.Coords, EltTy.bits .f32 = 32 ∨ (Rect.block (s := S8192x128) S8192x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0_1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S8192x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v0_1) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0_0) S2048x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S8192x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v12) S8192x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v13) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v16) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x256 : Shape := ⟨2, ![128, 256]⟩
abbrev S256x256 : Shape := ⟨2, ![256, 256]⟩
abbrev S256x128 : Shape := ⟨2, ![256, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S1x128 : Shape := ⟨2, ![1, 128]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x256, .f32⟩
  | .hbm, ⟨3, _⟩ => ⟨S256x256, .f32⟩
  | .hbm, ⟨4, _⟩ => ⟨S256x128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S8192x128, .f32⟩
  | .hbm, ⟨31, _⟩ => ⟨S8192x128, .f32⟩
  | .hbm, ⟨32, _⟩ => ⟨S128x128, .f32⟩
  | .hbm, ⟨33, _⟩ => ⟨S8192x128, .f32⟩
  | .hbm, ⟨34, _⟩ => ⟨S1x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x1, .f32⟩
  | .hbm, ⟨39, _⟩ => ⟨S1x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S1, .f32⟩
  | .hbm, ⟨53, _⟩ => ⟨S1x1, .f32⟩
  | .hbm, ⟨54, _⟩ => ⟨S8192x1, .f32⟩
  | .hbm, ⟨55, _⟩ => ⟨S8192x1, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_cst : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S1_d0 : S8192x1.ReducesTo [0] S1
  bcast_S_S1 : S_.BroadcastsInDim S1 (![] : Fin 0 → Fin S1.rank)
  bcast_S8192x1_S8192x128_0_1 : S8192x1.BroadcastsInDim S8192x128 (![0, 1] : Fin 2 → Fin S8192x128.rank)
  reducesTo_S8192x128_S128_d0 : S8192x128.ReducesTo [0] S128
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.Reg0.lean ====
/-
  The first kernel region: one pass over the adjacency matrix in 16 blocks of 512 rows. At a block the body
  reads the 512 x 8192 block, leaves in the first output block the inverse square root of each row's sum and
  in the second the block itself at the narrower format. Stated at the contents `V` the region finds in the
  core's buffers: the block of each window at a point, what each output's staging buffer holds after the
  body, the body's run, and the obligation of the body at every point.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_in : Rect S512x8192 := Rect.unit (s := S512x8192) ![0, 0] S512x8192.size inb_S512x8192_S512x8192_0_0
abbrev r0_d : Rect S512x1 := Rect.unit (s := S512x1) ![0, 0] S512x1.size inb_S512x1_S512x1_0_0

/-- The column of inverse square roots of the block's row sums, as the one whole store leaves it. -/
def out0_1 (x0 : Vec F S512x8192 .f32) : Vec F S512x1 .f32 :=
  View.canon [⟨r0_d, k0_pay1 (View.ld x0 r0_in)⟩]

/-- The block at the narrower format, as the one whole store leaves it. -/
def out0_2 (x0 : Vec F S512x8192 .f32) : Vec F S512x8192 .bf16 :=
  View.canon [⟨r0_in, k0_pay2 (View.ld x0 r0_in)⟩]

theorem cover0_1 (p0 : Vec F S512x1 .f32) (y : S512x1.Idx) :
    ∃ pc ∈ ([⟨r0_d, p0⟩] : List (View.Piece (Elt F) S512x1 .f32)), y ∈ pc.1.set :=
  View.cover_of_tiled [⟨r0_d, p0⟩] S512x1.size (by rfl) y

theorem cover0_2 (p0 : Vec F S512x8192 .bf16) (y : S512x8192.Idx) :
    ∃ pc ∈ ([⟨r0_in, p0⟩] : List (View.Piece (Elt F) S512x8192 .bf16)), y ∈ pc.1.set :=
  View.cover_of_tiled [⟨r0_in, p0⟩] S512x8192.size (by rfl) y

set_option maxHeartbeats 1000000 in
/-- The body on whole staging memrefs, the input's at contents `x0` and the outputs' at anything, runs to the
    continuation with the input's as it was and each output's at its function of `x0`. -/
theorem sound_kernel0 (c : Dev nD) (E : Set ℕ) (i : grid0.Coords)
    (arg1 : Memref sig .tc .vmem S512x8192 .f32) (harg1 : arg1.IsWhole) (arg2 : Memref sig .tc .vmem S512x1 .f32) (harg2 : arg2.IsWhole)
    (arg3 : Memref sig .tc .vmem S512x8192 .bf16) (harg3 : arg3.IsWhole)
    (x0 : Vec F S512x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/-
  Kernel region 1: the product  D · (A S)  on a 4 × 4 grid of 2048-wide tiles, for a right-hand side S of
  256 columns, clamped below at zero. Point t = 4·ib + kb handles rows 2048·ib … of the result and columns
  2048·kb … of A. A scratch accumulator is carried from point to point: the body zeroes it when kb = 0, adds
  the tile's product at every point, and when kb = 3 rescales it by the rows' entries of D and stores the
  result block. So the body has three cases: kb = 0 (reset, then add), kb = 1 or 2 (add), kb = 3 (add, then
  write the block). Stated at the contents `V` the region finds in the core's buffers: the body's run in each
  case, what the scratch and the output block hold after each point, the invariant that carries the scratch
  between points, and the body's obligation at every point.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- kb = 0: the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- kb = 3: the result block is written. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The scratch accumulator: a whole buffer of the kernel's own. -/
abbrev scM1 : Memref sig .tc .vmem S2048x256 .f32 := Memref.whole cc1_scratch0
abbrev VS1 : View sig .tc .vmem S2048x256 .f32 := (scM1).view
abbrev VO1_3 : View sig .tc .vmem S2048x256 .f32 := (Memref.whole cc1_stg3_0 : Memref sig .tc .vmem S2048x256 .f32).view

/-- The region's invariant before the first point, with the scratch accumulator taken out of the scoped rest. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run in each case -/

set_option maxHeartbeats 1000000 in
/-- kb = 0. The drow block and the output block are not touched; the scratch is handed over at anything. -/
noncomputable def kernelRun1_A (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨[], ?_, fun xi1 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 1, 2. The scratch is handed over at what the point before left. -/
noncomputable def kernelRun1_B (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨[], ?_, fun xi1 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 3. The drow block is read; the output block, handed over at anything, is stored whole. -/
noncomputable def kernelRun1_C (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch and in the output block -/

theorem scover1_A (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) (y : S2048x256.Idx) :
    ∃ pc ∈ (kernelRun1_A c i arg2 harg2 arg3 harg3 arg4 harg4 arg5 harg5 arg6 harg6 hc0 hc1 x0 x2).2.1, y ∈ pc.1.set :=
  View.cover_of_tiledL (kernelRun1_A c i arg2 harg2 arg3 harg3 arg4 harg4 arg5 harg5 arg6 harg6 hc0 hc1 x0 x2).2.1 S2048x256.size (by sl_kernel_rfl) y
def sout1_A (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) : Vec F S2048x256 .f32 :=
  VS1.read (Elt F) (VS1.writes (Elt F) VS1.junk (kernelRun1_A c i arg2 harg2 arg3 harg3 arg4 harg4 arg5 harg5 arg6 harg6 hc0 hc1 x0 x2).2.1)
/-- The output block is not stored into in this case: a placeholder nothing consults. -/
def out1_A_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) : Vec F S2048x256 .f32 :=
  VO1_3.read (Elt F) (VO1_3.writes (Elt F) VO1_3.junk (kernelRun1_A c i arg2 harg2 arg3 harg3 arg4 harg4 arg5 harg5 arg6 harg6 hc0 hc1 x0 x2).1)

theorem scover1_B (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) (y : S2048x256.Idx) :
    ∃ pc ∈ (kernelRun1_B c i arg2 harg2 arg3 harg3 arg4 harg4 arg5 harg5 arg6 harg6 hc0 hc1 x0 x2 xs).2.1, y ∈ pc.1.set :=
  View.cover_of_tiledL (kernelRun1_B c i arg2 harg2 arg3 harg3 arg4 harg4 arg5 harg5 arg6 harg6 hc0 hc1 x0 x2 xs).2.1 S2048x256.size (by sl_kernel_rfl) y
def sout1_B (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) : Vec F S2048x256 .f32 :=
  VS1.read (Elt F) (VS1.writes (Elt F) VS1.junk (kernelRun1_B c i arg2 harg2 arg3 harg3 arg4 harg4 arg5 harg5 arg6 harg6 hc0 hc1 x0 x2 xs).2.1)
def out1_B_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) : Vec F S2048x256 .f32 :=
  VO1_3.read (Elt F) (VO1_3.writes (Elt F) VO1_3.junk (kernelRun1_B c i arg2 harg2 arg3 harg3 arg4 harg4 arg5 harg5 arg6 harg6 hc0 hc1 x0 x2 xs).1)

theorem scover1_C (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) (y : S2048x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S2048x256.size (by sl_kernel_rfl) y
theorem cover1_C_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) (y : S2048x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S2048x256.size (by sl_kernel_rfl) y
def sout1_C (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) : Vec F S2048x256 .f32 :=
  VS1.read (Elt F) (VS1.writes (Elt F) VS1.junk (kernelRun1_C c i arg2 harg2 arg3 harg3 arg4 harg4 arg5 harg5 arg6 harg6 hc0 hc1 x0 x1 x2 xs).2.1)
def out1_C_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) : Vec F S2048x256 .f32 :=
  VO1_3.read (Elt F) (VO1_3.writes (Elt F) VO1_3.junk (kernelRun1_C c i arg2 harg2 arg3 harg3 arg4 harg4 arg5 harg5 arg6 harg6 hc0 hc1 x0 x1 x2 xs).1)

/-! ## What the output block's buffer and the scratch hold after each point -/

/-- After the body at position `n`: (the output block's buffer, the scratch accumulator). -/
def outsAt1 (c : Dev nD) : (n : ℕ) → n < cfg1.N → Vec F S2048x256 .f32 × Vec F S2048x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards
    the scratch accumulator at what the point before left, the other scoped buffers at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 2 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 2 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 2 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HS, HR⟩, Hg⟩
  isplitl [HS HR]
  · isplitl [HS]
    · iexists _; iexact HS
    iexact HR
  iexact Hg

end Cert.KernelIdeal.Hand

end
-- ==== Proof.Reg2.lean ====
/-
  Kernel region 2: the product  D · (A S)  on a 4 × 4 grid of 2048-wide tiles, for a right-hand side S of
  256 columns, clamped below at zero. Point t = 4·ib + kb handles rows 2048·ib … of the result and columns
  2048·kb … of A. A scratch accumulator is carried from point to point: the body zeroes it when kb = 0, adds
  the tile's product at every point, and when kb = 3 rescales it by the rows' entries of D and stores the
  result block. So the body has three cases: kb = 0 (reset, then add), kb = 1 or 2 (add), kb = 3 (add, then
  write the block). Stated at the contents `V` the region finds in the core's buffers: the body's run in each
  case, what the scratch and the output block hold after each point, the invariant that carries the scratch
  between points, and the body's obligation at every point.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- kb = 0: the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- kb = 3: the result block is written. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The scratch accumulator: a whole buffer of the kernel's own. -/
abbrev scM2 : Memref sig .tc .vmem S2048x256 .f32 := Memref.whole cc2_scratch0
abbrev VS2 : View sig .tc .vmem S2048x256 .f32 := (scM2).view
abbrev VO2_3 : View sig .tc .vmem S2048x256 .f32 := (Memref.whole cc2_stg3_0 : Memref sig .tc .vmem S2048x256 .f32).view

/-- The region's invariant before the first point, with the scratch accumulator taken out of the scoped rest. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's run in each case -/

set_option maxHeartbeats 1000000 in
/-- kb = 0. The drow block and the output block are not touched; the scratch is handed over at anything. -/
noncomputable def kernelRun2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨[], ?_, fun xi1 xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 1, 2. The scratch is handed over at what the point before left. -/
noncomputable def kernelRun2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨[], ?_, fun xi1 xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 3. The drow block is read; the output block, handed over at anything, is stored whole. -/
noncomputable def kernelRun2_C (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch and in the output block -/

theorem scover2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) (y : S2048x256.Idx) :
    ∃ pc ∈ (kernelRun2_A c i arg2 harg2 arg3 harg3 arg4 harg4 arg5 harg5 arg6 harg6 hc0 hc1 x0 x2).2.1, y ∈ pc.1.set :=
  View.cover_of_tiledL (kernelRun2_A c i arg2 harg2 arg3 harg3 arg4 harg4 arg5 harg5 arg6 harg6 hc0 hc1 x0 x2).2.1 S2048x256.size (by sl_kernel_rfl) y
def sout2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) : Vec F S2048x256 .f32 :=
  VS2.read (Elt F) (VS2.writes (Elt F) VS2.junk (kernelRun2_A c i arg2 harg2 arg3 harg3 arg4 harg4 arg5 harg5 arg6 harg6 hc0 hc1 x0 x2).2.1)
/-- The output block is not stored into in this case: a placeholder nothing consults. -/
def out2_A_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) : Vec F S2048x256 .f32 :=
  VO2_3.read (Elt F) (VO2_3.writes (Elt F) VO2_3.junk (kernelRun2_A c i arg2 harg2 arg3 harg3 arg4 harg4 arg5 harg5 arg6 harg6 hc0 hc1 x0 x2).1)

theorem scover2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) (y : S2048x256.Idx) :
    ∃ pc ∈ (kernelRun2_B c i arg2 harg2 arg3 harg3 arg4 harg4 arg5 harg5 arg6 harg6 hc0 hc1 x0 x2 xs).2.1, y ∈ pc.1.set :=
  View.cover_of_tiledL (kernelRun2_B c i arg2 harg2 arg3 harg3 arg4 harg4 arg5 harg5 arg6 harg6 hc0 hc1 x0 x2 xs).2.1 S2048x256.size (by sl_kernel_rfl) y
def sout2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) : Vec F S2048x256 .f32 :=
  VS2.read (Elt F) (VS2.writes (Elt F) VS2.junk (kernelRun2_B c i arg2 harg2 arg3 harg3 arg4 harg4 arg5 harg5 arg6 harg6 hc0 hc1 x0 x2 xs).2.1)
def out2_B_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) : Vec F S2048x256 .f32 :=
  VO2_3.read (Elt F) (VO2_3.writes (Elt F) VO2_3.junk (kernelRun2_B c i arg2 harg2 arg3 harg3 arg4 harg4 arg5 harg5 arg6 harg6 hc0 hc1 x0 x2 xs).1)

theorem scover2_C (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) (y : S2048x256.Idx) :
    ∃ pc ∈ (kernelRun2_C c i arg2 harg2 arg3 harg3 arg4 harg4 arg5 harg5 arg6 harg6 hc0 hc1 x0 x1 x2 xs).2.1, y ∈ pc.1.set :=
  View.cover_of_tiledL (kernelRun2_C c i arg2 harg2 arg3 harg3 arg4 harg4 arg5 harg5 arg6 harg6 hc0 hc1 x0 x1 x2 xs).2.1 S2048x256.size (by sl_kernel_rfl) y
theorem cover2_C_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) (y : S2048x256.Idx) :
    ∃ pc ∈ (kernelRun2_C c i arg2 harg2 arg3 harg3 arg4 harg4 arg5 harg5 arg6 harg6 hc0 hc1 x0 x1 x2 xs).1, y ∈ pc.1.set :=
  View.cover_of_tiledL (kernelRun2_C c i arg2 harg2 arg3 harg3 arg4 harg4 arg5 harg5 arg6 harg6 hc0 hc1 x0 x1 x2 xs).1 S2048x256.size (by sl_kernel_rfl) y
def sout2_C (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) : Vec F S2048x256 .f32 :=
  VS2.read (Elt F) (VS2.writes (Elt F) VS2.junk (kernelRun2_C c i arg2 harg2 arg3 harg3 arg4 harg4 arg5 harg5 arg6 harg6 hc0 hc1 x0 x1 x2 xs).2.1)
def out2_C_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) : Vec F S2048x256 .f32 :=
  VO2_3.read (Elt F) (VO2_3.writes (Elt F) VO2_3.junk (kernelRun2_C c i arg2 harg2 arg3 harg3 arg4 harg4 arg5 harg5 arg6 harg6 hc0 hc1 x0 x1 x2 xs).1)

/-! ## What the output block's buffer and the scratch hold after each point -/

/-- After the body at position `n`: (the output block's buffer, the scratch accumulator). -/
def outsAt2 (c : Dev nD) : (n : ℕ) → n < cfg2.N → Vec F S2048x256 .f32 × Vec F S2048x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 2 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 2 t), sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 2 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards
    the scratch accumulator at what the point before left, the other scoped buffers at anything. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 2 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 2 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 2 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-! ## The invariant at the region's two ends -/

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS, HR⟩, Hg⟩
  isplitl [HS HR]
  · isplitl [HS]
    · iexists _; iexact HS
    iexact HR
  iexact Hg

end Cert.KernelIdeal.Hand

end
-- ==== Proof.Reg3.lean ====
/-
  Kernel region 3: the product  D · (A S)  on a 4 × 4 grid of 2048-wide tiles, for a right-hand side S of
  128 columns. Point t = 4·ib + kb handles rows 2048·ib … of the result and columns
  2048·kb … of A. A scratch accumulator is carried from point to point: the body zeroes it when kb = 0, adds
  the tile's product at every point, and when kb = 3 rescales it by the rows' entries of D and stores the
  result block. So the body has three cases: kb = 0 (reset, then add), kb = 1 or 2 (add), kb = 3 (add, then
  write the block). Stated at the contents `V` the region finds in the core's buffers: the body's run in each
  case, what the scratch and the output block hold after each point, the invariant that carries the scratch
  between points, and the body's obligation at every point.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- kb = 0: the accumulator is reset. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- kb = 3: the result block is written. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

/-! ## The memrefs the body is called with -/

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8192x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .f32 := win3_3.stage (cfg3.slots t 3)
abbrev hs3_3 (t : Fin cfg3.N) : (ms3_3 t).IsWhole := hstage3_3 ((cfg3.slots t 3).cast nbuf3_3)
/-- The scratch accumulator: a whole buffer of the kernel's own. -/
abbrev scM3 : Memref sig .tc .vmem S2048x128 .f32 := Memref.whole cc3_scratch0
abbrev VS3 : View sig .tc .vmem S2048x128 .f32 := (scM3).view
abbrev VO3_3 : View sig .tc .vmem S2048x128 .f32 := (Memref.whole cc3_stg3_0 : Memref sig .tc .vmem S2048x128 .f32).view

/-- The region's invariant before the first point, with the scratch accumulator taken out of the scoped rest. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run in each case -/

set_option maxHeartbeats 1000000 in
/-- kb = 0. The drow block and the output block are not touched; the scratch is handed over at anything. -/
noncomputable def kernelRun3_A (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) :
    Σ' (L3 : List (View.Piece (Elt F) S2048x128 .f32)), { LS : List (View.Piece (Elt F) S2048x128 .f32) //
      ∀ (xi1 : Vec F S2048x1 .f32) (xi3 : Vec F S2048x128 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨[], ?_, fun xi1 xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 1, 2. The scratch is handed over at what the point before left. -/
noncomputable def kernelRun3_B (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) :
    Σ' (L3 : List (View.Piece (Elt F) S2048x128 .f32)), { LS : List (View.Piece (Elt F) S2048x128 .f32) //
      ∀ (xi1 : Vec F S2048x1 .f32) (xi3 : Vec F S2048x128 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨[], ?_, fun xi1 xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 3. The drow block is read; the output block, handed over at anything, is stored whole. -/
noncomputable def kernelRun3_C (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch and in the output block -/

theorem scover3_A (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) (y : S2048x128.Idx) :
    ∃ pc ∈ (kernelRun3_A c i arg2 harg2 arg3 harg3 arg4 harg4 arg5 harg5 arg6 harg6 hc0 hc1 x0 x2).2.1, y ∈ pc.1.set :=
  View.cover_of_tiledL (kernelRun3_A c i arg2 harg2 arg3 harg3 arg4 harg4 arg5 harg5 arg6 harg6 hc0 hc1 x0 x2).2.1 S2048x128.size (by sl_kernel_rfl) y
def sout3_A (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) : Vec F S2048x128 .f32 :=
  VS3.read (Elt F) (VS3.writes (Elt F) VS3.junk (kernelRun3_A c i arg2 harg2 arg3 harg3 arg4 harg4 arg5 harg5 arg6 harg6 hc0 hc1 x0 x2).2.1)
/-- The output block is not stored into in this case: a placeholder nothing consults. -/
def out3_A_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) : Vec F S2048x128 .f32 :=
  VO3_3.read (Elt F) (VO3_3.writes (Elt F) VO3_3.junk (kernelRun3_A c i arg2 harg2 arg3 harg3 arg4 harg4 arg5 harg5 arg6 harg6 hc0 hc1 x0 x2).1)

theorem scover3_B (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) (y : S2048x128.Idx) :
    ∃ pc ∈ (kernelRun3_B c i arg2 harg2 arg3 harg3 arg4 harg4 arg5 harg5 arg6 harg6 hc0 hc1 x0 x2 xs).2.1, y ∈ pc.1.set :=
  View.cover_of_tiledL (kernelRun3_B c i arg2 harg2 arg3 harg3 arg4 harg4 arg5 harg5 arg6 harg6 hc0 hc1 x0 x2 xs).2.1 S2048x128.size (by sl_kernel_rfl) y
def sout3_B (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) : Vec F S2048x128 .f32 :=
  VS3.read (Elt F) (VS3.writes (Elt F) VS3.junk (kernelRun3_B c i arg2 harg2 arg3 harg3 arg4 harg4 arg5 harg5 arg6 harg6 hc0 hc1 x0 x2 xs).2.1)
def out3_B_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) : Vec F S2048x128 .f32 :=
  VO3_3.read (Elt F) (VO3_3.writes (Elt F) VO3_3.junk (kernelRun3_B c i arg2 harg2 arg3 harg3 arg4 harg4 arg5 harg5 arg6 harg6 hc0 hc1 x0 x2 xs).1)

theorem scover3_C (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) (y : S2048x128.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S2048x128.size (by sl_kernel_rfl) y
theorem cover3_C_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) (y : S2048x128.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S2048x128.size (by sl_kernel_rfl) y
def sout3_C (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) : Vec F S2048x128 .f32 :=
  VS3.read (Elt F) (VS3.writes (Elt F) VS3.junk (kernelRun3_C c i arg2 harg2 arg3 harg3 arg4 harg4 arg5 harg5 arg6 harg6 hc0 hc1 x0 x1 x2 xs).2.1)
def out3_C_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) : Vec F S2048x128 .f32 :=
  VO3_3.read (Elt F) (VO3_3.writes (Elt F) VO3_3.junk (kernelRun3_C c i arg2 harg2 arg3 harg3 arg4 harg4 arg5 harg5 arg6 harg6 hc0 hc1 x0 x1 x2 xs).1)

/-! ## What the output block's buffer and the scratch hold after each point -/

/-- After the body at position `n`: (the output block's buffer, the scratch accumulator). -/
def outsAt3 (c : Dev nD) : (n : ℕ) → n < cfg3.N → Vec F S2048x128 .f32 × Vec F S2048x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 2 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 2 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 2 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 2 t), sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 2 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards
    the scratch accumulator at what the point before left, the other scoped buffers at anything. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · have h1 : ¬t.val % 4 = 3 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 2 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 2 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover3_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 2 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover3_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-! ## The invariant at the region's two ends -/

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega), PhiA3_eq]
  iintro ⟨⟨HS, HR⟩, Hg⟩
  isplitl [HS HR]
  · isplitl [HS]
    · iexists _; iexact HS
    iexact HR
  iexact Hg

end Cert.KernelIdeal.Hand

end
-- ==== Proof.Reg4.lean ====
/-
  The last kernel region: one point, five whole-array input windows (the node embeddings, the transposed
  linear weight, its bias row, the query column, the score offset) and one output window, the pooled row.
  Stated at the contents `V` the region finds in the core's buffers.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S8192x128 := Rect.unit (s := S8192x128) ![0, 0] S8192x128.size inb_S8192x128_S8192x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S128x1 := Rect.unit (s := S128x1) ![0, 0] S128x1.size inb_S128x1_S128x1_0_0
abbrev r4_4 : Rect S1x1 := Rect.unit (s := S1x1) ![0, 0] S1x1.size inb_S1x1_S1x1_0_0

/-- The pooled row, as the one whole store leaves it. -/
def out4_5 (x0 : Vec F S8192x128 .f32) (x1 : Vec F S128x128 .f32) (x2 : Vec F S1x128 .f32) (x3 : Vec F S128x1 .f32) (x4 : Vec F S1x1 .f32) :
    Vec F S1x128 .f32 :=
  View.canon [⟨r4_2, k4_pay1 (View.ld x0 r4_0) (View.ld x1 r4_1) (View.ld x2 r4_2) (View.ld x3 r4_3) (View.ld x4 r4_4)⟩]

theorem cover4_5 (p0 : Vec F S1x128 .f32) (y : S1x128.Idx) :
    ∃ pc ∈ ([⟨r4_2, p0⟩] : List (View.Piece (Elt F) S1x128 .f32)), y ∈ pc.1.set :=
  View.cover_of_tiled [⟨r4_2, p0⟩] S1x128.size (by rfl) y

set_option maxHeartbeats 1000000 in
theorem sound_kernel4 (c : Dev nD) (E : Set ℕ) (i : grid4.Coords)
    (arg1 : Memref sig .tc .vmem S8192x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S1x128 .f32) (harg6 : arg6.IsWhole)
    (x0 : Vec F S8192x128 .f32) (x1 : Vec F S128x128 .f32) (x2 : Vec F S1x128 .f32) (x3 : Vec F S128x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of the last region on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.RunAll.lean ====
/-
  The whole program as ten segments: kernel region 0, three host operations, region 1, three host operations,
  region 2, three, region 3, three, region 4, one. The contents of the core's buffers at each of the eleven
  boundaries are a fold from the launch memory: after a stretch of host operations what the operations
  compute, after a region its windows' arrays at what the region's write-backs leave and every other buffer
  as it was. Each region is a record over those boundary states; the run composes them, and its post reads
  every buffer the core keeps between segments at the last boundary's contents.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import proofs.«111544_j24051816858257_2_alg».proof.Proof.Reg0
import proofs.«111544_j24051816858257_2_alg».proof.Proof.Reg1
import proofs.«111544_j24051816858257_2_alg».proof.Proof.Reg2
import proofs.«111544_j24051816858257_2_alg».proof.Proof.Reg3
import proofs.«111544_j24051816858257_2_alg».proof.Proof.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev VV0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
abbrev W4 : Dev nD → Valuation τ sig (Elt F) := fun c => StableHlo.after hostOps2 (W3 m c)
abbrev VV4 : (c : Dev nD) → (b : Ref sig .tc) → Buf (Elt F) ((c : Thread nD τ).loc b) := fun c b => W4 m c b
def W5 (c : Dev nD) : Valuation τ sig (Elt F) :=
  Pipeline.withArrays spec2 c (W4 m c) fun w => (dat2 (VV4 m) c).arrAt w cfg2.N
theorem W5_arr (c : Dev nD) (w : Fin cfg2.W) :
    W5 m c (Proc.devRef .tc (Pipeline.arrRef spec2 w)) = (dat2 (VV4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev VV5 : (c : Dev nD) → (b : Ref sig .tc) → Buf (Elt F) ((c : Thread nD τ).loc b) := fun c b => W5 m c b
theorem hF2 (c : Dev nD) (w : Fin cfg2.W) : (dat2 (VV4 m) c).arrAt w cfg2.N = VV5 m c (Pipeline.arrRef spec2 w) :=
  (W5_arr m c w).symm
theorem hrest2 (c : Dev nD) : ∀ b, b ∉ Finset.univ.image (Pipeline.arrRef spec2) → VV5 m c b = VV4 m c b :=
  fun b hb => W5_of_ne m c b fun w e => hb (Finset.mem_image.mpr ⟨w, Finset.mem_univ _, e⟩)
abbrev W6 : Dev nD → Valuation τ sig (Elt F) := fun c => StableHlo.after hostOps3 (W5 m c)
abbrev VV6 : (c : Dev nD) → (b : Ref sig .tc) → Buf (Elt F) ((c : Thread nD τ).loc b) := fun c b => W6 m c b
def W7 (c : Dev nD) : Valuation τ sig (Elt F) :=
  Pipeline.withArrays spec3 c (W6 m c) fun w => (dat3 (VV6 m) c).arrAt w cfg3.N
theorem W7_arr (c : Dev nD) (w : Fin cfg3.W) :
    W7 m c (Proc.devRef .tc (Pipeline.arrRef spec3 w)) = (dat3 (VV6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev VV7 : (c : Dev nD) → (b : Ref sig .tc) → Buf (Elt F) ((c : Thread nD τ).loc b) := fun c b => W7 m c b
theorem hF3 (c : Dev nD) (w : Fin cfg3.W) : (dat3 (VV6 m) c).arrAt w cfg3.N = VV7 m c (Pipeline.arrRef spec3 w) :=
  (W7_arr m c w).symm
theorem hrest3 (c : Dev nD) : ∀ b, b ∉ Finset.univ.image (Pipeline.arrRef spec3) → VV7 m c b = VV6 m c b :=
  fun b hb => W7_of_ne m c b fun w e => hb (Finset.mem_image.mpr ⟨w, Finset.mem_univ _, e⟩)
abbrev W8 : Dev nD → Valuation τ sig (Elt F) := fun c => StableHlo.after hostOps4 (W7 m c)
abbrev VV8 : (c : Dev nD) → (b : Ref sig .tc) → Buf (Elt F) ((c : Thread nD τ).loc b) := fun c b => W8 m c b
def W9 (c : Dev nD) : Valuation τ sig (Elt F) :=
  Pipeline.withArrays spec4 c (W8 m c) fun w => (dat4 (VV8 m) c).arrAt w cfg4.N
theorem W9_arr (c : Dev nD) (w : Fin cfg4.W) :
    W9 m c (Proc.devRef .tc (Pipeline.arrRef spec4 w)) = (dat4 (VV8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev VV9 : (c : Dev nD) → (b : Ref sig .tc) → Buf (Elt F) ((c : Thread nD τ).loc b) := fun c b => W9 m c b
theorem hF4 (c : Dev nD) (w : Fin cfg4.W) : (dat4 (VV8 m) c).arrAt w cfg4.N = VV9 m c (Pipeline.arrRef spec4 w) :=
  (W9_arr m c w).symm
theorem hrest4 (c : Dev nD) : ∀ b, b ∉ Finset.univ.image (Pipeline.arrRef spec4) → VV9 m c b = VV8 m c b :=
  fun b hb => W9_of_ne m c b fun w e => hb (Finset.mem_image.mpr ⟨w, Finset.mem_univ _, e⟩)
abbrev W10 : Dev nD → Valuation τ sig (Elt F) := fun c => StableHlo.after hostOps5 (W9 m c)
abbrev VV10 : (c : Dev nD) → (b : Ref sig .tc) → Buf (Elt F) ((c : Thread nD τ).loc b) := fun c b => W10 m c b

/-! ## The proof data of the five regions, and the thread state -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
  | ⟨2, _⟩ => fun c => dat2 (VV4 m) c
  | ⟨3, _⟩ => fun c => dat3 (VV6 m) c
  | ⟨4, _⟩ => fun c => dat4 (VV8 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0: entered from every buffer at boundary 0's contents, left at boundary 1's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at boundary 2's contents, left at boundary 3's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VV2 m) c)
    unfold Pipeline.ΦA
    iintro ⟨Hp, -, Hr⟩
    isplitl [Hr]; · iexact Hr
    iexact Hp
  hout c := by
    rw [Pipeline.ownSems0_none]
    refine .trans (hout1 (VV2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every buffer at boundary 4's contents, left at boundary 5's. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (VV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (VV4 m) c)
    unfold Pipeline.ΦA
    iintro ⟨Hp, -, Hr⟩
    isplitl [Hr]; · iexact Hr
    iexact Hp
  hout c := by
    rw [Pipeline.ownSems0_none]
    refine .trans (hout2 (VV4 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV4 m c) (VV5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every buffer at boundary 6's contents, left at boundary 7's. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VV6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (VV6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (VV6 m) c)
    unfold Pipeline.ΦA
    iintro ⟨Hp, -, Hr⟩
    isplitl [Hr]; · iexact Hr
    iexact Hp
  hout c := by
    rw [Pipeline.ownSems0_none]
    refine .trans (hout3 (VV6 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VV6 m c) (VV7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every buffer at boundary 8's contents, left at boundary 9's. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VV8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (VV8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VV8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VV8 m c) (VV9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)) ]

theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of the program terminates, nothing
    faulting, and in every final state each buffer the core keeps between segments holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W10 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KFun.lean ====
/-
  The kernel's two results as functions of its nine argument arrays, over the body's named arithmetic.

  The program is five passes with a little host arithmetic between them.
  * Pass 0 walks the adjacency matrix A in 16 blocks of 512 rows: from a block it makes 512 entries of the
    column D (the inverse square roots of the row sums) and the block itself at the narrower format.
  * Passes 1, 2 and 3 each form  D · (A S)  for a scaled right-hand side S, on a 4 × 4 grid of 2048-wide
    tiles: for a block ib of 2048 rows an accumulator starts at zero and takes the tiles kb = 0, 1, 2, 3 of
    the contraction in turn; after the last tile the accumulator is rescaled by the rows' entries of D
    (and, in passes 1 and 2, clamped below at zero).
  * Pass 4 sees whole arrays: attention scores, their softmax down the 8192 nodes, the pooled row.
  Between the passes the host forms  S = D · (H W)  for the next weight matrix.

  Everything here is a definition; nothing is proved in this file.
-/
import proofs.«111544_j24051816858257_2_alg».proof.Proof.Gen.KernelIdeal.Skeleton
import Idealize.ShloMosaic.Lib.ValueIdx

noncomputable section

namespace Cert.KernelIdeal.KFun

open Cert.KernelIdeal Cert.KernelIdeal.Gen Idealize.ShloMosaic Idealize.ShloMosaic.ValueIdx

variable {F : FTy → Type} [FloatOps F]

/-- Rows 512·t … 512·t + 511 of a matrix of 8192 rows. -/
def rows512 {C : Nat} {e : EltTy} (X : Vec F ⟨2, ![8192, C]⟩ e) (t : Fin 16) : Vec F ⟨2, ![512, C]⟩ e :=
  fun y => X (ix2 (⟨512 * t.val + (y 0 : Fin 512).val, by have := t.isLt; have h : (y 0).val < 512 := (y 0).isLt; omega⟩ : Fin 8192) (y 1 : Fin C))

/-- Rows 2048·t … 2048·t + 2047 of a matrix of 8192 rows. -/
def rows2048 {C : Nat} {e : EltTy} (X : Vec F ⟨2, ![8192, C]⟩ e) (t : Fin 4) : Vec F ⟨2, ![2048, C]⟩ e :=
  fun y => X (ix2 (⟨2048 * t.val + (y 0 : Fin 2048).val, by have := t.isLt; have h : (y 0).val < 2048 := (y 0).isLt; omega⟩ : Fin 8192) (y 1 : Fin C))

/-- The 2048 × 2048 tile (ib, kb) of an 8192 × 8192 matrix. -/
def tile2048 {e : EltTy} (X : Vec F ⟨2, ![8192, 8192]⟩ e) (ib kb : Fin 4) : Vec F ⟨2, ![2048, 2048]⟩ e :=
  fun y => X (ix2 (⟨2048 * ib.val + (y 0 : Fin 2048).val, by have := ib.isLt; have h : (y 0).val < 2048 := (y 0).isLt; omega⟩ : Fin 8192)
    (⟨2048 * kb.val + (y 1 : Fin 2048).val, by have := kb.isLt; have h : (y 1).val < 2048 := (y 1).isLt; omega⟩ : Fin 8192))

/-- The block number and the row inside the block, for blocks of B rows. -/
def blkOf (B T : Nat) (hB : 0 < B) (i : Fin (T * B)) : Fin T := ⟨i.val / B, (Nat.div_lt_iff_lt_mul hB).mpr i.isLt⟩
def rowIn (B T : Nat) (hB : 0 < B) (i : Fin (T * B)) : Fin B := ⟨i.val % B, Nat.mod_lt _ hB⟩

/-! ## Pass 0 -/

/-- The column of inverse square roots of A's row sums. -/
def KD (A : Vec F S8192x8192 .f32) : Vec F S8192x1 .f32 := fun i =>
  k0_pay1 (rows512 A (blkOf 512 16 (by decide) (i 0 : Fin 8192))) (ix2 (rowIn 512 16 (by decide) (i 0 : Fin 8192)) (i 1 : Fin 1))

/-- A at the narrower format. -/
def KA (A : Vec F S8192x8192 .f32) : Vec F S8192x8192 .bf16 := fun i =>
  k0_pay2 (rows512 A (blkOf 512 16 (by decide) (i 0 : Fin 8192))) (ix2 (rowIn 512 16 (by decide) (i 0 : Fin 8192)) (i 1 : Fin 8192))

/-! ## Passes 1, 2, 3: the accumulator after tile kb of row block ib, and the pass's result -/

def acc1 (Ab : Vec F S8192x8192 .bf16) (S : Vec F S8192x256 .f32) (ib : Fin 4) : (kb : Nat) → kb < 4 → Vec F S2048x256 .f32
  | 0, h => k1_pay2 (rows2048 S ⟨0, h⟩) (tile2048 Ab ib ⟨0, h⟩) (k1_pay1 (F := F))
  | kb + 1, h => k1_pay2 (rows2048 S ⟨kb + 1, h⟩) (tile2048 Ab ib ⟨kb + 1, h⟩) (acc1 Ab S ib kb (Nat.lt_of_succ_lt h))

def KH1 (Ab : Vec F S8192x8192 .bf16) (D : Vec F S8192x1 .f32) (S : Vec F S8192x256 .f32) : Vec F S8192x256 .f32 := fun i =>
  k1_pay3 (acc1 Ab S (blkOf 2048 4 (by decide) (i 0 : Fin 8192)) 3 (by decide)) (rows2048 D (blkOf 2048 4 (by decide) (i 0 : Fin 8192)))
    (ix2 (rowIn 2048 4 (by decide) (i 0 : Fin 8192)) (i 1 : Fin 256))

def acc2 (Ab : Vec F S8192x8192 .bf16) (S : Vec F S8192x256 .f32) (ib : Fin 4) : (kb : Nat) → kb < 4 → Vec F S2048x256 .f32
  | 0, h => k2_pay2 (rows2048 S ⟨0, h⟩) (tile2048 Ab ib ⟨0, h⟩) (k2_pay1 (F := F))
  | kb + 1, h => k2_pay2 (rows2048 S ⟨kb + 1, h⟩) (tile2048 Ab ib ⟨kb + 1, h⟩) (acc2 Ab S ib kb (Nat.lt_of_succ_lt h))

def KH2 (Ab : Vec F S8192x8192 .bf16) (D : Vec F S8192x1 .f32) (S : Vec F S8192x256 .f32) : Vec F S8192x256 .f32 := fun i =>
  k2_pay3 (acc2 Ab S (blkOf 2048 4 (by decide) (i 0 : Fin 8192)) 3 (by decide)) (rows2048 D (blkOf 2048 4 (by decide) (i 0 : Fin 8192)))
    (ix2 (rowIn 2048 4 (by decide) (i 0 : Fin 8192)) (i 1 : Fin 256))

def acc3 (Ab : Vec F S8192x8192 .bf16) (S : Vec F S8192x128 .f32) (ib : Fin 4) : (kb : Nat) → kb < 4 → Vec F S2048x128 .f32
  | 0, h => k3_pay2 (rows2048 S ⟨0, h⟩) (tile2048 Ab ib ⟨0, h⟩) (k3_pay1 (F := F))
  | kb + 1, h => k3_pay2 (rows2048 S ⟨kb + 1, h⟩) (tile2048 Ab ib ⟨kb + 1, h⟩) (acc3 Ab S ib kb (Nat.lt_of_succ_lt h))

def KZ (Ab : Vec F S8192x8192 .bf16) (D : Vec F S8192x1 .f32) (S : Vec F S8192x128 .f32) : Vec F S8192x128 .f32 := fun i =>
  k3_pay3 (acc3 Ab S (blkOf 2048 4 (by decide) (i 0 : Fin 8192)) 3 (by decide)) (rows2048 D (blkOf 2048 4 (by decide) (i 0 : Fin 8192)))
    (ix2 (rowIn 2048 4 (by decide) (i 0 : Fin 8192)) (i 1 : Fin 128))

/-! ## The host's arithmetic between the passes, and the two results -/

def scaled1 (D : Vec F S8192x1 .f32) (x : Vec F S8192x128 .f32) (W1 : Vec F S128x256 .f32) : Vec F S8192x256 .f32 :=
  mulf (broadcastInDim S8192x256 ![0, 1] bcast_S8192x1_S8192x256_0_1 D) (Host.dotGeneral dot_S8192x128_S128x256_S8192x256_1_0_0_1_n_n none x W1)

def scaled2 (D : Vec F S8192x1 .f32) (H : Vec F S8192x256 .f32) (W2 : Vec F S256x256 .f32) : Vec F S8192x256 .f32 :=
  mulf (broadcastInDim S8192x256 ![0, 1] bcast_S8192x1_S8192x256_0_1 D) (Host.dotGeneral dot_S8192x256_S256x256_S8192x256_1_0_0_1_n_n none H W2)

def scaled3 (D : Vec F S8192x1 .f32) (H : Vec F S8192x256 .f32) (W3 : Vec F S256x128 .f32) : Vec F S8192x128 .f32 :=
  mulf (broadcastInDim S8192x128 ![0, 1] bcast_S8192x1_S8192x128_0_1 D) (Host.dotGeneral dot_S8192x256_S256x128_S8192x128_1_0_0_1_n_n none H W3)

/-- The first result: the node embeddings after the three layers. -/
def kernelZ (x : Vec F S8192x128 .f32) (A : Vec F S8192x8192 .f32) (W1 : Vec F S128x256 .f32) (W2 : Vec F S256x256 .f32)
    (W3 : Vec F S256x128 .f32) : Vec F S8192x128 .f32 :=
  KZ (KA A) (KD A) (scaled3 (KD A) (KH2 (KA A) (KD A) (scaled2 (KD A) (KH1 (KA A) (KD A) (scaled1 (KD A) x W1)) W2)) W3)

/-- The second result: the attention-pooled row, as a vector of 128. -/
def kernelG (Z : Vec F S8192x128 .f32) (Wl : Vec F S128x128 .f32) (bl : Vec F S128 .f32) (q : Vec F S128x1 .f32) (b : Vec F S1 .f32) :
    Vec F S128 .f32 :=
  shapeCast S128 (k4_pay1 Z (transpose S128x128 [1, 0] Wl transposes_S128x128_S128x128_1_0) (shapeCast S1x128 bl shapeCasts_S128_S1x128) q
    (shapeCast S1x1 b shapeCasts_S1_S1x1)) shapeCasts_S1x128_S128

end Cert.KernelIdeal.KFun

end
-- ==== Proof.Val0.lean ====
/-
  What region 0 leaves in its two result arrays, as whole-array functions of the adjacency matrix it reads:
  block t of the column D is the body's first payload of rows 512·t … 512·t + 511, block t of the narrowed
  copy its second payload of the same rows; the sixteen blocks tile both arrays.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import proofs.«111544_j24051816858257_2_alg».proof.Proof.Reg0
import proofs.«111544_j24051816858257_2_alg».proof.Proof.KFun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.KFun Idealize.ShloMosaic.ValueIdx

theorem hz2 : (![0, 0] : Fin 2 → Nat) = fun _ => 0 := funext fun a => by fin_cases a <;> rfl

theorem out0_1_eq (x0 : Vec F S512x8192 .f32) : out0_1 x0 = k0_pay1 x0 := by
  unfold out0_1; rw [View.canon_unit_zero hz2]; simp only [View.ld_unit_zero (S := S512x8192) hz2]

theorem out0_2_eq (x0 : Vec F S512x8192 .f32) : out0_2 x0 = k0_pay2 x0 := by
  unfold out0_2; rw [View.canon_unit_zero hz2]; simp only [View.ld_unit_zero (S := S512x8192) hz2]

/-- The three windows' block indices at point t: row block t, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

def tt0 (t : Fin cfg0.N) : Fin 16 := ⟨t.val, lt_of_lt_of_eq t.isLt N_0⟩

/-- The input block at point t is rows 512·t … of the matrix. -/
theorem iblk0_0_eq (c : Dev nD) (t : Fin cfg0.N) :
    iblk0 V c 0 t = rows512 (V c main_arg1) (tt0 t) := by
  obtain ⟨e0, e1, -, -, -, -⟩ := idx_facts0 t
  funext y
  show V c main_arg1 (((cfg0.win 0).blk t).view.emb y) = V c main_arg1 _
  refine congrArg _ (funext fun a => Fin.ext ?_)
  match a with
  | ⟨0, _⟩ => show win0_0.index t (0 : Fin 2) * 512 + 1 * (y 0).val = 512 * t.val + (y 0).val; omega
  | ⟨1, _⟩ => show win0_0.index t (1 : Fin 2) * 8192 + 1 * (y 1).val = (y 1).val; omega

theorem KD_at (A : Vec F S8192x8192 .f32) (t : Fin 16) (p : Fin 512) (z : Fin 1) (h : 512 * t.val + p.val < 8192) :
    KD A (ix2 (⟨512 * t.val + p.val, h⟩ : Fin 8192) z) = k0_pay1 (rows512 A t) (ix2 p z) := by
  unfold KD
  have hb : blkOf 512 16 (by decide) (⟨512 * t.val + p.val, h⟩ : Fin 8192) = t := Fin.ext (by show (512 * t.val + p.val) / 512 = t.val; have := p.isLt; omega)
  have hr : rowIn 512 16 (by decide) (⟨512 * t.val + p.val, h⟩ : Fin 8192) = p := Fin.ext (by show (512 * t.val + p.val) % 512 = p.val; have := p.isLt; omega)
  show k0_pay1 (rows512 A (blkOf 512 16 _ (⟨512 * t.val + p.val, h⟩ : Fin 8192))) (ix2 (rowIn 512 16 _ (⟨512 * t.val + p.val, h⟩ : Fin 8192)) z) = _
  rw [hb, hr]

theorem KA_at (A : Vec F S8192x8192 .f32) (t : Fin 16) (p : Fin 512) (z : Fin 8192) (h : 512 * t.val + p.val < 8192) :
    KA A (ix2 (⟨512 * t.val + p.val, h⟩ : Fin 8192) z) = k0_pay2 (rows512 A t) (ix2 p z) := by
  unfold KA
  have hb : blkOf 512 16 (by decide) (⟨512 * t.val + p.val, h⟩ : Fin 8192) = t := Fin.ext (by show (512 * t.val + p.val) / 512 = t.val; have := p.isLt; omega)
  have hr : rowIn 512 16 (by decide) (⟨512 * t.val + p.val, h⟩ : Fin 8192) = p := Fin.ext (by show (512 * t.val + p.val) % 512 = p.val; have := p.isLt; omega)
  show k0_pay2 (rows512 A (blkOf 512 16 _ (⟨512 * t.val + p.val, h⟩ : Fin 8192))) (ix2 (rowIn 512 16 _ (⟨512 * t.val + p.val, h⟩ : Fin 8192)) z) = _
  rw [hb, hr]

/-- What point t writes back into the column D is block t of `KD` of the matrix. -/
theorem flushed0_1_eq (c : Dev nD) (t : Fin cfg0.N) :
    (dat0 V c).flushed 1 t = ((cfg0.win 1).blk t).view.read (Elt F) (KD (V c main_arg1)) := by
  show (cfg0.win 1).cut (grid0.coords t) ((dat0 V c).after 1 t) = _
  rw [after0_1, out0_1_eq, iblk0_0_eq]
  obtain ⟨-, -, e2, e3, -, -⟩ := idx_facts0 t
  funext j
  show k0_pay1 (rows512 (V c main_arg1) (tt0 t)) j = KD (V c main_arg1) (((cfg0.win 1).blk t).view.emb j)
  have hj0 : (j 0).val < 512 := (j 0).isLt
  have hj1 : (j 1).val < 1 := (j 1).isLt
  have ht : t.val < 16 := lt_of_lt_of_eq t.isLt N_0
  have hemb : ((cfg0.win 1).blk t).view.emb j = ix2 (⟨512 * (tt0 t).val + (⟨(j 0).val, hj0⟩ : Fin 512).val, by show 512 * t.val + (j 0).val < 8192; omega⟩ : Fin 8192) (⟨(j 1).val, hj1⟩ : Fin 1) := by
    funext a; apply Fin.ext
    match a with
    | ⟨0, _⟩ => show win0_1.index t (0 : Fin 2) * 512 + 1 * (j 0).val = 512 * t.val + (j 0).val; omega
    | ⟨1, _⟩ => show win0_1.index t (1 : Fin 2) * 1 + 1 * (j 1).val = (j 1).val; omega
  rw [hemb, KD_at]
  exact congrArg _ (eq_ix2 j)

theorem flushed0_2_eq (c : Dev nD) (t : Fin cfg0.N) :
    (dat0 V c).flushed 2 t = ((cfg0.win 2).blk t).view.read (Elt F) (KA (V c main_arg1)) := by
  show (cfg0.win 2).cut (grid0.coords t) ((dat0 V c).after 2 t) = _
  rw [after0_2, out0_2_eq, iblk0_0_eq]
  obtain ⟨-, -, -, -, e4, e5⟩ := idx_facts0 t
  funext j
  show k0_pay2 (rows512 (V c main_arg1) (tt0 t)) j = KA (V c main_arg1) (((cfg0.win 2).blk t).view.emb j)
  have hj0 : (j 0).val < 512 := (j 0).isLt
  have hj1 : (j 1).val < 8192 := (j 1).isLt
  have ht : t.val < 16 := lt_of_lt_of_eq t.isLt N_0
  have hemb : ((cfg0.win 2).blk t).view.emb j = ix2 (⟨512 * (tt0 t).val + (⟨(j 0).val, hj0⟩ : Fin 512).val, by show 512 * t.val + (j 0).val < 8192; omega⟩ : Fin 8192) (⟨(j 1).val, hj1⟩ : Fin 8192) := by
    funext a; apply Fin.ext
    match a with
    | ⟨0, _⟩ => show win0_2.index t (0 : Fin 2) * 512 + 1 * (j 0).val = 512 * t.val + (j 0).val; omega
    | ⟨1, _⟩ => show win0_2.index t (1 : Fin 2) * 8192 + 1 * (j 1).val = (j 1).val; omega
  rw [hemb, KA_at]
  exact congrArg _ (eq_ix2 j)

theorem mem_blk0_1 (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

theorem mem_blk0_2 (t : Fin cfg0.N) (i : S8192x8192.Idx) :
    i ∈ ((cfg0.win 2).blk t).view.set ↔ ∀ a : Fin 2, win0_2.index t a * S512x8192.size a ≤ (i a).val ∧ (i a).val < win0_2.index t a * S512x8192.size a + S512x8192.size a := by
  show i ∈ ((View.whole main_v0_1).slice (win0_2.rect t)).set ↔ _
  rw [View.set_slice_whole, Rect.mem_set_unit]
  exact Iff.rfl

/-- Row r of either result is in the block of point r / 512. -/
theorem covered0_1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  let t : Fin cfg0.N := ⟨(i 0).val / 512, by rw [show cfg0.N = 16 from N_0]; omega⟩
  obtain ⟨-, -, e2, e3, -, -⟩ := idx_facts0 t
  have etv : t.val = (i 0).val / 512 := rfl
  refine ⟨t, flush0_1 t, ?_⟩
  rw [mem_blk0_1]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

theorem covered0_2 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  let t : Fin cfg0.N := ⟨(i 0).val / 512, by rw [show cfg0.N = 16 from N_0]; omega⟩
  obtain ⟨-, -, -, -, e4, e5⟩ := idx_facts0 t
  have etv : t.val = (i 0).val / 512 := rfl
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 8192 ≤ (i 1).val ∧ (i 1).val < win0_2.index t (1 : Fin 2) * 8192 + 8192; omega

/-- THE TWO RESULT ARRAYS of region 0 after its sixteen points. -/
theorem final0_1 (c : Dev nD) : (dat0 V c).arrAt 1 cfg0.N = KD (V c main_arg1) :=
  (dat0 V c).arrAt_eq_of_cover 1 (KD (V c main_arg1)) (fun t _ => flushed0_1_eq V c t) covered0_1

theorem final0_2 (c : Dev nD) : (dat0 V c).arrAt 2 cfg0.N = KA (V c main_arg1) :=
  (dat0 V c).arrAt_eq_of_cover 2 (KA (V c main_arg1)) (fun t _ => flushed0_2_eq V c t) covered0_2

end Cert.KernelIdeal.Hand

end
-- ==== Proof.Val1.lean ====
/-
  What region 1 leaves in its result array, as a whole-array function of the three arrays it reads (the narrowed
  adjacency matrix, the column D, the scaled right-hand side): at point t = 4·ib + kb the scratch holds the
  accumulator of row block ib after tiles 0 … kb, and the block written at kb = 3 is the rescaled, clamped
  accumulator; the four written blocks tile the result.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import proofs.«111544_j24051816858257_2_alg».proof.Proof.Reg1
import proofs.«111544_j24051816858257_2_alg».proof.Proof.KFun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.KFun Idealize.ShloMosaic.ValueIdx

theorem hz1 : (![0, 0] : Fin 2 → Nat) = fun _ => 0 := funext fun a => by fin_cases a <;> rfl

/-! ## What each case's run leaves, over the body's named arithmetic -/

/-- The rows of the right-hand side the point reads. -/
abbrev rhsRect1 (i : grid1.Coords) : Rect S8192x256 := Rect.unit (s := S8192x256) (k1_off1 i) S2048x256.size (k1_off1_inb i)

theorem sout1_A_eq (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) :
    sout1_A (F := F) c i arg2 harg2 arg3 harg3 arg4 harg4 arg5 harg5 arg6 harg6 hc0 hc1 x0 x2 = k1_pay2 (View.ld x2 (rhsRect1 i)) x0 (k1_pay1 (F := F)) := by
  unfold sout1_A
  rw [View.read_writes_eq_canon _ _ _ (scover1_A c i arg2 harg2 arg3 harg3 arg4 harg4 arg5 harg5 arg6 harg6 hc0 hc1 x0 x2)]
  unfold kernelRun1_A
  dsimp only
  sl_unfold_words
  rw [View.canon_cons_unit_zero hz1]
  simp only [View.readAt_eq_ld, harg4.read_unread, harg2.read_unread, View.ld_unit_zero (S := S2048x2048) hz1]
  rw [View.readCov_unit_zero (S := S2048x256) arg6.view hz1]
  rfl

theorem sout1_B_eq (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) :
    sout1_B (F := F) c i arg2 harg2 arg3 harg3 arg4 harg4 arg5 harg5 arg6 harg6 hc0 hc1 x0 x2 xs = k1_pay2 (View.ld x2 (rhsRect1 i)) x0 xs := by
  unfold sout1_B
  rw [View.read_writes_eq_canon _ _ _ (scover1_B c i arg2 harg2 arg3 harg3 arg4 harg4 arg5 harg5 arg6 harg6 hc0 hc1 x0 x2 xs)]
  unfold kernelRun1_B
  dsimp only
  sl_unfold_words
  rw [View.canon_cons_unit_zero hz1]
  simp only [View.readAt_eq_ld, harg4.read_unread, harg2.read_unread, harg6.read_unread, View.ld_unit_zero (S := S2048x2048) hz1, View.ld_unit_zero (S := S2048x256) hz1]
  rfl

theorem out1_C_eq (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) :
    out1_C_3 (F := F) c i arg2 harg2 arg3 harg3 arg4 harg4 arg5 harg5 arg6 harg6 hc0 hc1 x0 x1 x2 xs = k1_pay3 (k1_pay2 (View.ld x2 (rhsRect1 i)) x0 xs) x1 := by
  unfold out1_C_3
  rw [View.read_writes_eq_canon _ _ _ (cover1_C_3 c i arg2 harg2 arg3 harg3 arg4 harg4 arg5 harg5 arg6 harg6 hc0 hc1 x0 x1 x2 xs)]
  unfold kernelRun1_C
  dsimp only
  sl_unfold_words
  rw [View.canon_unit_zero hz1]
  simp only [View.readAt_eq_ld, harg4.read_unread, harg2.read_unread, harg3.read_unread, harg6.read_unread, View.ld_unit_zero (S := S2048x2048) hz1, View.ld_unit_zero (S := S2048x256) hz1, View.ld_unit_zero (S := S2048x1) hz1]
  rw [View.readCov_unit_zero (S := S2048x256) arg6.view hz1]
  rfl

theorem sout1_C_eq (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) :
    sout1_C (F := F) c i arg2 harg2 arg3 harg3 arg4 harg4 arg5 harg5 arg6 harg6 hc0 hc1 x0 x1 x2 xs = k1_pay2 (View.ld x2 (rhsRect1 i)) x0 xs := by
  unfold sout1_C
  rw [View.read_writes_eq_canon _ _ _ (scover1_C c i arg2 harg2 arg3 harg3 arg4 harg4 arg5 harg5 arg6 harg6 hc0 hc1 x0 x1 x2 xs)]
  unfold kernelRun1_C
  dsimp only
  sl_unfold_words
  rw [View.canon_cons_unit_zero hz1]
  simp only [View.readAt_eq_ld, harg4.read_unread, harg2.read_unread, harg6.read_unread, View.ld_unit_zero (S := S2048x2048) hz1, View.ld_unit_zero (S := S2048x256) hz1]
  rfl

/-! ## The windows' blocks as tiles and rows of the whole arrays -/

/-- Point t = 4·ib + kb: the tile (ib, kb) of the matrix, rows ib of the column, the whole right-hand side,
    rows ib of the result; the body reads rows kb of the right-hand side. -/
theorem idx_facts1 : ∀ t : Fin cfg1.N, win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

def ib1 (t : Fin cfg1.N) : Fin 4 := ⟨t.val / 4, by have := lt_of_lt_of_eq t.isLt N_1; omega⟩
def kb1 (t : Fin cfg1.N) : Fin 4 := ⟨t.val % 4, Nat.mod_lt _ (by decide)⟩

variable (Ab : Vec F S8192x8192 .bf16) (D : Vec F S8192x1 .f32) (S : Vec F S8192x256 .f32)
variable (c : Dev nD) (hAb : V c main_v0_1 = Ab) (hD : V c main_v0_0 = D) (hS : V c main_v3 = S)

include hAb in
theorem iblk1_0_eq (t : Fin cfg1.N) : iblk1 V c 0 t = tile2048 Ab (ib1 t) (kb1 t) := by
  obtain ⟨e0, e1, -, -, -, -, -, -, -, -⟩ := idx_facts1 t
  funext y
  show V c main_v0_1 (((cfg1.win 0).blk t).view.emb y) = tile2048 Ab (ib1 t) (kb1 t) y
  rw [hAb]
  refine congrArg Ab (funext fun a => Fin.ext ?_)
  match a with
  | ⟨0, _⟩ => show win1_0.index t (0 : Fin 2) * 2048 + 1 * (y 0).val = 2048 * (t.val / 4) + (y 0).val; omega
  | ⟨1, _⟩ => show win1_0.index t (1 : Fin 2) * 2048 + 1 * (y 1).val = 2048 * (t.val % 4) + (y 1).val; omega

include hD in
theorem iblk1_1_eq (t : Fin cfg1.N) : iblk1 V c 1 t = rows2048 D (ib1 t) := by
  obtain ⟨-, -, e2, e3, -, -, -, -, -, -⟩ := idx_facts1 t
  funext y
  show V c main_v0_0 (((cfg1.win 1).blk t).view.emb y) = rows2048 D (ib1 t) y
  rw [hD]
  refine congrArg D (funext fun a => Fin.ext ?_)
  match a with
  | ⟨0, _⟩ => show win1_1.index t (0 : Fin 2) * 2048 + 1 * (y 0).val = 2048 * (t.val / 4) + (y 0).val; omega
  | ⟨1, _⟩ => show win1_1.index t (1 : Fin 2) * 1 + 1 * (y 1).val = (y 1).val; omega

include hS in
/-- The rows of the right-hand side the body reads at point t are rows kb. -/
theorem ld_iblk1_2_eq (t : Fin cfg1.N) :
    View.ld (iblk1 V c 2 t) (rhsRect1 (grid1.coords t)) = rows2048 S (kb1 t) := by
  obtain ⟨-, -, -, -, e4, e5, -, -, e8, e9⟩ := idx_facts1 t
  funext y
  show V c main_v3 (((cfg1.win 2).blk t).view.emb ((rhsRect1 (grid1.coords t)).emb y)) = rows2048 S (kb1 t) y
  rw [hS]
  refine congrArg S (funext fun a => Fin.ext ?_)
  match a with
  | ⟨0, _⟩ => show win1_2.index t (0 : Fin 2) * 8192 + 1 * (k1_off1 (grid1.coords t) (0 : Fin 2) + 1 * (y 0).val) = 2048 * (t.val % 4) + (y 0).val; omega
  | ⟨1, _⟩ => show win1_2.index t (1 : Fin 2) * 256 + 1 * (k1_off1 (grid1.coords t) (1 : Fin 2) + 1 * (y 1).val) = (y 1).val; omega

/-! ## The accumulator, point by point -/

theorem acc1_zero (ib : Fin 4) (kb : Nat) (h : kb < 4) (hk : kb = 0) :
    acc1 Ab S ib kb h = k1_pay2 (rows2048 S ⟨kb, h⟩) (tile2048 Ab ib ⟨kb, h⟩) (k1_pay1 (F := F)) := by
  subst hk; rfl

theorem acc1_pos (ib : Fin 4) (kb : Nat) (h : kb < 4) (hk : kb ≠ 0) :
    acc1 Ab S ib kb h = k1_pay2 (rows2048 S ⟨kb, h⟩) (tile2048 Ab ib ⟨kb, h⟩) (acc1 Ab S ib (kb - 1) (by omega)) := by
  cases kb with
  | zero => exact absurd rfl hk
  | succ k => rfl

theorem acc1_congr (ib ib' : Fin 4) (kb kb' : Nat) (h : kb < 4) (h' : kb' < 4) (e1 : ib = ib') (e2 : kb = kb') :
    acc1 Ab S ib kb h = acc1 Ab S ib' kb' h' := by subst e1; subst e2; rfl

/-- One step of the accumulation at point t over what the scratch held before. -/
abbrev step1 (t : Fin cfg1.N) (prev : Vec F S2048x256 .f32) : Vec F S2048x256 .f32 :=
  k1_pay2 (rows2048 S (kb1 t)) (tile2048 Ab (ib1 t) (kb1 t)) prev

include hAb hS in
set_option maxHeartbeats 1000000 in
theorem scratch1_A (t : Fin cfg1.N) (h0 : t.val % 4 = 0) :
    (outsAt1 V c t.val t.isLt).2 = step1 Ab S t (k1_pay1 (F := F)) := by
  rw [outsAt1_A V c t h0 (by omega)]
  dsimp only
  rw [sout1_A_eq, iblk1_0_eq V Ab c hAb, ld_iblk1_2_eq V S c hS]

include hAb hS in
set_option maxHeartbeats 1000000 in
theorem scratch1_B (t : Fin cfg1.N) (h0 : ¬t.val % 4 = 0) (h1 : ¬t.val % 4 = 3) :
    (outsAt1 V c t.val t.isLt).2 = step1 Ab S t (outsAt1 V c (t.val - 1) (Nat.lt_of_le_of_lt (Nat.sub_le _ _) t.isLt)).2 := by
  rw [outsAt1_B V c t h0 h1]
  dsimp only
  rw [sout1_B_eq, iblk1_0_eq V Ab c hAb, ld_iblk1_2_eq V S c hS]

include hAb hS in
set_option maxHeartbeats 1000000 in
theorem scratch1_C (t : Fin cfg1.N) (h0 : ¬t.val % 4 = 0) (h1 : t.val % 4 = 3) :
    (outsAt1 V c t.val t.isLt).2 = step1 Ab S t (outsAt1 V c (t.val - 1) (Nat.lt_of_le_of_lt (Nat.sub_le _ _) t.isLt)).2 := by
  rw [outsAt1_C V c t h0 h1]
  dsimp only
  rw [sout1_C_eq, iblk1_0_eq V Ab c hAb, ld_iblk1_2_eq V S c hS]

include hAb hD hS in
set_option maxHeartbeats 1000000 in
theorem out1_at_C (t : Fin cfg1.N) (h0 : ¬t.val % 4 = 0) (h1 : t.val % 4 = 3) :
    (outsAt1 V c t.val t.isLt).1 = k1_pay3 (step1 Ab S t (outsAt1 V c (t.val - 1) (Nat.lt_of_le_of_lt (Nat.sub_le _ _) t.isLt)).2) (rows2048 D (ib1 t)) := by
  rw [outsAt1_C V c t h0 h1]
  dsimp only
  rw [out1_C_eq, iblk1_0_eq V Ab c hAb, iblk1_1_eq V D c hD, ld_iblk1_2_eq V S c hS]

include hAb hS in
/-- After the body at point t the scratch holds the accumulator of row block t / 4 after tiles 0 … t % 4. -/
theorem scratch1_eq : ∀ (n : ℕ) (hn : n < cfg1.N),
    (outsAt1 V c n hn).2 = acc1 Ab S (ib1 ⟨n, hn⟩) (n % 4) (Nat.mod_lt _ (by decide)) := by
  intro n
  induction n with
  | zero =>
    intro hn
    refine (scratch1_A V Ab S c hAb hS ⟨0, hn⟩ (Nat.zero_mod _)).trans ?_
    exact (acc1_zero Ab S _ _ _ (Nat.zero_mod _)).symm
  | succ n ih =>
    intro hn
    have hN : n + 1 < 16 := lt_of_lt_of_eq hn N_1
    have ihn := ih (Nat.lt_of_succ_lt hn)
    by_cases h0 : (n + 1) % 4 = 0
    · refine (scratch1_A V Ab S c hAb hS ⟨n + 1, hn⟩ h0).trans ?_
      exact (acc1_zero Ab S _ _ _ h0).symm
    · have hprev : (outsAt1 V c ((⟨n + 1, hn⟩ : Fin cfg1.N).val - 1) (Nat.lt_of_le_of_lt (Nat.sub_le _ _) (⟨n + 1, hn⟩ : Fin cfg1.N).isLt)).2
          = acc1 Ab S (ib1 ⟨n + 1, hn⟩) ((n + 1) % 4 - 1) (by omega) := by
        refine Eq.trans ?_ (ihn.trans (acc1_congr Ab S _ _ _ _ _ _ (Fin.ext (by show n / 4 = (n + 1) / 4; omega)) (by omega)))
        rfl
      by_cases h1 : (n + 1) % 4 = 3
      · refine (scratch1_C V Ab S c hAb hS ⟨n + 1, hn⟩ h0 h1).trans ?_
        rw [hprev]
        exact (acc1_pos Ab S _ _ _ h0).symm
      · refine (scratch1_B V Ab S c hAb hS ⟨n + 1, hn⟩ h0 h1).trans ?_
        rw [hprev]
        exact (acc1_pos Ab S _ _ _ h0).symm

include hAb hD hS in
/-- The block written at a point with kb = 3: the rescaled accumulator of its row block. -/
theorem outblock1_eq (t : Fin cfg1.N) (h1 : t.val % 4 = 3) :
    (outsAt1 V c t.val t.isLt).1 = k1_pay3 (acc1 Ab S (ib1 t) 3 (by decide)) (rows2048 D (ib1 t)) := by
  have h0 : ¬t.val % 4 = 0 := by omega
  have ht : t.val < 16 := lt_of_lt_of_eq t.isLt N_1
  rw [out1_at_C V Ab D S c hAb hD hS t h0 h1]
  refine congrArg (fun a => k1_pay3 a (rows2048 D (ib1 t))) ?_
  rw [scratch1_eq V Ab S c hAb hS (t.val - 1) (Nat.lt_of_le_of_lt (Nat.sub_le _ _) t.isLt)]
  have e : acc1 Ab S (ib1 ⟨t.val - 1, Nat.lt_of_le_of_lt (Nat.sub_le _ _) t.isLt⟩) ((t.val - 1) % 4) (Nat.mod_lt _ (by decide))
      = acc1 Ab S (ib1 t) (3 - 1) (by decide) :=
    acc1_congr Ab S _ _ _ _ _ _ (Fin.ext (by show (t.val - 1) / 4 = t.val / 4; omega)) (by omega)
  rw [e]
  have hk : kb1 t = (⟨3, by decide⟩ : Fin 4) := Fin.ext h1
  show k1_pay2 (rows2048 S (kb1 t)) (tile2048 Ab (ib1 t) (kb1 t)) _ = _
  rw [hk]
  exact (acc1_pos Ab S (ib1 t) 3 (by decide) (by decide)).symm

/-! ## From the written blocks to the array -/

theorem KH1_at (ib : Fin 4) (p : Fin 2048) (z : Fin 256) (h : 2048 * ib.val + p.val < 8192) :
    KH1 Ab D S (ix2 (⟨2048 * ib.val + p.val, h⟩ : Fin 8192) z) = k1_pay3 (acc1 Ab S ib 3 (by decide)) (rows2048 D ib) (ix2 p z) := by
  unfold KH1
  have hb : blkOf 2048 4 (by decide) (⟨2048 * ib.val + p.val, h⟩ : Fin 8192) = ib := Fin.ext (by show (2048 * ib.val + p.val) / 2048 = ib.val; have := p.isLt; omega)
  have hr : rowIn 2048 4 (by decide) (⟨2048 * ib.val + p.val, h⟩ : Fin 8192) = p := Fin.ext (by show (2048 * ib.val + p.val) % 2048 = p.val; have := p.isLt; omega)
  show k1_pay3 (acc1 Ab S (blkOf 2048 4 _ (⟨2048 * ib.val + p.val, h⟩ : Fin 8192)) 3 _) (rows2048 D (blkOf 2048 4 _ (⟨2048 * ib.val + p.val, h⟩ : Fin 8192))) (ix2 (rowIn 2048 4 _ (⟨2048 * ib.val + p.val, h⟩ : Fin 8192)) z) = _
  rw [hb, hr]

include hAb hD hS in
theorem flushed1_3_eq (t : Fin cfg1.N) (hf : (cfg1.win 3).flush t = true) :
    (dat1 V c).flushed 3 t = ((cfg1.win 3).blk t).view.read (Elt F) (KH1 Ab D S) := by
  have h1 : t.val % 4 = 3 := (flush1_3 t).mp hf
  show (cfg1.win 3).cut (grid1.coords t) ((dat1 V c).after 3 t) = _
  rw [after1_3, outblock1_eq V Ab D S c hAb hD hS t h1]
  obtain ⟨-, -, -, -, -, -, e6, e7, -, -⟩ := idx_facts1 t
  funext j
  show k1_pay3 (acc1 Ab S (ib1 t) 3 _) (rows2048 D (ib1 t)) j = KH1 Ab D S (((cfg1.win 3).blk t).view.emb j)
  have hj0 : (j 0).val < 2048 := (j 0).isLt
  have hj1 : (j 1).val < 256 := (j 1).isLt
  have ht : t.val < 16 := lt_of_lt_of_eq t.isLt N_1
  have hemb : ((cfg1.win 3).blk t).view.emb j = ix2 (⟨2048 * (ib1 t).val + (⟨(j 0).val, hj0⟩ : Fin 2048).val, by show 2048 * (t.val / 4) + (j 0).val < 8192; omega⟩ : Fin 8192) (⟨(j 1).val, hj1⟩ : Fin 256) := by
    funext a; apply Fin.ext
    match a with
    | ⟨0, _⟩ => show win1_3.index t (0 : Fin 2) * 2048 + 1 * (j 0).val = 2048 * (t.val / 4) + (j 0).val; omega
    | ⟨1, _⟩ => show win1_3.index t (1 : Fin 2) * 256 + 1 * (j 1).val = (j 1).val; omega
  rw [hemb, KH1_at]
  exact congrArg _ (eq_ix2 j)

theorem mem_blk1_3 (t : Fin cfg1.N) (i : S8192x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v4).slice (win1_3.rect t)).set ↔ _
  rw [View.set_slice_whole, Rect.mem_set_unit]
  exact Iff.rfl

/-- Row r of the result is in the block written at point 4·(r / 2048) + 3. -/
theorem covered1_3 (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  let t : Fin cfg1.N := ⟨4 * ((i 0).val / 2048) + 3, by rw [show cfg1.N = 16 from N_1]; omega⟩
  obtain ⟨-, -, -, -, -, -, e6, e7, -, -⟩ := idx_facts1 t
  have etv : t.val = 4 * ((i 0).val / 2048) + 3 := rfl
  refine ⟨t, (flush1_3 t).mpr (by omega), ?_⟩
  rw [mem_blk1_3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 256 ≤ (i 1).val ∧ (i 1).val < win1_3.index t (1 : Fin 2) * 256 + 256; omega

include hAb hD hS in
/-- THE RESULT ARRAY of region 1 after its sixteen points. -/
theorem final1_3 : (dat1 V c).arrAt 3 cfg1.N = KH1 Ab D S :=
  (dat1 V c).arrAt_eq_of_cover 3 (KH1 Ab D S) (fun t hf => flushed1_3_eq V Ab D S c hAb hD hS t hf) covered1_3

end Cert.KernelIdeal.Hand

end
-- ==== Proof.Val2.lean ====
/-
  What region 2 leaves in its result array, as a whole-array function of the three arrays it reads (the narrowed
  adjacency matrix, the column D, the scaled right-hand side): at point t = 4·ib + kb the scratch holds the
  accumulator of row block ib after tiles 0 … kb, and the block written at kb = 3 is the rescaled, clamped
  accumulator; the four written blocks tile the result.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import proofs.«111544_j24051816858257_2_alg».proof.Proof.Reg2
import proofs.«111544_j24051816858257_2_alg».proof.Proof.KFun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.KFun Idealize.ShloMosaic.ValueIdx

theorem hz2 : (![0, 0] : Fin 2 → Nat) = fun _ => 0 := funext fun a => by fin_cases a <;> rfl

/-! ## What each case's run leaves, over the body's named arithmetic -/

/-- The rows of the right-hand side the point reads. -/
abbrev rhsRect2 (i : grid2.Coords) : Rect S8192x256 := Rect.unit (s := S8192x256) (k2_off1 i) S2048x256.size (k2_off1_inb i)

theorem sout2_A_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) :
    sout2_A (F := F) c i arg2 harg2 arg3 harg3 arg4 harg4 arg5 harg5 arg6 harg6 hc0 hc1 x0 x2 = k2_pay2 (View.ld x2 (rhsRect2 i)) x0 (k2_pay1 (F := F)) := by
  unfold sout2_A
  rw [View.read_writes_eq_canon _ _ _ (scover2_A c i arg2 harg2 arg3 harg3 arg4 harg4 arg5 harg5 arg6 harg6 hc0 hc1 x0 x2)]
  unfold kernelRun2_A
  dsimp only
  sl_unfold_words
  rw [View.canon_cons_unit_zero hz2]
  simp only [View.readAt_eq_ld, harg4.read_unread, harg2.read_unread, View.ld_unit_zero (S := S2048x2048) hz2]
  rw [View.readCov_unit_zero (S := S2048x256) arg6.view hz2]
  rfl

theorem sout2_B_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) :
    sout2_B (F := F) c i arg2 harg2 arg3 harg3 arg4 harg4 arg5 harg5 arg6 harg6 hc0 hc1 x0 x2 xs = k2_pay2 (View.ld x2 (rhsRect2 i)) x0 xs := by
  unfold sout2_B
  rw [View.read_writes_eq_canon _ _ _ (scover2_B c i arg2 harg2 arg3 harg3 arg4 harg4 arg5 harg5 arg6 harg6 hc0 hc1 x0 x2 xs)]
  unfold kernelRun2_B
  dsimp only
  sl_unfold_words
  rw [View.canon_cons_unit_zero hz2]
  simp only [View.readAt_eq_ld, harg4.read_unread, harg2.read_unread, harg6.read_unread, View.ld_unit_zero (S := S2048x2048) hz2, View.ld_unit_zero (S := S2048x256) hz2]
  rfl

theorem out2_C_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) :
    out2_C_3 (F := F) c i arg2 harg2 arg3 harg3 arg4 harg4 arg5 harg5 arg6 harg6 hc0 hc1 x0 x1 x2 xs = k2_pay3 (k2_pay2 (View.ld x2 (rhsRect2 i)) x0 xs) x1 := by
  unfold out2_C_3
  rw [View.read_writes_eq_canon _ _ _ (cover2_C_3 c i arg2 harg2 arg3 harg3 arg4 harg4 arg5 harg5 arg6 harg6 hc0 hc1 x0 x1 x2 xs)]
  unfold kernelRun2_C
  dsimp only
  sl_unfold_words
  rw [View.canon_unit_zero hz2]
  simp only [View.readAt_eq_ld, harg4.read_unread, harg2.read_unread, harg3.read_unread, harg6.read_unread, View.ld_unit_zero (S := S2048x2048) hz2, View.ld_unit_zero (S := S2048x256) hz2, View.ld_unit_zero (S := S2048x1) hz2]
  rw [View.readCov_unit_zero (S := S2048x256) arg6.view hz2]
  rfl

theorem sout2_C_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) :
    sout2_C (F := F) c i arg2 harg2 arg3 harg3 arg4 harg4 arg5 harg5 arg6 harg6 hc0 hc1 x0 x1 x2 xs = k2_pay2 (View.ld x2 (rhsRect2 i)) x0 xs := by
  unfold sout2_C
  rw [View.read_writes_eq_canon _ _ _ (scover2_C c i arg2 harg2 arg3 harg3 arg4 harg4 arg5 harg5 arg6 harg6 hc0 hc1 x0 x1 x2 xs)]
  unfold kernelRun2_C
  dsimp only
  sl_unfold_words
  rw [View.canon_cons_unit_zero hz2]
  simp only [View.readAt_eq_ld, harg4.read_unread, harg2.read_unread, harg6.read_unread, View.ld_unit_zero (S := S2048x2048) hz2, View.ld_unit_zero (S := S2048x256) hz2]
  rfl

/-! ## The windows' blocks as tiles and rows of the whole arrays -/

/-- Point t = 4·ib + kb: the tile (ib, kb) of the matrix, rows ib of the column, the whole right-hand side,
    rows ib of the result; the body reads rows kb of the right-hand side. -/
theorem idx_facts2 : ∀ t : Fin cfg2.N, win2_0.index t (0 : Fin 2) = t.val / 4 ∧ win2_0.index t (1 : Fin 2) = t.val % 4
    ∧ win2_1.index t (0 : Fin 2) = t.val / 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0
    ∧ k2_off1 (grid2.coords t) (0 : Fin 2) = 2048 * (t.val % 4) ∧ k2_off1 (grid2.coords t) (1 : Fin 2) = 0 :=
  (by decide +kernel : ∀ t : Fin grid2.N, _)

def ib2 (t : Fin cfg2.N) : Fin 4 := ⟨t.val / 4, by have := lt_of_lt_of_eq t.isLt N_2; omega⟩
def kb2 (t : Fin cfg2.N) : Fin 4 := ⟨t.val % 4, Nat.mod_lt _ (by decide)⟩

variable (Ab : Vec F S8192x8192 .bf16) (D : Vec F S8192x1 .f32) (S : Vec F S8192x256 .f32)
variable (c : Dev nD) (hAb : V c main_v0_1 = Ab) (hD : V c main_v0_0 = D) (hS : V c main_v7 = S)

include hAb in
theorem iblk2_0_eq (t : Fin cfg2.N) : iblk2 V c 0 t = tile2048 Ab (ib2 t) (kb2 t) := by
  obtain ⟨e0, e1, -, -, -, -, -, -, -, -⟩ := idx_facts2 t
  funext y
  show V c main_v0_1 (((cfg2.win 0).blk t).view.emb y) = tile2048 Ab (ib2 t) (kb2 t) y
  rw [hAb]
  refine congrArg Ab (funext fun a => Fin.ext ?_)
  match a with
  | ⟨0, _⟩ => show win2_0.index t (0 : Fin 2) * 2048 + 1 * (y 0).val = 2048 * (t.val / 4) + (y 0).val; omega
  | ⟨1, _⟩ => show win2_0.index t (1 : Fin 2) * 2048 + 1 * (y 1).val = 2048 * (t.val % 4) + (y 1).val; omega

include hD in
theorem iblk2_1_eq (t : Fin cfg2.N) : iblk2 V c 1 t = rows2048 D (ib2 t) := by
  obtain ⟨-, -, e2, e3, -, -, -, -, -, -⟩ := idx_facts2 t
  funext y
  show V c main_v0_0 (((cfg2.win 1).blk t).view.emb y) = rows2048 D (ib2 t) y
  rw [hD]
  refine congrArg D (funext fun a => Fin.ext ?_)
  match a with
  | ⟨0, _⟩ => show win2_1.index t (0 : Fin 2) * 2048 + 1 * (y 0).val = 2048 * (t.val / 4) + (y 0).val; omega
  | ⟨1, _⟩ => show win2_1.index t (1 : Fin 2) * 1 + 1 * (y 1).val = (y 1).val; omega

include hS in
/-- The rows of the right-hand side the body reads at point t are rows kb. -/
theorem ld_iblk2_2_eq (t : Fin cfg2.N) :
    View.ld (iblk2 V c 2 t) (rhsRect2 (grid2.coords t)) = rows2048 S (kb2 t) := by
  obtain ⟨-, -, -, -, e4, e5, -, -, e8, e9⟩ := idx_facts2 t
  funext y
  show V c main_v7 (((cfg2.win 2).blk t).view.emb ((rhsRect2 (grid2.coords t)).emb y)) = rows2048 S (kb2 t) y
  rw [hS]
  refine congrArg S (funext fun a => Fin.ext ?_)
  match a with
  | ⟨0, _⟩ => show win2_2.index t (0 : Fin 2) * 8192 + 1 * (k2_off1 (grid2.coords t) (0 : Fin 2) + 1 * (y 0).val) = 2048 * (t.val % 4) + (y 0).val; omega
  | ⟨1, _⟩ => show win2_2.index t (1 : Fin 2) * 256 + 1 * (k2_off1 (grid2.coords t) (1 : Fin 2) + 1 * (y 1).val) = (y 1).val; omega

/-! ## The accumulator, point by point -/

theorem acc2_zero (ib : Fin 4) (kb : Nat) (h : kb < 4) (hk : kb = 0) :
    acc2 Ab S ib kb h = k2_pay2 (rows2048 S ⟨kb, h⟩) (tile2048 Ab ib ⟨kb, h⟩) (k2_pay1 (F := F)) := by
  subst hk; rfl

theorem acc2_pos (ib : Fin 4) (kb : Nat) (h : kb < 4) (hk : kb ≠ 0) :
    acc2 Ab S ib kb h = k2_pay2 (rows2048 S ⟨kb, h⟩) (tile2048 Ab ib ⟨kb, h⟩) (acc2 Ab S ib (kb - 1) (by omega)) := by
  cases kb with
  | zero => exact absurd rfl hk
  | succ k => rfl

theorem acc2_congr (ib ib' : Fin 4) (kb kb' : Nat) (h : kb < 4) (h' : kb' < 4) (e1 : ib = ib') (e2 : kb = kb') :
    acc2 Ab S ib kb h = acc2 Ab S ib' kb' h' := by subst e1; subst e2; rfl

/-- One step of the accumulation at point t over what the scratch held before. -/
abbrev step2 (t : Fin cfg2.N) (prev : Vec F S2048x256 .f32) : Vec F S2048x256 .f32 :=
  k2_pay2 (rows2048 S (kb2 t)) (tile2048 Ab (ib2 t) (kb2 t)) prev

include hAb hS in
set_option maxHeartbeats 1000000 in
theorem scratch2_A (t : Fin cfg2.N) (h0 : t.val % 4 = 0) :
    (outsAt2 V c t.val t.isLt).2 = step2 Ab S t (k2_pay1 (F := F)) := by
  rw [outsAt2_A V c t h0 (by omega)]
  dsimp only
  rw [sout2_A_eq, iblk2_0_eq V Ab c hAb, ld_iblk2_2_eq V S c hS]

include hAb hS in
set_option maxHeartbeats 1000000 in
theorem scratch2_B (t : Fin cfg2.N) (h0 : ¬t.val % 4 = 0) (h1 : ¬t.val % 4 = 3) :
    (outsAt2 V c t.val t.isLt).2 = step2 Ab S t (outsAt2 V c (t.val - 1) (Nat.lt_of_le_of_lt (Nat.sub_le _ _) t.isLt)).2 := by
  rw [outsAt2_B V c t h0 h1]
  dsimp only
  rw [sout2_B_eq, iblk2_0_eq V Ab c hAb, ld_iblk2_2_eq V S c hS]

include hAb hS in
set_option maxHeartbeats 1000000 in
theorem scratch2_C (t : Fin cfg2.N) (h0 : ¬t.val % 4 = 0) (h1 : t.val % 4 = 3) :
    (outsAt2 V c t.val t.isLt).2 = step2 Ab S t (outsAt2 V c (t.val - 1) (Nat.lt_of_le_of_lt (Nat.sub_le _ _) t.isLt)).2 := by
  rw [outsAt2_C V c t h0 h1]
  dsimp only
  rw [sout2_C_eq, iblk2_0_eq V Ab c hAb, ld_iblk2_2_eq V S c hS]

include hAb hD hS in
set_option maxHeartbeats 1000000 in
theorem out2_at_C (t : Fin cfg2.N) (h0 : ¬t.val % 4 = 0) (h1 : t.val % 4 = 3) :
    (outsAt2 V c t.val t.isLt).1 = k2_pay3 (step2 Ab S t (outsAt2 V c (t.val - 1) (Nat.lt_of_le_of_lt (Nat.sub_le _ _) t.isLt)).2) (rows2048 D (ib2 t)) := by
  rw [outsAt2_C V c t h0 h1]
  dsimp only
  rw [out2_C_eq, iblk2_0_eq V Ab c hAb, iblk2_1_eq V D c hD, ld_iblk2_2_eq V S c hS]

include hAb hS in
/-- After the body at point t the scratch holds the accumulator of row block t / 4 after tiles 0 … t % 4. -/
theorem scratch2_eq : ∀ (n : ℕ) (hn : n < cfg2.N),
    (outsAt2 V c n hn).2 = acc2 Ab S (ib2 ⟨n, hn⟩) (n % 4) (Nat.mod_lt _ (by decide)) := by
  intro n
  induction n with
  | zero =>
    intro hn
    refine (scratch2_A V Ab S c hAb hS ⟨0, hn⟩ (Nat.zero_mod _)).trans ?_
    exact (acc2_zero Ab S _ _ _ (Nat.zero_mod _)).symm
  | succ n ih =>
    intro hn
    have hN : n + 1 < 16 := lt_of_lt_of_eq hn N_2
    have ihn := ih (Nat.lt_of_succ_lt hn)
    by_cases h0 : (n + 1) % 4 = 0
    · refine (scratch2_A V Ab S c hAb hS ⟨n + 1, hn⟩ h0).trans ?_
      exact (acc2_zero Ab S _ _ _ h0).symm
    · have hprev : (outsAt2 V c ((⟨n + 1, hn⟩ : Fin cfg2.N).val - 1) (Nat.lt_of_le_of_lt (Nat.sub_le _ _) (⟨n + 1, hn⟩ : Fin cfg2.N).isLt)).2
          = acc2 Ab S (ib2 ⟨n + 1, hn⟩) ((n + 1) % 4 - 1) (by omega) := by
        refine Eq.trans ?_ (ihn.trans (acc2_congr Ab S _ _ _ _ _ _ (Fin.ext (by show n / 4 = (n + 1) / 4; omega)) (by omega)))
        rfl
      by_cases h1 : (n + 1) % 4 = 3
      · refine (scratch2_C V Ab S c hAb hS ⟨n + 1, hn⟩ h0 h1).trans ?_
        rw [hprev]
        exact (acc2_pos Ab S _ _ _ h0).symm
      · refine (scratch2_B V Ab S c hAb hS ⟨n + 1, hn⟩ h0 h1).trans ?_
        rw [hprev]
        exact (acc2_pos Ab S _ _ _ h0).symm

include hAb hD hS in
/-- The block written at a point with kb = 3: the rescaled accumulator of its row block. -/
theorem outblock2_eq (t : Fin cfg2.N) (h1 : t.val % 4 = 3) :
    (outsAt2 V c t.val t.isLt).1 = k2_pay3 (acc2 Ab S (ib2 t) 3 (by decide)) (rows2048 D (ib2 t)) := by
  have h0 : ¬t.val % 4 = 0 := by omega
  have ht : t.val < 16 := lt_of_lt_of_eq t.isLt N_2
  rw [out2_at_C V Ab D S c hAb hD hS t h0 h1]
  refine congrArg (fun a => k2_pay3 a (rows2048 D (ib2 t))) ?_
  rw [scratch2_eq V Ab S c hAb hS (t.val - 1) (Nat.lt_of_le_of_lt (Nat.sub_le _ _) t.isLt)]
  have e : acc2 Ab S (ib2 ⟨t.val - 1, Nat.lt_of_le_of_lt (Nat.sub_le _ _) t.isLt⟩) ((t.val - 1) % 4) (Nat.mod_lt _ (by decide))
      = acc2 Ab S (ib2 t) (3 - 1) (by decide) :=
    acc2_congr Ab S _ _ _ _ _ _ (Fin.ext (by show (t.val - 1) / 4 = t.val / 4; omega)) (by omega)
  rw [e]
  have hk : kb2 t = (⟨3, by decide⟩ : Fin 4) := Fin.ext h1
  show k2_pay2 (rows2048 S (kb2 t)) (tile2048 Ab (ib2 t) (kb2 t)) _ = _
  rw [hk]
  exact (acc2_pos Ab S (ib2 t) 3 (by decide) (by decide)).symm

/-! ## From the written blocks to the array -/

theorem KH2_at (ib : Fin 4) (p : Fin 2048) (z : Fin 256) (h : 2048 * ib.val + p.val < 8192) :
    KH2 Ab D S (ix2 (⟨2048 * ib.val + p.val, h⟩ : Fin 8192) z) = k2_pay3 (acc2 Ab S ib 3 (by decide)) (rows2048 D ib) (ix2 p z) := by
  unfold KH2
  have hb : blkOf 2048 4 (by decide) (⟨2048 * ib.val + p.val, h⟩ : Fin 8192) = ib := Fin.ext (by show (2048 * ib.val + p.val) / 2048 = ib.val; have := p.isLt; omega)
  have hr : rowIn 2048 4 (by decide) (⟨2048 * ib.val + p.val, h⟩ : Fin 8192) = p := Fin.ext (by show (2048 * ib.val + p.val) % 2048 = p.val; have := p.isLt; omega)
  show k2_pay3 (acc2 Ab S (blkOf 2048 4 _ (⟨2048 * ib.val + p.val, h⟩ : Fin 8192)) 3 _) (rows2048 D (blkOf 2048 4 _ (⟨2048 * ib.val + p.val, h⟩ : Fin 8192))) (ix2 (rowIn 2048 4 _ (⟨2048 * ib.val + p.val, h⟩ : Fin 8192)) z) = _
  rw [hb, hr]

include hAb hD hS in
theorem flushed2_3_eq (t : Fin cfg2.N) (hf : (cfg2.win 3).flush t = true) :
    (dat2 V c).flushed 3 t = ((cfg2.win 3).blk t).view.read (Elt F) (KH2 Ab D S) := by
  have h1 : t.val % 4 = 3 := (flush2_3 t).mp hf
  show (cfg2.win 3).cut (grid2.coords t) ((dat2 V c).after 3 t) = _
  rw [after2_3, outblock2_eq V Ab D S c hAb hD hS t h1]
  obtain ⟨-, -, -, -, -, -, e6, e7, -, -⟩ := idx_facts2 t
  funext j
  show k2_pay3 (acc2 Ab S (ib2 t) 3 _) (rows2048 D (ib2 t)) j = KH2 Ab D S (((cfg2.win 3).blk t).view.emb j)
  have hj0 : (j 0).val < 2048 := (j 0).isLt
  have hj1 : (j 1).val < 256 := (j 1).isLt
  have ht : t.val < 16 := lt_of_lt_of_eq t.isLt N_2
  have hemb : ((cfg2.win 3).blk t).view.emb j = ix2 (⟨2048 * (ib2 t).val + (⟨(j 0).val, hj0⟩ : Fin 2048).val, by show 2048 * (t.val / 4) + (j 0).val < 8192; omega⟩ : Fin 8192) (⟨(j 1).val, hj1⟩ : Fin 256) := by
    funext a; apply Fin.ext
    match a with
    | ⟨0, _⟩ => show win2_3.index t (0 : Fin 2) * 2048 + 1 * (j 0).val = 2048 * (t.val / 4) + (j 0).val; omega
    | ⟨1, _⟩ => show win2_3.index t (1 : Fin 2) * 256 + 1 * (j 1).val = (j 1).val; omega
  rw [hemb, KH2_at]
  exact congrArg _ (eq_ix2 j)

theorem mem_blk2_3 (t : Fin cfg2.N) (i : S8192x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v8).slice (win2_3.rect t)).set ↔ _
  rw [View.set_slice_whole, Rect.mem_set_unit]
  exact Iff.rfl

/-- Row r of the result is in the block written at point 4·(r / 2048) + 3. -/
theorem covered2_3 (i : S8192x256.Idx) : ∃ t : Fin cfg2.N, (cfg2.win 3).flush t = true ∧ i ∈ ((cfg2.win 3).blk t).view.set := by
  have hi0 : (i 0).val < 8192 := (i 0).isLt
  have hi1 : (i 1).val < 256 := (i 1).isLt
  let t : Fin cfg2.N := ⟨4 * ((i 0).val / 2048) + 3, by rw [show cfg2.N = 16 from N_2]; omega⟩
  obtain ⟨-, -, -, -, -, -, e6, e7, -, -⟩ := idx_facts2 t
  have etv : t.val = 4 * ((i 0).val / 2048) + 3 := rfl
  refine ⟨t, (flush2_3 t).mpr (by omega), ?_⟩
  rw [mem_blk2_3]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 256 ≤ (i 1).val ∧ (i 1).val < win2_3.index t (1 : Fin 2) * 256 + 256; omega

include hAb hD hS in
/-- THE RESULT ARRAY of region 2 after its sixteen points. -/
theorem final2_3 : (dat2 V c).arrAt 3 cfg2.N = KH2 Ab D S :=
  (dat2 V c).arrAt_eq_of_cover 3 (KH2 Ab D S) (fun t hf => flushed2_3_eq V Ab D S c hAb hD hS t hf) covered2_3

end Cert.KernelIdeal.Hand

end
-- ==== Proof.Val3.lean ====
/-
  What region 3 leaves in its result array, as a whole-array function of the three arrays it reads (the narrowed
  adjacency matrix, the column D, the scaled right-hand side): at point t = 4·ib + kb the scratch holds the
  accumulator of row block ib after tiles 0 … kb, and the block written at kb = 3 is the rescaled
  accumulator; the four written blocks tile the result.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import proofs.«111544_j24051816858257_2_alg».proof.Proof.Reg3
import proofs.«111544_j24051816858257_2_alg».proof.Proof.KFun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.KFun Idealize.ShloMosaic.ValueIdx

theorem hz3 : (![0, 0] : Fin 2 → Nat) = fun _ => 0 := funext fun a => by fin_cases a <;> rfl

/-! ## What each case's run leaves, over the body's named arithmetic -/

/-- The rows of the right-hand side the point reads. -/
abbrev rhsRect3 (i : grid3.Coords) : Rect S8192x128 := Rect.unit (s := S8192x128) (k3_off1 i) S2048x128.size (k3_off1_inb i)

theorem sout3_A_eq (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) :
    sout3_A (F := F) c i arg2 harg2 arg3 harg3 arg4 harg4 arg5 harg5 arg6 harg6 hc0 hc1 x0 x2 = k3_pay2 (View.ld x2 (rhsRect3 i)) x0 (k3_pay1 (F := F)) := by
  unfold sout3_A
  rw [View.read_writes_eq_canon _ _ _ (scover3_A c i arg2 harg2 arg3 harg3 arg4 harg4 arg5 harg5 arg6 harg6 hc0 hc1 x0 x2)]
  unfold kernelRun3_A
  dsimp only
  sl_unfold_words
  rw [View.canon_cons_unit_zero hz3]
  simp only [View.readAt_eq_ld, harg4.read_unread, harg2.read_unread, View.ld_unit_zero (S := S2048x2048) hz3]
  rw [View.readCov_unit_zero (S := S2048x128) arg6.view hz3]
  rfl

theorem sout3_B_eq (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) :
    sout3_B (F := F) c i arg2 harg2 arg3 harg3 arg4 harg4 arg5 harg5 arg6 harg6 hc0 hc1 x0 x2 xs = k3_pay2 (View.ld x2 (rhsRect3 i)) x0 xs := by
  unfold sout3_B
  rw [View.read_writes_eq_canon _ _ _ (scover3_B c i arg2 harg2 arg3 harg3 arg4 harg4 arg5 harg5 arg6 harg6 hc0 hc1 x0 x2 xs)]
  unfold kernelRun3_B
  dsimp only
  sl_unfold_words
  rw [View.canon_cons_unit_zero hz3]
  simp only [View.readAt_eq_ld, harg4.read_unread, harg2.read_unread, harg6.read_unread, View.ld_unit_zero (S := S2048x2048) hz3, View.ld_unit_zero (S := S2048x128) hz3]
  rfl

theorem out3_C_eq (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) :
    out3_C_3 (F := F) c i arg2 harg2 arg3 harg3 arg4 harg4 arg5 harg5 arg6 harg6 hc0 hc1 x0 x1 x2 xs = k3_pay3 (k3_pay2 (View.ld x2 (rhsRect3 i)) x0 xs) x1 := by
  unfold out3_C_3
  rw [View.read_writes_eq_canon _ _ _ (cover3_C_3 c i arg2 harg2 arg3 harg3 arg4 harg4 arg5 harg5 arg6 harg6 hc0 hc1 x0 x1 x2 xs)]
  unfold kernelRun3_C
  dsimp only
  sl_unfold_words
  rw [View.canon_unit_zero hz3]
  simp only [View.readAt_eq_ld, harg4.read_unread, harg2.read_unread, harg3.read_unread, harg6.read_unread, View.ld_unit_zero (S := S2048x2048) hz3, View.ld_unit_zero (S := S2048x128) hz3, View.ld_unit_zero (S := S2048x1) hz3]
  rw [View.readCov_unit_zero (S := S2048x128) arg6.view hz3]
  rfl

theorem sout3_C_eq (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) :
    sout3_C (F := F) c i arg2 harg2 arg3 harg3 arg4 harg4 arg5 harg5 arg6 harg6 hc0 hc1 x0 x1 x2 xs = k3_pay2 (View.ld x2 (rhsRect3 i)) x0 xs := by
  unfold sout3_C
  rw [View.read_writes_eq_canon _ _ _ (scover3_C c i arg2 harg2 arg3 harg3 arg4 harg4 arg5 harg5 arg6 harg6 hc0 hc1 x0 x1 x2 xs)]
  unfold kernelRun3_C
  dsimp only
  sl_unfold_words
  rw [View.canon_cons_unit_zero hz3]
  simp only [View.readAt_eq_ld, harg4.read_unread, harg2.read_unread, harg6.read_unread, View.ld_unit_zero (S := S2048x2048) hz3, View.ld_unit_zero (S := S2048x128) hz3]
  rfl

/-! ## The windows' blocks as tiles and rows of the whole arrays -/

/-- Point t = 4·ib + kb: the tile (ib, kb) of the matrix, rows ib of the column, the whole right-hand side,
    rows ib of the result; the body reads rows kb of the right-hand side. -/
theorem idx_facts3 : ∀ t : Fin cfg3.N, win3_0.index t (0 : Fin 2) = t.val / 4 ∧ win3_0.index t (1 : Fin 2) = t.val % 4
    ∧ win3_1.index t (0 : Fin 2) = t.val / 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0
    ∧ k3_off1 (grid3.coords t) (0 : Fin 2) = 2048 * (t.val % 4) ∧ k3_off1 (grid3.coords t) (1 : Fin 2) = 0 :=
  (by decide +kernel : ∀ t : Fin grid3.N, _)

def ib3 (t : Fin cfg3.N) : Fin 4 := ⟨t.val / 4, by have := lt_of_lt_of_eq t.isLt N_3; omega⟩
def kb3 (t : Fin cfg3.N) : Fin 4 := ⟨t.val % 4, Nat.mod_lt _ (by decide)⟩

variable (Ab : Vec F S8192x8192 .bf16) (D : Vec F S8192x1 .f32) (S : Vec F S8192x128 .f32)
variable (c : Dev nD) (hAb : V c main_v0_1 = Ab) (hD : V c main_v0_0 = D) (hS : V c main_v11 = S)

include hAb in
theorem iblk3_0_eq (t : Fin cfg3.N) : iblk3 V c 0 t = tile2048 Ab (ib3 t) (kb3 t) := by
  obtain ⟨e0, e1, -, -, -, -, -, -, -, -⟩ := idx_facts3 t
  funext y
  show V c main_v0_1 (((cfg3.win 0).blk t).view.emb y) = tile2048 Ab (ib3 t) (kb3 t) y
  rw [hAb]
  refine congrArg Ab (funext fun a => Fin.ext ?_)
  match a with
  | ⟨0, _⟩ => show win3_0.index t (0 : Fin 2) * 2048 + 1 * (y 0).val = 2048 * (t.val / 4) + (y 0).val; omega
  | ⟨1, _⟩ => show win3_0.index t (1 : Fin 2) * 2048 + 1 * (y 1).val = 2048 * (t.val % 4) + (y 1).val; omega

include hD in
theorem iblk3_1_eq (t : Fin cfg3.N) : iblk3 V c 1 t = rows2048 D (ib3 t) := by
  obtain ⟨-, -, e2, e3, -, -, -, -, -, -⟩ := idx_facts3 t
  funext y
  show V c main_v0_0 (((cfg3.win 1).blk t).view.emb y) = rows2048 D (ib3 t) y
  rw [hD]
  refine congrArg D (funext fun a => Fin.ext ?_)
  match a with
  | ⟨0, _⟩ => show win3_1.index t (0 : Fin 2) * 2048 + 1 * (y 0).val = 2048 * (t.val / 4) + (y 0).val; omega
  | ⟨1, _⟩ => show win3_1.index t (1 : Fin 2) * 1 + 1 * (y 1).val = (y 1).val; omega

include hS in
/-- The rows of the right-hand side the body reads at point t are rows kb. -/
theorem ld_iblk3_2_eq (t : Fin cfg3.N) :
    View.ld (iblk3 V c 2 t) (rhsRect3 (grid3.coords t)) = rows2048 S (kb3 t) := by
  obtain ⟨-, -, -, -, e4, e5, -, -, e8, e9⟩ := idx_facts3 t
  funext y
  show V c main_v11 (((cfg3.win 2).blk t).view.emb ((rhsRect3 (grid3.coords t)).emb y)) = rows2048 S (kb3 t) y
  rw [hS]
  refine congrArg S (funext fun a => Fin.ext ?_)
  match a with
  | ⟨0, _⟩ => show win3_2.index t (0 : Fin 2) * 8192 + 1 * (k3_off1 (grid3.coords t) (0 : Fin 2) + 1 * (y 0).val) = 2048 * (t.val % 4) + (y 0).val; omega
  | ⟨1, _⟩ => show win3_2.index t (1 : Fin 2) * 128 + 1 * (k3_off1 (grid3.coords t) (1 : Fin 2) + 1 * (y 1).val) = (y 1).val; omega

/-! ## The accumulator, point by point -/

theorem acc3_zero (ib : Fin 4) (kb : Nat) (h : kb < 4) (hk : kb = 0) :
    acc3 Ab S ib kb h = k3_pay2 (rows2048 S ⟨kb, h⟩) (tile2048 Ab ib ⟨kb, h⟩) (k3_pay1 (F := F)) := by
  subst hk; rfl

theorem acc3_pos (ib : Fin 4) (kb : Nat) (h : kb < 4) (hk : kb ≠ 0) :
    acc3 Ab S ib kb h = k3_pay2 (rows2048 S ⟨kb, h⟩) (tile2048 Ab ib ⟨kb, h⟩) (acc3 Ab S ib (kb - 1) (by omega)) := by
  cases kb with
  | zero => exact absurd rfl hk
  | succ k => rfl

theorem acc3_congr (ib ib' : Fin 4) (kb kb' : Nat) (h : kb < 4) (h' : kb' < 4) (e1 : ib = ib') (e2 : kb = kb') :
    acc3 Ab S ib kb h = acc3 Ab S ib' kb' h' := by subst e1; subst e2; rfl

/-- One step of the accumulation at point t over what the scratch held before. -/
abbrev step3 (t : Fin cfg3.N) (prev : Vec F S2048x128 .f32) : Vec F S2048x128 .f32 :=
  k3_pay2 (rows2048 S (kb3 t)) (tile2048 Ab (ib3 t) (kb3 t)) prev

include hAb hS in
set_option maxHeartbeats 1000000 in
theorem scratch3_A (t : Fin cfg3.N) (h0 : t.val % 4 = 0) :
    (outsAt3 V c t.val t.isLt).2 = step3 Ab S t (k3_pay1 (F := F)) := by
  rw [outsAt3_A V c t h0 (by omega)]
  dsimp only
  rw [sout3_A_eq, iblk3_0_eq V Ab c hAb, ld_iblk3_2_eq V S c hS]

include hAb hS in
set_option maxHeartbeats 1000000 in
theorem scratch3_B (t : Fin cfg3.N) (h0 : ¬t.val % 4 = 0) (h1 : ¬t.val % 4 = 3) :
    (outsAt3 V c t.val t.isLt).2 = step3 Ab S t (outsAt3 V c (t.val - 1) (Nat.lt_of_le_of_lt (Nat.sub_le _ _) t.isLt)).2 := by
  rw [outsAt3_B V c t h0 h1]
  dsimp only
  rw [sout3_B_eq, iblk3_0_eq V Ab c hAb, ld_iblk3_2_eq V S c hS]

include hAb hS in
set_option maxHeartbeats 1000000 in
theorem scratch3_C (t : Fin cfg3.N) (h0 : ¬t.val % 4 = 0) (h1 : t.val % 4 = 3) :
    (outsAt3 V c t.val t.isLt).2 = step3 Ab S t (outsAt3 V c (t.val - 1) (Nat.lt_of_le_of_lt (Nat.sub_le _ _) t.isLt)).2 := by
  rw [outsAt3_C V c t h0 h1]
  dsimp only
  rw [sout3_C_eq, iblk3_0_eq V Ab c hAb, ld_iblk3_2_eq V S c hS]

include hAb hD hS in
set_option maxHeartbeats 1000000 in
theorem out3_at_C (t : Fin cfg3.N) (h0 : ¬t.val % 4 = 0) (h1 : t.val % 4 = 3) :
    (outsAt3 V c t.val t.isLt).1 = k3_pay3 (step3 Ab S t (outsAt3 V c (t.val - 1) (Nat.lt_of_le_of_lt (Nat.sub_le _ _) t.isLt)).2) (rows2048 D (ib3 t)) := by
  rw [outsAt3_C V c t h0 h1]
  dsimp only
  rw [out3_C_eq, iblk3_0_eq V Ab c hAb, iblk3_1_eq V D c hD, ld_iblk3_2_eq V S c hS]

include hAb hS in
/-- After the body at point t the scratch holds the accumulator of row block t / 4 after tiles 0 … t % 4. -/
theorem scratch3_eq : ∀ (n : ℕ) (hn : n < cfg3.N),
    (outsAt3 V c n hn).2 = acc3 Ab S (ib3 ⟨n, hn⟩) (n % 4) (Nat.mod_lt _ (by decide)) := by
  intro n
  induction n with
  | zero =>
    intro hn
    refine (scratch3_A V Ab S c hAb hS ⟨0, hn⟩ (Nat.zero_mod _)).trans ?_
    exact (acc3_zero Ab S _ _ _ (Nat.zero_mod _)).symm
  | succ n ih =>
    intro hn
    have hN : n + 1 < 16 := lt_of_lt_of_eq hn N_3
    have ihn := ih (Nat.lt_of_succ_lt hn)
    by_cases h0 : (n + 1) % 4 = 0
    · refine (scratch3_A V Ab S c hAb hS ⟨n + 1, hn⟩ h0).trans ?_
      exact (acc3_zero Ab S _ _ _ h0).symm
    · have hprev : (outsAt3 V c ((⟨n + 1, hn⟩ : Fin cfg3.N).val - 1) (Nat.lt_of_le_of_lt (Nat.sub_le _ _) (⟨n + 1, hn⟩ : Fin cfg3.N).isLt)).2
          = acc3 Ab S (ib3 ⟨n + 1, hn⟩) ((n + 1) % 4 - 1) (by omega) := by
        refine Eq.trans ?_ (ihn.trans (acc3_congr Ab S _ _ _ _ _ _ (Fin.ext (by show n / 4 = (n + 1) / 4; omega)) (by omega)))
        rfl
      by_cases h1 : (n + 1) % 4 = 3
      · refine (scratch3_C V Ab S c hAb hS ⟨n + 1, hn⟩ h0 h1).trans ?_
        rw [hprev]
        exact (acc3_pos Ab S _ _ _ h0).symm
      · refine (scratch3_B V Ab S c hAb hS ⟨n + 1, hn⟩ h0 h1).trans ?_
        rw [hprev]
        exact (acc3_pos Ab S _ _ _ h0).symm

include hAb hD hS in
/-- The block written at a point with kb = 3: the rescaled accumulator of its row block. -/
theorem outblock3_eq (t : Fin cfg3.N) (h1 : t.val % 4 = 3) :
    (outsAt3 V c t.val t.isLt).1 = k3_pay3 (acc3 Ab S (ib3 t) 3 (by decide)) (rows2048 D (ib3 t)) := by
  have h0 : ¬t.val % 4 = 0 := by omega
  have ht : t.val < 16 := lt_of_lt_of_eq t.isLt N_3
  rw [out3_at_C V Ab D S c hAb hD hS t h0 h1]
  refine congrArg (fun a => k3_pay3 a (rows2048 D (ib3 t))) ?_
  rw [scratch3_eq V Ab S c hAb hS (t.val - 1) (Nat.lt_of_le_of_lt (Nat.sub_le _ _) t.isLt)]
  have e : acc3 Ab S (ib3 ⟨t.val - 1, Nat.lt_of_le_of_lt (Nat.sub_le _ _) t.isLt⟩) ((t.val - 1) % 4) (Nat.mod_lt _ (by decide))
      = acc3 Ab S (ib3 t) (3 - 1) (by decide) :=
    acc3_congr Ab S _ _ _ _ _ _ (Fin.ext (by show (t.val - 1) / 4 = t.val / 4; omega)) (by omega)
  rw [e]
  have hk : kb3 t = (⟨3, by decide⟩ : Fin 4) := Fin.ext h1
  show k3_pay2 (rows2048 S (kb3 t)) (tile2048 Ab (ib3 t) (kb3 t)) _ = _
  rw [hk]
  exact (acc3_pos Ab S (ib3 t) 3 (by decide) (by decide)).symm

/-! ## From the written blocks to the array -/

theorem KZ_at (ib : Fin 4) (p : Fin 2048) (z : Fin 128) (h : 2048 * ib.val + p.val < 8192) :
    KZ Ab D S (ix2 (⟨2048 * ib.val + p.val, h⟩ : Fin 8192) z) = k3_pay3 (acc3 Ab S ib 3 (by decide)) (rows2048 D ib) (ix2 p z) := by
  unfold KZ
  have hb : blkOf 2048 4 (by decide) (⟨2048 * ib.val + p.val, h⟩ : Fin 8192) = ib := Fin.ext (by show (2048 * ib.val + p.val) / 2048 = ib.val; have := p.isLt; omega)
  have hr : rowIn 2048 4 (by decide) (⟨2048 * ib.val + p.val, h⟩ : Fin 8192) = p := Fin.ext (by show (2048 * ib.val + p.val) % 2048 = p.val; have := p.isLt; omega)
  show k3_pay3 (acc3 Ab S (blkOf 2048 4 _ (⟨2048 * ib.val + p.val, h⟩ : Fin 8192)) 3 _) (rows2048 D (blkOf 2048 4 _ (⟨2048 * ib.val + p.val, h⟩ : Fin 8192))) (ix2 (rowIn 2048 4 _ (⟨2048 * ib.val + p.val, h⟩ : Fin 8192)) z) = _
  rw [hb, hr]

include hAb hD hS in
theorem flushed3_3_eq (t : Fin cfg3.N) (hf : (cfg3.win 3).flush t = true) :
    (dat3 V c).flushed 3 t = ((cfg3.win 3).blk t).view.read (Elt F) (KZ Ab D S) := by
  have h1 : t.val % 4 = 3 := (flush3_3 t).mp hf
  show (cfg3.win 3).cut (grid3.coords t) ((dat3 V c).after 3 t) = _
  rw [after3_3, outblock3_eq V Ab D S c hAb hD hS t h1]
  obtain ⟨-, -, -, -, -, -, e6, e7, -, -⟩ := idx_facts3 t
  funext j
  show k3_pay3 (acc3 Ab S (ib3 t) 3 _) (rows2048 D (ib3 t)) j = KZ Ab D S (((cfg3.win 3).blk t).view.emb j)
  have hj0 : (j 0).val < 2048 := (j 0).isLt
  have hj1 : (j 1).val < 128 := (j 1).isLt
  have ht : t.val < 16 := lt_of_lt_of_eq t.isLt N_3
  have hemb : ((cfg3.win 3).blk t).view.emb j = ix2 (⟨2048 * (ib3 t).val + (⟨(j 0).val, hj0⟩ : Fin 2048).val, by show 2048 * (t.val / 4) + (j 0).val < 8192; omega⟩ : Fin 8192) (⟨(j 1).val, hj1⟩ : Fin 128) := by
    funext a; apply Fin.ext
    match a with
    | ⟨0, _⟩ => show win3_3.index t (0 : Fin 2) * 2048 + 1 * (j 0).val = 2048 * (t.val / 4) + (j 0).val; omega
    | ⟨1, _⟩ => show win3_3.index t (1 : Fin 2) * 128 + 1 * (j 1).val = (j 1).val; omega
  rw [hemb, KZ_at]
  exact congrArg _ (eq_ix2 j)

theorem mem_blk3_3 (t : Fin cfg3.N) (i : S8192x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v12).slice (win3_3.rect t)).set ↔ _
  rw [View.set_slice_whole, Rect.mem_set_unit]
  exact Iff.rfl

/-- Row r of the result is in the block written at point 4·(r / 2048) + 3. -/
theorem covered3_3 (i : S8192x128.Idx) : ∃ t : Fin cfg3.N, (cfg3.win 3).flush t = true ∧ i ∈ ((cfg3.win 3).blk t).view.set := by
  have hi0 : (i 0).val < 8192 := (i 0).isLt
  have hi1 : (i 1).val < 128 := (i 1).isLt
  let t : Fin cfg3.N := ⟨4 * ((i 0).val / 2048) + 3, by rw [show cfg3.N = 16 from N_3]; omega⟩
  obtain ⟨-, -, -, -, -, -, e6, e7, -, -⟩ := idx_facts3 t
  have etv : t.val = 4 * ((i 0).val / 2048) + 3 := rfl
  refine ⟨t, (flush3_3 t).mpr (by omega), ?_⟩
  rw [mem_blk3_3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 128 ≤ (i 1).val ∧ (i 1).val < win3_3.index t (1 : Fin 2) * 128 + 128; omega

include hAb hD hS in
/-- THE RESULT ARRAY of region 3 after its sixteen points. -/
theorem final3_3 : (dat3 V c).arrAt 3 cfg3.N = KZ Ab D S :=
  (dat3 V c).arrAt_eq_of_cover 3 (KZ Ab D S) (fun t hf => flushed3_3_eq V Ab D S c hAb hD hS t hf) covered3_3

end Cert.KernelIdeal.Hand

end
-- ==== Proof.Val4.lean ====
/-
  What region 4 leaves in its result array: it has one point, and every window's block is its whole array, so
  the pooled row is the body's named arithmetic of the five arrays it reads.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import proofs.«111544_j24051816858257_2_alg».proof.Proof.Reg4
import proofs.«111544_j24051816858257_2_alg».proof.Proof.KFun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.KFun Idealize.ShloMosaic.ValueIdx

theorem hz4 : (![0, 0] : Fin 2 → Nat) = fun _ => 0 := funext fun a => by fin_cases a <;> rfl

theorem out4_5_eq (x0 : Vec F S8192x128 .f32) (x1 : Vec F S128x128 .f32) (x2 : Vec F S1x128 .f32) (x3 : Vec F S128x1 .f32) (x4 : Vec F S1x1 .f32) :
    out4_5 x0 x1 x2 x3 x4 = k4_pay1 x0 x1 x2 x3 x4 := by
  unfold out4_5; rw [View.canon_unit_zero hz4]
  simp only [View.ld_unit_zero (S := S8192x128) hz4, View.ld_unit_zero (S := S128x128) hz4, View.ld_unit_zero (S := S1x128) hz4,
    View.ld_unit_zero (S := S128x1) hz4, View.ld_unit_zero (S := S1x1) hz4]

/-- At the one point every window's block index is zero on both axes. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem iblk4_0_eq (c : Dev nD) (t : Fin cfg4.N) : iblk4 V c 0 t = V c main_v12 := by
  obtain ⟨a0, b0, a1, b1, a2, b2, a3, b3, a4, b4, a5, b5⟩ := idx_facts4 t
  funext y
  show V c main_v12 (((cfg4.win 0).blk t).view.emb y) = V c main_v12 y
  refine congrArg _ (funext fun a => Fin.ext ?_)
  match a with
  | ⟨0, _⟩ => show win4_0.index t (0 : Fin 2) * 8192 + 1 * (y 0).val = (y 0).val; omega
  | ⟨1, _⟩ => show win4_0.index t (1 : Fin 2) * 128 + 1 * (y 1).val = (y 1).val; omega

theorem iblk4_1_eq (c : Dev nD) (t : Fin cfg4.N) : iblk4 V c 1 t = V c main_v13 := by
  obtain ⟨a0, b0, a1, b1, a2, b2, a3, b3, a4, b4, a5, b5⟩ := idx_facts4 t
  funext y
  show V c main_v13 (((cfg4.win 1).blk t).view.emb y) = V c main_v13 y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

theorem iblk4_2_eq (c : Dev nD) (t : Fin cfg4.N) : iblk4 V c 2 t = V c main_v14 := by
  obtain ⟨a0, b0, a1, b1, a2, b2, a3, b3, a4, b4, a5, b5⟩ := idx_facts4 t
  funext y
  show V c main_v14 (((cfg4.win 2).blk t).view.emb y) = V c main_v14 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem iblk4_3_eq (c : Dev nD) (t : Fin cfg4.N) : iblk4 V c 3 t = V c main_arg7 := by
  obtain ⟨a0, b0, a1, b1, a2, b2, a3, b3, a4, b4, a5, b5⟩ := idx_facts4 t
  funext y
  show V c main_arg7 (((cfg4.win 3).blk t).view.emb y) = V c main_arg7 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 1 + 1 * (y 1).val = (y 1).val; omega

theorem iblk4_4_eq (c : Dev nD) (t : Fin cfg4.N) : iblk4 V c 4 t = V c main_v15 := by
  obtain ⟨a0, b0, a1, b1, a2, b2, a3, b3, a4, b4, a5, b5⟩ := idx_facts4 t
  funext y
  show V c main_v15 (((cfg4.win 4).blk t).view.emb y) = V c main_v15 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- The pooled row as the region leaves it. -/
abbrev pooled4 (c : Dev nD) : Vec F S1x128 .f32 :=
  k4_pay1 (V c main_v12) (V c main_v13) (V c main_v14) (V c main_arg7) (V c main_v15)

theorem flushed4_5_eq (c : Dev nD) (t : Fin cfg4.N) :
    (dat4 V c).flushed 5 t = ((cfg4.win 5).blk t).view.read (Elt F) (pooled4 V c) := by
  show (cfg4.win 5).cut (grid4.coords t) ((dat4 V c).after 5 t) = _
  rw [after4_5, out4_5_eq, iblk4_0_eq, iblk4_1_eq, iblk4_2_eq, iblk4_3_eq, iblk4_4_eq]
  obtain ⟨a0, b0, a1, b1, a2, b2, a3, b3, a4, b4, a5, b5⟩ := idx_facts4 t
  funext j
  show pooled4 V c j = pooled4 V c (((cfg4.win 5).blk t).view.emb j)
  refine congrArg _ (funext fun a => Fin.ext ?_)
  match a with
  | ⟨0, _⟩ => show (j 0).val = win4_5.index t (0 : Fin 2) * 1 + 1 * (j 0).val; omega
  | ⟨1, _⟩ => show (j 1).val = win4_5.index t (1 : Fin 2) * 128 + 1 * (j 1).val; omega

theorem mem_blk4_5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v16).slice (win4_5.rect t)).set ↔ _
  rw [View.set_slice_whole, Rect.mem_set_unit]
  exact Iff.rfl

theorem covered4_5 (i : S1x128.Idx) : ∃ t : Fin cfg4.N, (cfg4.win 5).flush t = true ∧ i ∈ ((cfg4.win 5).blk t).view.set := by
  have hi0 : (i 0).val < 1 := (i 0).isLt
  have hi1 : (i 1).val < 128 := (i 1).isLt
  obtain ⟨a0, b0, a1, b1, a2, b2, a3, b3, a4, b4, a5, b5⟩ := idx_facts4 t4_0
  refine ⟨t4_0, flush4_5 t4_0, ?_⟩
  rw [mem_blk4_5]
  intro a
  match a with
  | ⟨0, _⟩ => show win4_5.index t4_0 (0 : Fin 2) * 1 ≤ (i 0).val ∧ (i 0).val < win4_5.index t4_0 (0 : Fin 2) * 1 + 1; omega
  | ⟨1, _⟩ => show win4_5.index t4_0 (1 : Fin 2) * 128 ≤ (i 1).val ∧ (i 1).val < win4_5.index t4_0 (1 : Fin 2) * 128 + 128; omega

/-- THE RESULT ARRAY of region 4. -/
theorem final4_5 (c : Dev nD) : (dat4 V c).arrAt 5 cfg4.N = pooled4 V c :=
  (dat4 V c).arrAt_eq_of_cover 5 (pooled4 V c) (fun t _ => flushed4_5_eq V c t) covered4_5

end Cert.KernelIdeal.Hand

end
-- ==== Proof.Walk.lean ====
/-
  The last boundary's contents read back through the fold of the run: no host operation and no region writes an
  argument array, so each argument's buffer ends as launched; and the buffers the regions and the host
  operations write hold, in turn, the column D and the narrowed matrix, the scaled right-hand sides and the layers'
  results, and at the end the two results of the program as the whole-array functions of the nine arguments.
-/
import proofs.«111544_j24051816858257_2_alg».proof.Proof.Gen.KernelIdeal.Launch
import proofs.«111544_j24051816858257_2_alg».proof.Proof.Gen.KernelIdeal.Skeleton
import proofs.«111544_j24051816858257_2_alg».proof.Proof.Gen.KernelIdeal.Points
import proofs.«111544_j24051816858257_2_alg».proof.Proof.RunAll
import proofs.«111544_j24051816858257_2_alg».proof.Proof.Val0
import proofs.«111544_j24051816858257_2_alg».proof.Proof.Val1
import proofs.«111544_j24051816858257_2_alg».proof.Proof.Val2
import proofs.«111544_j24051816858257_2_alg».proof.Proof.Val3
import proofs.«111544_j24051816858257_2_alg».proof.Proof.Val4
import proofs.«111544_j24051816858257_2_alg».proof.Proof.KFun
import proofs.«111544_j24051816858257_2_alg».proof.Proof.Gen.KernelIdeal.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KFun
variable (m : (ℓ : Loc nD τ sig) → Buf (Elt F) ℓ) (c : Dev nD)

/-! ## A host stretch leaves what it does not write -/
theorem W2_keep (b : Ref sig .tc) (hb : b ∉ Cert.KernelIdeal.Gen.hostOps1_W) : W2 m c b = W1 m c b :=
  StableHlo.after_of_writes_sub hostOps1 _ Cert.KernelIdeal.Gen.hostOps1_writes hb
theorem W4_keep (b : Ref sig .tc) (hb : b ∉ Cert.KernelIdeal.Gen.hostOps2_W) : W4 m c b = W3 m c b :=
  StableHlo.after_of_writes_sub hostOps2 _ Cert.KernelIdeal.Gen.hostOps2_writes hb
theorem W6_keep (b : Ref sig .tc) (hb : b ∉ Cert.KernelIdeal.Gen.hostOps3_W) : W6 m c b = W5 m c b :=
  StableHlo.after_of_writes_sub hostOps3 _ Cert.KernelIdeal.Gen.hostOps3_writes hb
theorem W8_keep (b : Ref sig .tc) (hb : b ∉ Cert.KernelIdeal.Gen.hostOps4_W) : W8 m c b = W7 m c b :=
  StableHlo.after_of_writes_sub hostOps4 _ Cert.KernelIdeal.Gen.hostOps4_writes hb
theorem W10_keep (b : Ref sig .tc) (hb : b ∉ Cert.KernelIdeal.Gen.hostOps5_W) : W10 m c b = W9 m c b :=
  StableHlo.after_of_writes_sub hostOps5 _ Cert.KernelIdeal.Gen.hostOps5_writes hb

/-! ## The argument arrays at every boundary -/
theorem W1_arg0 : W1 m c main_arg0 = m ((c : Thread nD τ).loc main_arg0) := (W1_of_ne m c main_arg0 (by decide)).trans rfl
theorem W2_arg0 : W2 m c main_arg0 = m ((c : Thread nD τ).loc main_arg0) := (W2_keep m c main_arg0 (by decide)).trans (W1_arg0 m c)
theorem W3_arg0 : W3 m c main_arg0 = m ((c : Thread nD τ).loc main_arg0) := (W3_of_ne m c main_arg0 (by decide)).trans (W2_arg0 m c)
theorem W4_arg0 : W4 m c main_arg0 = m ((c : Thread nD τ).loc main_arg0) := (W4_keep m c main_arg0 (by decide)).trans (W3_arg0 m c)
theorem W5_arg0 : W5 m c main_arg0 = m ((c : Thread nD τ).loc main_arg0) := (W5_of_ne m c main_arg0 (by decide)).trans (W4_arg0 m c)
theorem W6_arg0 : W6 m c main_arg0 = m ((c : Thread nD τ).loc main_arg0) := (W6_keep m c main_arg0 (by decide)).trans (W5_arg0 m c)
theorem W7_arg0 : W7 m c main_arg0 = m ((c : Thread nD τ).loc main_arg0) := (W7_of_ne m c main_arg0 (by decide)).trans (W6_arg0 m c)
theorem W8_arg0 : W8 m c main_arg0 = m ((c : Thread nD τ).loc main_arg0) := (W8_keep m c main_arg0 (by decide)).trans (W7_arg0 m c)
theorem W9_arg0 : W9 m c main_arg0 = m ((c : Thread nD τ).loc main_arg0) := (W9_of_ne m c main_arg0 (by decide)).trans (W8_arg0 m c)
theorem W10_arg0 : W10 m c main_arg0 = m ((c : Thread nD τ).loc main_arg0) := (W10_keep m c main_arg0 (by decide)).trans (W9_arg0 m c)
theorem W1_arg1 : W1 m c main_arg1 = m ((c : Thread nD τ).loc main_arg1) := ((W1_arr m c 0).trans (((dat0 (VV0 m) c).arrAt_in 0 rfl _).trans (A_eq0 (VV0 m) c 0))).trans rfl
theorem W2_arg1 : W2 m c main_arg1 = m ((c : Thread nD τ).loc main_arg1) := (W2_keep m c main_arg1 (by decide)).trans (W1_arg1 m c)
theorem W3_arg1 : W3 m c main_arg1 = m ((c : Thread nD τ).loc main_arg1) := (W3_of_ne m c main_arg1 (by decide)).trans (W2_arg1 m c)
theorem W4_arg1 : W4 m c main_arg1 = m ((c : Thread nD τ).loc main_arg1) := (W4_keep m c main_arg1 (by decide)).trans (W3_arg1 m c)
theorem W5_arg1 : W5 m c main_arg1 = m ((c : Thread nD τ).loc main_arg1) := (W5_of_ne m c main_arg1 (by decide)).trans (W4_arg1 m c)
theorem W6_arg1 : W6 m c main_arg1 = m ((c : Thread nD τ).loc main_arg1) := (W6_keep m c main_arg1 (by decide)).trans (W5_arg1 m c)
theorem W7_arg1 : W7 m c main_arg1 = m ((c : Thread nD τ).loc main_arg1) := (W7_of_ne m c main_arg1 (by decide)).trans (W6_arg1 m c)
theorem W8_arg1 : W8 m c main_arg1 = m ((c : Thread nD τ).loc main_arg1) := (W8_keep m c main_arg1 (by decide)).trans (W7_arg1 m c)
theorem W9_arg1 : W9 m c main_arg1 = m ((c : Thread nD τ).loc main_arg1) := (W9_of_ne m c main_arg1 (by decide)).trans (W8_arg1 m c)
theorem W10_arg1 : W10 m c main_arg1 = m ((c : Thread nD τ).loc main_arg1) := (W10_keep m c main_arg1 (by decide)).trans (W9_arg1 m c)
theorem W1_arg2 : W1 m c main_arg2 = m ((c : Thread nD τ).loc main_arg2) := (W1_of_ne m c main_arg2 (by decide)).trans rfl
theorem W2_arg2 : W2 m c main_arg2 = m ((c : Thread nD τ).loc main_arg2) := (W2_keep m c main_arg2 (by decide)).trans (W1_arg2 m c)
theorem W3_arg2 : W3 m c main_arg2 = m ((c : Thread nD τ).loc main_arg2) := (W3_of_ne m c main_arg2 (by decide)).trans (W2_arg2 m c)
theorem W4_arg2 : W4 m c main_arg2 = m ((c : Thread nD τ).loc main_arg2) := (W4_keep m c main_arg2 (by decide)).trans (W3_arg2 m c)
theorem W5_arg2 : W5 m c main_arg2 = m ((c : Thread nD τ).loc main_arg2) := (W5_of_ne m c main_arg2 (by decide)).trans (W4_arg2 m c)
theorem W6_arg2 : W6 m c main_arg2 = m ((c : Thread nD τ).loc main_arg2) := (W6_keep m c main_arg2 (by decide)).trans (W5_arg2 m c)
theorem W7_arg2 : W7 m c main_arg2 = m ((c : Thread nD τ).loc main_arg2) := (W7_of_ne m c main_arg2 (by decide)).trans (W6_arg2 m c)
theorem W8_arg2 : W8 m c main_arg2 = m ((c : Thread nD τ).loc main_arg2) := (W8_keep m c main_arg2 (by decide)).trans (W7_arg2 m c)
theorem W9_arg2 : W9 m c main_arg2 = m ((c : Thread nD τ).loc main_arg2) := (W9_of_ne m c main_arg2 (by decide)).trans (W8_arg2 m c)
theorem W10_arg2 : W10 m c main_arg2 = m ((c : Thread nD τ).loc main_arg2) := (W10_keep m c main_arg2 (by decide)).trans (W9_arg2 m c)
theorem W1_arg3 : W1 m c main_arg3 = m ((c : Thread nD τ).loc main_arg3) := (W1_of_ne m c main_arg3 (by decide)).trans rfl
theorem W2_arg3 : W2 m c main_arg3 = m ((c : Thread nD τ).loc main_arg3) := (W2_keep m c main_arg3 (by decide)).trans (W1_arg3 m c)
theorem W3_arg3 : W3 m c main_arg3 = m ((c : Thread nD τ).loc main_arg3) := (W3_of_ne m c main_arg3 (by decide)).trans (W2_arg3 m c)
theorem W4_arg3 : W4 m c main_arg3 = m ((c : Thread nD τ).loc main_arg3) := (W4_keep m c main_arg3 (by decide)).trans (W3_arg3 m c)
theorem W5_arg3 : W5 m c main_arg3 = m ((c : Thread nD τ).loc main_arg3) := (W5_of_ne m c main_arg3 (by decide)).trans (W4_arg3 m c)
theorem W6_arg3 : W6 m c main_arg3 = m ((c : Thread nD τ).loc main_arg3) := (W6_keep m c main_arg3 (by decide)).trans (W5_arg3 m c)
theorem W7_arg3 : W7 m c main_arg3 = m ((c : Thread nD τ).loc main_arg3) := (W7_of_ne m c main_arg3 (by decide)).trans (W6_arg3 m c)
theorem W8_arg3 : W8 m c main_arg3 = m ((c : Thread nD τ).loc main_arg3) := (W8_keep m c main_arg3 (by decide)).trans (W7_arg3 m c)
theorem W9_arg3 : W9 m c main_arg3 = m ((c : Thread nD τ).loc main_arg3) := (W9_of_ne m c main_arg3 (by decide)).trans (W8_arg3 m c)
theorem W10_arg3 : W10 m c main_arg3 = m ((c : Thread nD τ).loc main_arg3) := (W10_keep m c main_arg3 (by decide)).trans (W9_arg3 m c)
theorem W1_arg4 : W1 m c main_arg4 = m ((c : Thread nD τ).loc main_arg4) := (W1_of_ne m c main_arg4 (by decide)).trans rfl
theorem W2_arg4 : W2 m c main_arg4 = m ((c : Thread nD τ).loc main_arg4) := (W2_keep m c main_arg4 (by decide)).trans (W1_arg4 m c)
theorem W3_arg4 : W3 m c main_arg4 = m ((c : Thread nD τ).loc main_arg4) := (W3_of_ne m c main_arg4 (by decide)).trans (W2_arg4 m c)
theorem W4_arg4 : W4 m c main_arg4 = m ((c : Thread nD τ).loc main_arg4) := (W4_keep m c main_arg4 (by decide)).trans (W3_arg4 m c)
theorem W5_arg4 : W5 m c main_arg4 = m ((c : Thread nD τ).loc main_arg4) := (W5_of_ne m c main_arg4 (by decide)).trans (W4_arg4 m c)
theorem W6_arg4 : W6 m c main_arg4 = m ((c : Thread nD τ).loc main_arg4) := (W6_keep m c main_arg4 (by decide)).trans (W5_arg4 m c)
theorem W7_arg4 : W7 m c main_arg4 = m ((c : Thread nD τ).loc main_arg4) := (W7_of_ne m c main_arg4 (by decide)).trans (W6_arg4 m c)
theorem W8_arg4 : W8 m c main_arg4 = m ((c : Thread nD τ).loc main_arg4) := (W8_keep m c main_arg4 (by decide)).trans (W7_arg4 m c)
theorem W9_arg4 : W9 m c main_arg4 = m ((c : Thread nD τ).loc main_arg4) := (W9_of_ne m c main_arg4 (by decide)).trans (W8_arg4 m c)
theorem W10_arg4 : W10 m c main_arg4 = m ((c : Thread nD τ).loc main_arg4) := (W10_keep m c main_arg4 (by decide)).trans (W9_arg4 m c)
theorem W1_arg5 : W1 m c main_arg5 = m ((c : Thread nD τ).loc main_arg5) := (W1_of_ne m c main_arg5 (by decide)).trans rfl
theorem W2_arg5 : W2 m c main_arg5 = m ((c : Thread nD τ).loc main_arg5) := (W2_keep m c main_arg5 (by decide)).trans (W1_arg5 m c)
theorem W3_arg5 : W3 m c main_arg5 = m ((c : Thread nD τ).loc main_arg5) := (W3_of_ne m c main_arg5 (by decide)).trans (W2_arg5 m c)
theorem W4_arg5 : W4 m c main_arg5 = m ((c : Thread nD τ).loc main_arg5) := (W4_keep m c main_arg5 (by decide)).trans (W3_arg5 m c)
theorem W5_arg5 : W5 m c main_arg5 = m ((c : Thread nD τ).loc main_arg5) := (W5_of_ne m c main_arg5 (by decide)).trans (W4_arg5 m c)
theorem W6_arg5 : W6 m c main_arg5 = m ((c : Thread nD τ).loc main_arg5) := (W6_keep m c main_arg5 (by decide)).trans (W5_arg5 m c)
theorem W7_arg5 : W7 m c main_arg5 = m ((c : Thread nD τ).loc main_arg5) := (W7_of_ne m c main_arg5 (by decide)).trans (W6_arg5 m c)
theorem W8_arg5 : W8 m c main_arg5 = m ((c : Thread nD τ).loc main_arg5) := (W8_keep m c main_arg5 (by decide)).trans (W7_arg5 m c)
theorem W9_arg5 : W9 m c main_arg5 = m ((c : Thread nD τ).loc main_arg5) := (W9_of_ne m c main_arg5 (by decide)).trans (W8_arg5 m c)
theorem W10_arg5 : W10 m c main_arg5 = m ((c : Thread nD τ).loc main_arg5) := (W10_keep m c main_arg5 (by decide)).trans (W9_arg5 m c)
theorem W1_arg6 : W1 m c main_arg6 = m ((c : Thread nD τ).loc main_arg6) := (W1_of_ne m c main_arg6 (by decide)).trans rfl
theorem W2_arg6 : W2 m c main_arg6 = m ((c : Thread nD τ).loc main_arg6) := (W2_keep m c main_arg6 (by decide)).trans (W1_arg6 m c)
theorem W3_arg6 : W3 m c main_arg6 = m ((c : Thread nD τ).loc main_arg6) := (W3_of_ne m c main_arg6 (by decide)).trans (W2_arg6 m c)
theorem W4_arg6 : W4 m c main_arg6 = m ((c : Thread nD τ).loc main_arg6) := (W4_keep m c main_arg6 (by decide)).trans (W3_arg6 m c)
theorem W5_arg6 : W5 m c main_arg6 = m ((c : Thread nD τ).loc main_arg6) := (W5_of_ne m c main_arg6 (by decide)).trans (W4_arg6 m c)
theorem W6_arg6 : W6 m c main_arg6 = m ((c : Thread nD τ).loc main_arg6) := (W6_keep m c main_arg6 (by decide)).trans (W5_arg6 m c)
theorem W7_arg6 : W7 m c main_arg6 = m ((c : Thread nD τ).loc main_arg6) := (W7_of_ne m c main_arg6 (by decide)).trans (W6_arg6 m c)
theorem W8_arg6 : W8 m c main_arg6 = m ((c : Thread nD τ).loc main_arg6) := (W8_keep m c main_arg6 (by decide)).trans (W7_arg6 m c)
theorem W9_arg6 : W9 m c main_arg6 = m ((c : Thread nD τ).loc main_arg6) := (W9_of_ne m c main_arg6 (by decide)).trans (W8_arg6 m c)
theorem W10_arg6 : W10 m c main_arg6 = m ((c : Thread nD τ).loc main_arg6) := (W10_keep m c main_arg6 (by decide)).trans (W9_arg6 m c)
theorem W1_arg7 : W1 m c main_arg7 = m ((c : Thread nD τ).loc main_arg7) := (W1_of_ne m c main_arg7 (by decide)).trans rfl
theorem W2_arg7 : W2 m c main_arg7 = m ((c : Thread nD τ).loc main_arg7) := (W2_keep m c main_arg7 (by decide)).trans (W1_arg7 m c)
theorem W3_arg7 : W3 m c main_arg7 = m ((c : Thread nD τ).loc main_arg7) := (W3_of_ne m c main_arg7 (by decide)).trans (W2_arg7 m c)
theorem W4_arg7 : W4 m c main_arg7 = m ((c : Thread nD τ).loc main_arg7) := (W4_keep m c main_arg7 (by decide)).trans (W3_arg7 m c)
theorem W5_arg7 : W5 m c main_arg7 = m ((c : Thread nD τ).loc main_arg7) := (W5_of_ne m c main_arg7 (by decide)).trans (W4_arg7 m c)
theorem W6_arg7 : W6 m c main_arg7 = m ((c : Thread nD τ).loc main_arg7) := (W6_keep m c main_arg7 (by decide)).trans (W5_arg7 m c)
theorem W7_arg7 : W7 m c main_arg7 = m ((c : Thread nD τ).loc main_arg7) := (W7_of_ne m c main_arg7 (by decide)).trans (W6_arg7 m c)
theorem W8_arg7 : W8 m c main_arg7 = m ((c : Thread nD τ).loc main_arg7) := (W8_keep m c main_arg7 (by decide)).trans (W7_arg7 m c)
theorem W9_arg7 : W9 m c main_arg7 = m ((c : Thread nD τ).loc main_arg7) := ((W9_arr m c 3).trans (((dat4 (VV8 m) c).arrAt_in 3 rfl _).trans (A_eq4 (VV8 m) c 3))).trans (W8_arg7 m c)
theorem W10_arg7 : W10 m c main_arg7 = m ((c : Thread nD τ).loc main_arg7) := (W10_keep m c main_arg7 (by decide)).trans (W9_arg7 m c)
theorem W1_arg8 : W1 m c main_arg8 = m ((c : Thread nD τ).loc main_arg8) := (W1_of_ne m c main_arg8 (by decide)).trans rfl
theorem W2_arg8 : W2 m c main_arg8 = m ((c : Thread nD τ).loc main_arg8) := (W2_keep m c main_arg8 (by decide)).trans (W1_arg8 m c)
theorem W3_arg8 : W3 m c main_arg8 = m ((c : Thread nD τ).loc main_arg8) := (W3_of_ne m c main_arg8 (by decide)).trans (W2_arg8 m c)
theorem W4_arg8 : W4 m c main_arg8 = m ((c : Thread nD τ).loc main_arg8) := (W4_keep m c main_arg8 (by decide)).trans (W3_arg8 m c)
theorem W5_arg8 : W5 m c main_arg8 = m ((c : Thread nD τ).loc main_arg8) := (W5_of_ne m c main_arg8 (by decide)).trans (W4_arg8 m c)
theorem W6_arg8 : W6 m c main_arg8 = m ((c : Thread nD τ).loc main_arg8) := (W6_keep m c main_arg8 (by decide)).trans (W5_arg8 m c)
theorem W7_arg8 : W7 m c main_arg8 = m ((c : Thread nD τ).loc main_arg8) := (W7_of_ne m c main_arg8 (by decide)).trans (W6_arg8 m c)
theorem W8_arg8 : W8 m c main_arg8 = m ((c : Thread nD τ).loc main_arg8) := (W8_keep m c main_arg8 (by decide)).trans (W7_arg8 m c)
theorem W9_arg8 : W9 m c main_arg8 = m ((c : Thread nD τ).loc main_arg8) := (W9_of_ne m c main_arg8 (by decide)).trans (W8_arg8 m c)
theorem W10_arg8 : W10 m c main_arg8 = m ((c : Thread nD τ).loc main_arg8) := (W10_keep m c main_arg8 (by decide)).trans (W9_arg8 m c)

/-! ## The column D and the narrowed matrix, from region 0 on -/

theorem W1_D : W1 m c main_v0_0 = (KD (m ((c : Thread nD τ).loc main_arg1))) := (W1_arr m c 1).trans (final0_1 (VV0 m) c)
theorem W1_Ab : W1 m c main_v0_1 = (KA (m ((c : Thread nD τ).loc main_arg1))) := (W1_arr m c 2).trans (final0_2 (VV0 m) c)
theorem W2_D : W2 m c main_v0_0 = (KD (m ((c : Thread nD τ).loc main_arg1))) := (W2_keep m c main_v0_0 (by decide)).trans (W1_D m c)
theorem W2_Ab : W2 m c main_v0_1 = (KA (m ((c : Thread nD τ).loc main_arg1))) := (W2_keep m c main_v0_1 (by decide)).trans (W1_Ab m c)
theorem W3_D : W3 m c main_v0_0 = (KD (m ((c : Thread nD τ).loc main_arg1))) := ((W3_arr m c 1).trans (((dat1 (VV2 m) c).arrAt_in 1 rfl _).trans ((A_eq1 (VV2 m) c 1).trans (W2_D m c))))
theorem W3_Ab : W3 m c main_v0_1 = (KA (m ((c : Thread nD τ).loc main_arg1))) := ((W3_arr m c 0).trans (((dat1 (VV2 m) c).arrAt_in 0 rfl _).trans ((A_eq1 (VV2 m) c 0).trans (W2_Ab m c))))
theorem W4_D : W4 m c main_v0_0 = (KD (m ((c : Thread nD τ).loc main_arg1))) := (W4_keep m c main_v0_0 (by decide)).trans (W3_D m c)
theorem W4_Ab : W4 m c main_v0_1 = (KA (m ((c : Thread nD τ).loc main_arg1))) := (W4_keep m c main_v0_1 (by decide)).trans (W3_Ab m c)
theorem W5_D : W5 m c main_v0_0 = (KD (m ((c : Thread nD τ).loc main_arg1))) := ((W5_arr m c 1).trans (((dat2 (VV4 m) c).arrAt_in 1 rfl _).trans ((A_eq2 (VV4 m) c 1).trans (W4_D m c))))
theorem W5_Ab : W5 m c main_v0_1 = (KA (m ((c : Thread nD τ).loc main_arg1))) := ((W5_arr m c 0).trans (((dat2 (VV4 m) c).arrAt_in 0 rfl _).trans ((A_eq2 (VV4 m) c 0).trans (W4_Ab m c))))
theorem W6_D : W6 m c main_v0_0 = (KD (m ((c : Thread nD τ).loc main_arg1))) := (W6_keep m c main_v0_0 (by decide)).trans (W5_D m c)
theorem W6_Ab : W6 m c main_v0_1 = (KA (m ((c : Thread nD τ).loc main_arg1))) := (W6_keep m c main_v0_1 (by decide)).trans (W5_Ab m c)

/-! ## The three layers -/

theorem W2_S1 : W2 m c main_v3 = (scaled1 (KD (m ((c : Thread nD τ).loc main_arg1))) (m ((c : Thread nD τ).loc main_arg0)) (m ((c : Thread nD τ).loc main_arg2))) := by
  show StableHlo.after hostOps1 (W1 m c) (Proc.devRef .tc main_v3) = _
  after_results
  rw [W1_D, W1_arg0, W1_arg2]; rfl
theorem W3_H1 : W3 m c main_v4 = (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) :=
  (W3_arr m c 3).trans (final1_3 (VV2 m) (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2))) c (W2_Ab m c) (W2_D m c) (W2_S1 m c))
theorem W4_S2 : W4 m c main_v7 = (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3))) := by
  show StableHlo.after hostOps2 (W3 m c) (Proc.devRef .tc main_v7) = _
  after_results
  rw [W3_D, W3_H1, W3_arg3]; rfl
theorem W5_H2 : W5 m c main_v8 = (KH2 (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3)))) :=
  (W5_arr m c 3).trans (final2_3 (VV4 m) (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3))) c (W4_Ab m c) (W4_D m c) (W4_S2 m c))
theorem W6_S3 : W6 m c main_v11 = (scaled3 (KD (m ((c : Thread nD τ).loc main_arg1))) (KH2 (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3)))) (m ((c : Thread nD τ).loc main_arg4))) := by
  show StableHlo.after hostOps3 (W5 m c) (Proc.devRef .tc main_v11) = _
  after_results
  rw [W5_D, W5_H2, W5_arg4]; rfl
theorem W7_Z : W7 m c main_v12 = (KZ (KA (m ((c : Thread nD τ).loc main_arg1))) (KD (m ((c : Thread nD τ).loc main_arg1))) (scaled3 (KD (m ((c : Thread nD τ).loc main_arg1))) (KH2 (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3)))) (m ((c : Thread nD τ).loc main_arg4)))) :=
  (W7_arr m c 3).trans (final3_3 (VV6 m) (KA (m ((c : Thread nD τ).loc main_arg1))) (KD (m ((c : Thread nD τ).loc main_arg1))) (scaled3 (KD (m ((c : Thread nD τ).loc main_arg1))) (KH2 (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3)))) (m ((c : Thread nD τ).loc main_arg4))) c (W6_Ab m c) (W6_D m c) (W6_S3 m c))

/-! ## The pooling -/

theorem W8_Z : W8 m c main_v12 = (KZ (KA (m ((c : Thread nD τ).loc main_arg1))) (KD (m ((c : Thread nD τ).loc main_arg1))) (scaled3 (KD (m ((c : Thread nD τ).loc main_arg1))) (KH2 (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3)))) (m ((c : Thread nD τ).loc main_arg4)))) := (W8_keep m c main_v12 (by decide)).trans (W7_Z m c)
theorem W8_WlT : W8 m c main_v13 = transpose S128x128 [1, 0] (m ((c : Thread nD τ).loc main_arg5)) transposes_S128x128_S128x128_1_0 := by
  show StableHlo.after hostOps4 (W7 m c) (Proc.devRef .tc main_v13) = _
  after_results
  rw [W7_arg5]
theorem W8_bl : W8 m c main_v14 = shapeCast S1x128 (m ((c : Thread nD τ).loc main_arg6)) shapeCasts_S128_S1x128 := by
  show StableHlo.after hostOps4 (W7 m c) (Proc.devRef .tc main_v14) = _
  after_results
  rw [W7_arg6]; rfl
theorem W8_b : W8 m c main_v15 = shapeCast S1x1 (m ((c : Thread nD τ).loc main_arg8)) shapeCasts_S1_S1x1 := by
  show StableHlo.after hostOps4 (W7 m c) (Proc.devRef .tc main_v15) = _
  after_results
  rw [W7_arg8]; rfl
theorem W9_pooled : W9 m c main_v16 = k4_pay1 (KZ (KA (m ((c : Thread nD τ).loc main_arg1))) (KD (m ((c : Thread nD τ).loc main_arg1))) (scaled3 (KD (m ((c : Thread nD τ).loc main_arg1))) (KH2 (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3)))) (m ((c : Thread nD τ).loc main_arg4)))) (transpose S128x128 [1, 0] (m ((c : Thread nD τ).loc main_arg5)) transposes_S128x128_S128x128_1_0)
    (shapeCast S1x128 (m ((c : Thread nD τ).loc main_arg6)) shapeCasts_S128_S1x128) (m ((c : Thread nD τ).loc main_arg7)) (shapeCast S1x1 (m ((c : Thread nD τ).loc main_arg8)) shapeCasts_S1_S1x1) := by
  refine (W9_arr m c 5).trans ((final4_5 (VV8 m) c).trans ?_)
  show k4_pay1 (W8 m c main_v12) (W8 m c main_v13) (W8 m c main_v14) (W8 m c main_arg7) (W8 m c main_v15) = _
  rw [W8_Z, W8_WlT, W8_bl, W8_arg7, W8_b]

/-! ## The two results at the end -/

theorem W9_Z : W9 m c main_v12 = (KZ (KA (m ((c : Thread nD τ).loc main_arg1))) (KD (m ((c : Thread nD τ).loc main_arg1))) (scaled3 (KD (m ((c : Thread nD τ).loc main_arg1))) (KH2 (KA (m ((c : Thread nD τ).loc main_arg1))) (KD (m ((c : Thread nD τ).loc main_arg1))) (scaled2 (KD (m ((c : Thread nD τ).loc main_arg1))) (KH1 (KA (m ((c : Thread nD τ).loc main_arg1))) (KD (m ((c : Thread nD τ).loc main_arg1))) (scaled1 (KD (m ((c : Thread nD τ).loc main_arg1))) (m ((c : Thread nD τ).loc main_arg0)) (m ((c : Thread nD τ).loc main_arg2)))) (m ((c : Thread nD τ).loc main_arg3)))) (m ((c : Thread nD τ).loc main_arg4)))) := ((W9_arr m c 0).trans (((dat4 (VV8 m) c).arrAt_in 0 rfl _).trans ((A_eq4 (VV8 m) c 0).trans (W8_Z m c))))
theorem W10_Z : W10 m c main_v12 = kernelZ (m ((c : Thread nD τ).loc main_arg0)) (m ((c : Thread nD τ).loc main_arg1)) (m ((c : Thread nD τ).loc main_arg2)) (m ((c : Thread nD τ).loc main_arg3)) (m ((c : Thread nD τ).loc main_arg4)) :=
  (W10_keep m c main_v12 (by decide)).trans (W9_Z m c)
theorem W10_G : W10 m c main_v17 = kernelG (kernelZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) := by
  show StableHlo.after hostOps5 (W9 m c) (Proc.devRef .tc main_v17) = _
  after_results
  rw [W9_pooled]; rfl

end Cert.KernelIdeal.Hand

end
-- ==== Proof.KReg0.lean ====
/-
  The first kernel region: one pass over the adjacency matrix in 16 blocks of 512 rows. At a block the body
  reads the 512 x 8192 block, leaves in the first output block the inverse square root of each row's sum and
  in the second the block itself at the narrower format. Stated at the contents `V` the region finds in the
  core's buffers: the block of each window at a point, what each output's staging buffer holds after the
  body, the body's run, and the obligation of the body at every point.
-/
import proofs.«111544_j24051816858257_2_alg».proof.Proof.Gen.Kernel.Launch
import proofs.«111544_j24051816858257_2_alg».proof.Proof.Gen.Kernel.Skeleton
import proofs.«111544_j24051816858257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_in : Rect S512x8192 := Rect.unit (s := S512x8192) ![0, 0] S512x8192.size inb_S512x8192_S512x8192_0_0
abbrev r0_d : Rect S512x1 := Rect.unit (s := S512x1) ![0, 0] S512x1.size inb_S512x1_S512x1_0_0

/-- The column of inverse square roots of the block's row sums, as the one whole store leaves it. -/
def out0_1 (x0 : Vec F S512x8192 .f32) : Vec F S512x1 .f32 :=
  View.canon [⟨r0_d, k0_pay1 (View.ld x0 r0_in)⟩]

/-- The block at the narrower format, as the one whole store leaves it. -/
def out0_2 (x0 : Vec F S512x8192 .f32) : Vec F S512x8192 .bf16 :=
  View.canon [⟨r0_in, k0_pay2 (View.ld x0 r0_in)⟩]

theorem cover0_1 (p0 : Vec F S512x1 .f32) (y : S512x1.Idx) :
    ∃ pc ∈ ([⟨r0_d, p0⟩] : List (View.Piece (Elt F) S512x1 .f32)), y ∈ pc.1.set :=
  View.cover_of_tiled [⟨r0_d, p0⟩] S512x1.size (by rfl) y

theorem cover0_2 (p0 : Vec F S512x8192 .bf16) (y : S512x8192.Idx) :
    ∃ pc ∈ ([⟨r0_in, p0⟩] : List (View.Piece (Elt F) S512x8192 .bf16)), y ∈ pc.1.set :=
  View.cover_of_tiled [⟨r0_in, p0⟩] S512x8192.size (by rfl) y

set_option maxHeartbeats 1000000 in
/-- The body on whole staging memrefs, the input's at contents `x0` and the outputs' at anything, runs to the
    continuation with the input's as it was and each output's at its function of `x0`. -/
theorem sound_kernel0 (c : Dev nD) (E : Set ℕ) (i : grid0.Coords)
    (arg1 : Memref sig .tc .vmem S512x8192 .f32) (harg1 : arg1.IsWhole) (arg2 : Memref sig .tc .vmem S512x1 .f32) (harg2 : arg2.IsWhole)
    (arg3 : Memref sig .tc .vmem S512x8192 .bf16) (harg3 : arg3.IsWhole)
    (x0 : Vec F S512x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  Kernel region 1: the product  D · (A S)  on a 4 × 4 grid of 2048-wide tiles, for a right-hand side S of
  256 columns, clamped below at zero. Point t = 4·ib + kb handles rows 2048·ib … of the result and columns
  2048·kb … of A. A scratch accumulator is carried from point to point: the body zeroes it when kb = 0, adds
  the tile's product at every point, and when kb = 3 rescales it by the rows' entries of D and stores the
  result block. So the body has three cases: kb = 0 (reset, then add), kb = 1 or 2 (add), kb = 3 (add, then
  write the block). Stated at the contents `V` the region finds in the core's buffers: the body's run in each
  case, what the scratch and the output block hold after each point, the invariant that carries the scratch
  between points, and the body's obligation at every point.
-/
import proofs.«111544_j24051816858257_2_alg».proof.Proof.Gen.Kernel.Launch
import proofs.«111544_j24051816858257_2_alg».proof.Proof.Gen.Kernel.Skeleton
import proofs.«111544_j24051816858257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- kb = 0: the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- kb = 3: the result block is written. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The scratch accumulator: a whole buffer of the kernel's own. -/
abbrev scM1 : Memref sig .tc .vmem S2048x256 .f32 := Memref.whole cc1_scratch0
abbrev VS1 : View sig .tc .vmem S2048x256 .f32 := (scM1).view
abbrev VO1_3 : View sig .tc .vmem S2048x256 .f32 := (Memref.whole cc1_stg3_0 : Memref sig .tc .vmem S2048x256 .f32).view

/-- The region's invariant before the first point, with the scratch accumulator taken out of the scoped rest. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run in each case -/

set_option maxHeartbeats 1000000 in
/-- kb = 0. The drow block and the output block are not touched; the scratch is handed over at anything. -/
noncomputable def kernelRun1_A (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨[], ?_, fun xi1 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 1, 2. The scratch is handed over at what the point before left. -/
noncomputable def kernelRun1_B (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨[], ?_, fun xi1 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 3. The drow block is read; the output block, handed over at anything, is stored whole. -/
noncomputable def kernelRun1_C (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch and in the output block -/

theorem scover1_A (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) (y : S2048x256.Idx) :
    ∃ pc ∈ (kernelRun1_A c i arg2 harg2 arg3 harg3 arg4 harg4 arg5 harg5 arg6 harg6 hc0 hc1 x0 x2).2.1, y ∈ pc.1.set :=
  View.cover_of_tiledL (kernelRun1_A c i arg2 harg2 arg3 harg3 arg4 harg4 arg5 harg5 arg6 harg6 hc0 hc1 x0 x2).2.1 S2048x256.size (by sl_kernel_rfl) y
def sout1_A (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) : Vec F S2048x256 .f32 :=
  VS1.read (Elt F) (VS1.writes (Elt F) VS1.junk (kernelRun1_A c i arg2 harg2 arg3 harg3 arg4 harg4 arg5 harg5 arg6 harg6 hc0 hc1 x0 x2).2.1)
/-- The output block is not stored into in this case: a placeholder nothing consults. -/
def out1_A_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x2 : Vec F S8192x256 .f32) : Vec F S2048x256 .f32 :=
  VO1_3.read (Elt F) (VO1_3.writes (Elt F) VO1_3.junk (kernelRun1_A c i arg2 harg2 arg3 harg3 arg4 harg4 arg5 harg5 arg6 harg6 hc0 hc1 x0 x2).1)

theorem scover1_B (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) (y : S2048x256.Idx) :
    ∃ pc ∈ (kernelRun1_B c i arg2 harg2 arg3 harg3 arg4 harg4 arg5 harg5 arg6 harg6 hc0 hc1 x0 x2 xs).2.1, y ∈ pc.1.set :=
  View.cover_of_tiledL (kernelRun1_B c i arg2 harg2 arg3 harg3 arg4 harg4 arg5 harg5 arg6 harg6 hc0 hc1 x0 x2 xs).2.1 S2048x256.size (by sl_kernel_rfl) y
def sout1_B (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) : Vec F S2048x256 .f32 :=
  VS1.read (Elt F) (VS1.writes (Elt F) VS1.junk (kernelRun1_B c i arg2 harg2 arg3 harg3 arg4 harg4 arg5 harg5 arg6 harg6 hc0 hc1 x0 x2 xs).2.1)
def out1_B_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x2 : Vec F S8192x256 .f32) (xs : Vec F S2048x256 .f32) : Vec F S2048x256 .f32 :=
  VO1_3.read (Elt F) (VO1_3.writes (Elt F) VO1_3.junk (kernelRun1_B c i arg2 harg2 arg3 harg3 arg4 harg4 arg5 harg5 arg6 harg6 hc0 hc1 x0 x2 xs).1)

theorem scover1_C (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) (y : S2048x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S2048x256.size (by sl_kernel_rfl) y
theorem cover1_C_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) (y : S2048x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S2048x256.size (by sl_kernel_rfl) y
def sout1_C (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) : Vec F S2048x256 .f32 :=
  VS1.read (Elt F) (VS1.writes (Elt F) VS1.junk (kernelRun1_C c i arg2 harg2 arg3 harg3 arg4 harg4 arg5 harg5 arg6 harg6 hc0 hc1 x0 x1 x2 xs).2.1)
def out1_C_3 (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x1 .f32) (x2 : Vec F S8192x256 .f32) (xs : Vec F S2048x256 .f32) : Vec F S2048x256 .f32 :=
  VO1_3.read (Elt F) (VO1_3.writes (Elt F) VO1_3.junk (kernelRun1_C c i arg2 harg2 arg3 harg3 arg4 harg4 arg5 harg5 arg6 harg6 hc0 hc1 x0 x1 x2 xs).1)

/-! ## What the output block's buffer and the scratch hold after each point -/

/-- After the body at position `n`: (the output block's buffer, the scratch accumulator). -/
def outsAt1 (c : Dev nD) : (n : ℕ) → n < cfg1.N → Vec F S2048x256 .f32 × Vec F S2048x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards
    the scratch accumulator at what the point before left, the other scoped buffers at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 2 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 2 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 2 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HS, HR⟩, Hg⟩
  isplitl [HS HR]
  · isplitl [HS]
    · iexists _; iexact HS
    iexact HR
  iexact Hg

end Cert.Kernel.Hand

end
-- ==== Proof.KReg2.lean ====
/-
  Kernel region 2: the product  D · (A S)  on a 4 × 4 grid of 2048-wide tiles, for a right-hand side S of
  256 columns, clamped below at zero. Point t = 4·ib + kb handles rows 2048·ib … of the result and columns
  2048·kb … of A. A scratch accumulator is carried from point to point: the body zeroes it when kb = 0, adds
  the tile's product at every point, and when kb = 3 rescales it by the rows' entries of D and stores the
  result block. So the body has three cases: kb = 0 (reset, then add), kb = 1 or 2 (add), kb = 3 (add, then
  write the block). Stated at the contents `V` the region finds in the core's buffers: the body's run in each
  case, what the scratch and the output block hold after each point, the invariant that carries the scratch
  between points, and the body's obligation at every point.
-/
import proofs.«111544_j24051816858257_2_alg».proof.Proof.Gen.Kernel.Launch
import proofs.«111544_j24051816858257_2_alg».proof.Proof.Gen.Kernel.Skeleton
import proofs.«111544_j24051816858257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- kb = 0: the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- kb = 3: the result block is written. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The scratch accumulator: a whole buffer of the kernel's own. -/
abbrev scM2 : Memref sig .tc .vmem S2048x256 .f32 := Memref.whole cc2_scratch0
abbrev VS2 : View sig .tc .vmem S2048x256 .f32 := (scM2).view
abbrev VO2_3 : View sig .tc .vmem S2048x256 .f32 := (Memref.whole cc2_stg3_0 : Memref sig .tc .vmem S2048x256 .f32).view

/-- The region's invariant before the first point, with the scratch accumulator taken out of the scoped rest. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's run in each case -/

set_option maxHeartbeats 1000000 in
/-- kb = 0. The drow block and the output block are not touched; the scratch is handed over at anything. -/
noncomputable def kernelRun2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨[], ?_, fun xi1 xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 1, 2. The scratch is handed over at what the point before left. -/
noncomputable def kernelRun2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) :
    Σ' (L3 : List (View.Piece (Elt F) S2048x256 .f32)), { LS : List (View.Piece (Elt F) S2048x256 .f32) //
      ∀ (xi1 : Vec F S2048x1 .f32) (xi3 : Vec F S2048x256 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨[], ?_, fun xi1 xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 3. The drow block is read; the output block, handed over at anything, is stored whole. -/
noncomputable def kernelRun2_C (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch and in the output block -/

theorem scover2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) (y : S2048x256.Idx) :
    ∃ pc ∈ (kernelRun2_A c i arg2 harg2 arg3 harg3 arg4 harg4 arg5 harg5 arg6 harg6 hc0 hc1 x0 x2).2.1, y ∈ pc.1.set :=
  View.cover_of_tiledL (kernelRun2_A c i arg2 harg2 arg3 harg3 arg4 harg4 arg5 harg5 arg6 harg6 hc0 hc1 x0 x2).2.1 S2048x256.size (by sl_kernel_rfl) y
def sout2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) : Vec F S2048x256 .f32 :=
  VS2.read (Elt F) (VS2.writes (Elt F) VS2.junk (kernelRun2_A c i arg2 harg2 arg3 harg3 arg4 harg4 arg5 harg5 arg6 harg6 hc0 hc1 x0 x2).2.1)
/-- The output block is not stored into in this case: a placeholder nothing consults. -/
def out2_A_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x2 : Vec F S8192x256 .f32) : Vec F S2048x256 .f32 :=
  VO2_3.read (Elt F) (VO2_3.writes (Elt F) VO2_3.junk (kernelRun2_A c i arg2 harg2 arg3 harg3 arg4 harg4 arg5 harg5 arg6 harg6 hc0 hc1 x0 x2).1)

theorem scover2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) (y : S2048x256.Idx) :
    ∃ pc ∈ (kernelRun2_B c i arg2 harg2 arg3 harg3 arg4 harg4 arg5 harg5 arg6 harg6 hc0 hc1 x0 x2 xs).2.1, y ∈ pc.1.set :=
  View.cover_of_tiledL (kernelRun2_B c i arg2 harg2 arg3 harg3 arg4 harg4 arg5 harg5 arg6 harg6 hc0 hc1 x0 x2 xs).2.1 S2048x256.size (by sl_kernel_rfl) y
def sout2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) : Vec F S2048x256 .f32 :=
  VS2.read (Elt F) (VS2.writes (Elt F) VS2.junk (kernelRun2_B c i arg2 harg2 arg3 harg3 arg4 harg4 arg5 harg5 arg6 harg6 hc0 hc1 x0 x2 xs).2.1)
def out2_B_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x2 : Vec F S8192x256 .f32) (xs : Vec F S2048x256 .f32) : Vec F S2048x256 .f32 :=
  VO2_3.read (Elt F) (VO2_3.writes (Elt F) VO2_3.junk (kernelRun2_B c i arg2 harg2 arg3 harg3 arg4 harg4 arg5 harg5 arg6 harg6 hc0 hc1 x0 x2 xs).1)

theorem scover2_C (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) (y : S2048x256.Idx) :
    ∃ pc ∈ (kernelRun2_C c i arg2 harg2 arg3 harg3 arg4 harg4 arg5 harg5 arg6 harg6 hc0 hc1 x0 x1 x2 xs).2.1, y ∈ pc.1.set :=
  View.cover_of_tiledL (kernelRun2_C c i arg2 harg2 arg3 harg3 arg4 harg4 arg5 harg5 arg6 harg6 hc0 hc1 x0 x1 x2 xs).2.1 S2048x256.size (by sl_kernel_rfl) y
theorem cover2_C_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) (y : S2048x256.Idx) :
    ∃ pc ∈ (kernelRun2_C c i arg2 harg2 arg3 harg3 arg4 harg4 arg5 harg5 arg6 harg6 hc0 hc1 x0 x1 x2 xs).1, y ∈ pc.1.set :=
  View.cover_of_tiledL (kernelRun2_C c i arg2 harg2 arg3 harg3 arg4 harg4 arg5 harg5 arg6 harg6 hc0 hc1 x0 x1 x2 xs).1 S2048x256.size (by sl_kernel_rfl) y
def sout2_C (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) : Vec F S2048x256 .f32 :=
  VS2.read (Elt F) (VS2.writes (Elt F) VS2.junk (kernelRun2_C c i arg2 harg2 arg3 harg3 arg4 harg4 arg5 harg5 arg6 harg6 hc0 hc1 x0 x1 x2 xs).2.1)
def out2_C_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S8192x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x1 .f32) (x2 : Vec F S8192x256 .f32) (xs : Vec F S2048x256 .f32) : Vec F S2048x256 .f32 :=
  VO2_3.read (Elt F) (VO2_3.writes (Elt F) VO2_3.junk (kernelRun2_C c i arg2 harg2 arg3 harg3 arg4 harg4 arg5 harg5 arg6 harg6 hc0 hc1 x0 x1 x2 xs).1)

/-! ## What the output block's buffer and the scratch hold after each point -/

/-- After the body at position `n`: (the output block's buffer, the scratch accumulator). -/
def outsAt2 (c : Dev nD) : (n : ℕ) → n < cfg2.N → Vec F S2048x256 .f32 × Vec F S2048x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 2 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 2 t), sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 2 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards
    the scratch accumulator at what the point before left, the other scoped buffers at anything. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 2 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 2 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 2 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-! ## The invariant at the region's two ends -/

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS, HR⟩, Hg⟩
  isplitl [HS HR]
  · isplitl [HS]
    · iexists _; iexact HS
    iexact HR
  iexact Hg

end Cert.Kernel.Hand

end
-- ==== Proof.KReg3.lean ====
/-
  Kernel region 3: the product  D · (A S)  on a 4 × 4 grid of 2048-wide tiles, for a right-hand side S of
  128 columns. Point t = 4·ib + kb handles rows 2048·ib … of the result and columns
  2048·kb … of A. A scratch accumulator is carried from point to point: the body zeroes it when kb = 0, adds
  the tile's product at every point, and when kb = 3 rescales it by the rows' entries of D and stores the
  result block. So the body has three cases: kb = 0 (reset, then add), kb = 1 or 2 (add), kb = 3 (add, then
  write the block). Stated at the contents `V` the region finds in the core's buffers: the body's run in each
  case, what the scratch and the output block hold after each point, the invariant that carries the scratch
  between points, and the body's obligation at every point.
-/
import proofs.«111544_j24051816858257_2_alg».proof.Proof.Gen.Kernel.Launch
import proofs.«111544_j24051816858257_2_alg».proof.Proof.Gen.Kernel.Skeleton
import proofs.«111544_j24051816858257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- kb = 0: the accumulator is reset. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- kb = 3: the result block is written. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

/-! ## The memrefs the body is called with -/

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8192x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .f32 := win3_3.stage (cfg3.slots t 3)
abbrev hs3_3 (t : Fin cfg3.N) : (ms3_3 t).IsWhole := hstage3_3 ((cfg3.slots t 3).cast nbuf3_3)
/-- The scratch accumulator: a whole buffer of the kernel's own. -/
abbrev scM3 : Memref sig .tc .vmem S2048x128 .f32 := Memref.whole cc3_scratch0
abbrev VS3 : View sig .tc .vmem S2048x128 .f32 := (scM3).view
abbrev VO3_3 : View sig .tc .vmem S2048x128 .f32 := (Memref.whole cc3_stg3_0 : Memref sig .tc .vmem S2048x128 .f32).view

/-- The region's invariant before the first point, with the scratch accumulator taken out of the scoped rest. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run in each case -/

set_option maxHeartbeats 1000000 in
/-- kb = 0. The drow block and the output block are not touched; the scratch is handed over at anything. -/
noncomputable def kernelRun3_A (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) :
    Σ' (L3 : List (View.Piece (Elt F) S2048x128 .f32)), { LS : List (View.Piece (Elt F) S2048x128 .f32) //
      ∀ (xi1 : Vec F S2048x1 .f32) (xi3 : Vec F S2048x128 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨[], ?_, fun xi1 xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 1, 2. The scratch is handed over at what the point before left. -/
noncomputable def kernelRun3_B (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) :
    Σ' (L3 : List (View.Piece (Elt F) S2048x128 .f32)), { LS : List (View.Piece (Elt F) S2048x128 .f32) //
      ∀ (xi1 : Vec F S2048x1 .f32) (xi3 : Vec F S2048x128 .f32) (E : Set ℕ) (K : PUnit → sProp 𝕄),
        iprop(owns (c : Thread nD τ) arg2 fullShare x0 ∗ owns (c : Thread nD τ) arg3 fullShare xi1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare xi1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨[], ?_, fun xi1 xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- kb = 3. The drow block is read; the output block, handed over at anything, is stored whole. -/
noncomputable def kernelRun3_C (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch and in the output block -/

theorem scover3_A (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) (y : S2048x128.Idx) :
    ∃ pc ∈ (kernelRun3_A c i arg2 harg2 arg3 harg3 arg4 harg4 arg5 harg5 arg6 harg6 hc0 hc1 x0 x2).2.1, y ∈ pc.1.set :=
  View.cover_of_tiledL (kernelRun3_A c i arg2 harg2 arg3 harg3 arg4 harg4 arg5 harg5 arg6 harg6 hc0 hc1 x0 x2).2.1 S2048x128.size (by sl_kernel_rfl) y
def sout3_A (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) : Vec F S2048x128 .f32 :=
  VS3.read (Elt F) (VS3.writes (Elt F) VS3.junk (kernelRun3_A c i arg2 harg2 arg3 harg3 arg4 harg4 arg5 harg5 arg6 harg6 hc0 hc1 x0 x2).2.1)
/-- The output block is not stored into in this case: a placeholder nothing consults. -/
def out3_A_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : cond3_0 i) (hc1 : ¬cond3_1 i)
    (x0 : Vec F S2048x2048 .bf16) (x2 : Vec F S8192x128 .f32) : Vec F S2048x128 .f32 :=
  VO3_3.read (Elt F) (VO3_3.writes (Elt F) VO3_3.junk (kernelRun3_A c i arg2 harg2 arg3 harg3 arg4 harg4 arg5 harg5 arg6 harg6 hc0 hc1 x0 x2).1)

theorem scover3_B (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) (y : S2048x128.Idx) :
    ∃ pc ∈ (kernelRun3_B c i arg2 harg2 arg3 harg3 arg4 harg4 arg5 harg5 arg6 harg6 hc0 hc1 x0 x2 xs).2.1, y ∈ pc.1.set :=
  View.cover_of_tiledL (kernelRun3_B c i arg2 harg2 arg3 harg3 arg4 harg4 arg5 harg5 arg6 harg6 hc0 hc1 x0 x2 xs).2.1 S2048x128.size (by sl_kernel_rfl) y
def sout3_B (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) : Vec F S2048x128 .f32 :=
  VS3.read (Elt F) (VS3.writes (Elt F) VS3.junk (kernelRun3_B c i arg2 harg2 arg3 harg3 arg4 harg4 arg5 harg5 arg6 harg6 hc0 hc1 x0 x2 xs).2.1)
def out3_B_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : ¬cond3_1 i)
    (x0 : Vec F S2048x2048 .bf16) (x2 : Vec F S8192x128 .f32) (xs : Vec F S2048x128 .f32) : Vec F S2048x128 .f32 :=
  VO3_3.read (Elt F) (VO3_3.writes (Elt F) VO3_3.junk (kernelRun3_B c i arg2 harg2 arg3 harg3 arg4 harg4 arg5 harg5 arg6 harg6 hc0 hc1 x0 x2 xs).1)

theorem scover3_C (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) (y : S2048x128.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S2048x128.size (by sl_kernel_rfl) y
theorem cover3_C_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) (y : S2048x128.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S2048x128.size (by sl_kernel_rfl) y
def sout3_C (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) : Vec F S2048x128 .f32 :=
  VS3.read (Elt F) (VS3.writes (Elt F) VS3.junk (kernelRun3_C c i arg2 harg2 arg3 harg3 arg4 harg4 arg5 harg5 arg6 harg6 hc0 hc1 x0 x1 x2 xs).2.1)
def out3_C_3 (c : Dev nD) (i : grid3.Coords) (arg2 : Memref sig .tc .vmem S2048x2048 .bf16) (harg2 : arg2.IsWhole) (arg3 : Memref sig .tc .vmem S2048x1 .f32) (harg3 : arg3.IsWhole) (arg4 : Memref sig .tc .vmem S8192x128 .f32) (harg4 : arg4.IsWhole) (arg5 : Memref sig .tc .vmem S2048x128 .f32) (harg5 : arg5.IsWhole) (arg6 : Memref sig .tc .vmem S2048x128 .f32) (harg6 : arg6.IsWhole) (hc0 : ¬cond3_0 i) (hc1 : cond3_1 i)
    (x0 : Vec F S2048x2048 .bf16) (x1 : Vec F S2048x1 .f32) (x2 : Vec F S8192x128 .f32) (xs : Vec F S2048x128 .f32) : Vec F S2048x128 .f32 :=
  VO3_3.read (Elt F) (VO3_3.writes (Elt F) VO3_3.junk (kernelRun3_C c i arg2 harg2 arg3 harg3 arg4 harg4 arg5 harg5 arg6 harg6 hc0 hc1 x0 x1 x2 xs).1)

/-! ## What the output block's buffer and the scratch hold after each point -/

/-- After the body at position `n`: (the output block's buffer, the scratch accumulator). -/
def outsAt3 (c : Dev nD) : (n : ℕ) → n < cfg3.N → Vec F S2048x128 .f32 × Vec F S2048x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 2 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 2 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 2 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 2 t), sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 2 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards
    the scratch accumulator at what the point before left, the other scoped buffers at anything. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · have h1 : ¬t.val % 4 = 3 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 2 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 2 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover3_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 2 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover3_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-! ## The invariant at the region's two ends -/

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega), PhiA3_eq]
  iintro ⟨⟨HS, HR⟩, Hg⟩
  isplitl [HS HR]
  · isplitl [HS]
    · iexists _; iexact HS
    iexact HR
  iexact Hg

end Cert.Kernel.Hand

end
-- ==== Proof.KReg4.lean ====
/-
  The last kernel region: one point, five whole-array input windows (the node embeddings, the transposed
  linear weight, its bias row, the query column, the score offset) and one output window, the pooled row.
  Stated at the contents `V` the region finds in the core's buffers.
-/
import proofs.«111544_j24051816858257_2_alg».proof.Proof.Gen.Kernel.Launch
import proofs.«111544_j24051816858257_2_alg».proof.Proof.Gen.Kernel.Skeleton
import proofs.«111544_j24051816858257_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S8192x128 := Rect.unit (s := S8192x128) ![0, 0] S8192x128.size inb_S8192x128_S8192x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S128x1 := Rect.unit (s := S128x1) ![0, 0] S128x1.size inb_S128x1_S128x1_0_0
abbrev r4_4 : Rect S1x1 := Rect.unit (s := S1x1) ![0, 0] S1x1.size inb_S1x1_S1x1_0_0

/-- The pooled row, as the one whole store leaves it. -/
def out4_5 (x0 : Vec F S8192x128 .f32) (x1 : Vec F S128x128 .f32) (x2 : Vec F S1x128 .f32) (x3 : Vec F S128x1 .f32) (x4 : Vec F S1x1 .f32) :
    Vec F S1x128 .f32 :=
  View.canon [⟨r4_2, k4_pay1 (View.ld x0 r4_0) (View.ld x1 r4_1) (View.ld x2 r4_2) (View.ld x3 r4_3) (View.ld x4 r4_4)⟩]

theorem cover4_5 (p0 : Vec F S1x128 .f32) (y : S1x128.Idx) :
    ∃ pc ∈ ([⟨r4_2, p0⟩] : List (View.Piece (Elt F) S1x128 .f32)), y ∈ pc.1.set :=
  View.cover_of_tiled [⟨r4_2, p0⟩] S1x128.size (by rfl) y

set_option maxHeartbeats 1000000 in
theorem sound_kernel4 (c : Dev nD) (E : Set ℕ) (i : grid4.Coords)
    (arg1 : Memref sig .tc .vmem S8192x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S1x128 .f32) (harg6 : arg6.IsWhole)
    (x0 : Vec F S8192x128 .f32) (x1 : Vec F S128x128 .f32) (x2 : Vec F S1x128 .f32) (x3 : Vec F S128x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of the last region on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRunAll.lean ====
/-
  The whole program as ten segments: kernel region 0, three host operations, region 1, three host operations,
  region 2, three, region 3, three, region 4, one. The contents of the core's buffers at each of the eleven
  boundaries are a fold from the launch memory: after a stretch of host operations what the operations
  compute, after a region its windows' arrays at what the region's write-backs leave and every other buffer
  as it was. Each region is a record over those boundary states; the run composes them, and its post reads
  every buffer the core keeps between segments at the last boundary's contents.
-/
import proofs.«111544_j24051816858257_2_alg».proof.Proof.Gen.Kernel.Launch
import proofs.«111544_j24051816858257_2_alg».proof.Proof.Gen.Kernel.Skeleton
import proofs.«111544_j24051816858257_2_alg».proof.Proof.Gen.Kernel.Points
import proofs.«111544_j24051816858257_2_alg».proof.Proof.KReg0
import proofs.«111544_j24051816858257_2_alg».proof.Proof.KReg1
import proofs.«111544_j24051816858257_2_alg».proof.Proof.KReg2
import proofs.«111544_j24051816858257_2_alg».proof.Proof.KReg3
import proofs.«111544_j24051816858257_2_alg».proof.Proof.KReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev VV0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
abbrev W4 : Dev nD → Valuation τ sig (Elt F) := fun c => StableHlo.after hostOps2 (W3 m c)
abbrev VV4 : (c : Dev nD) → (b : Ref sig .tc) → Buf (Elt F) ((c : Thread nD τ).loc b) := fun c b => W4 m c b
def W5 (c : Dev nD) : Valuation τ sig (Elt F) :=
  Pipeline.withArrays spec2 c (W4 m c) fun w => (dat2 (VV4 m) c).arrAt w cfg2.N
theorem W5_arr (c : Dev nD) (w : Fin cfg2.W) :
    W5 m c (Proc.devRef .tc (Pipeline.arrRef spec2 w)) = (dat2 (VV4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev VV5 : (c : Dev nD) → (b : Ref sig .tc) → Buf (Elt F) ((c : Thread nD τ).loc b) := fun c b => W5 m c b
theorem hF2 (c : Dev nD) (w : Fin cfg2.W) : (dat2 (VV4 m) c).arrAt w cfg2.N = VV5 m c (Pipeline.arrRef spec2 w) :=
  (W5_arr m c w).symm
theorem hrest2 (c : Dev nD) : ∀ b, b ∉ Finset.univ.image (Pipeline.arrRef spec2) → VV5 m c b = VV4 m c b :=
  fun b hb => W5_of_ne m c b fun w e => hb (Finset.mem_image.mpr ⟨w, Finset.mem_univ _, e⟩)
abbrev W6 : Dev nD → Valuation τ sig (Elt F) := fun c => StableHlo.after hostOps3 (W5 m c)
abbrev VV6 : (c : Dev nD) → (b : Ref sig .tc) → Buf (Elt F) ((c : Thread nD τ).loc b) := fun c b => W6 m c b
def W7 (c : Dev nD) : Valuation τ sig (Elt F) :=
  Pipeline.withArrays spec3 c (W6 m c) fun w => (dat3 (VV6 m) c).arrAt w cfg3.N
theorem W7_arr (c : Dev nD) (w : Fin cfg3.W) :
    W7 m c (Proc.devRef .tc (Pipeline.arrRef spec3 w)) = (dat3 (VV6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev VV7 : (c : Dev nD) → (b : Ref sig .tc) → Buf (Elt F) ((c : Thread nD τ).loc b) := fun c b => W7 m c b
theorem hF3 (c : Dev nD) (w : Fin cfg3.W) : (dat3 (VV6 m) c).arrAt w cfg3.N = VV7 m c (Pipeline.arrRef spec3 w) :=
  (W7_arr m c w).symm
theorem hrest3 (c : Dev nD) : ∀ b, b ∉ Finset.univ.image (Pipeline.arrRef spec3) → VV7 m c b = VV6 m c b :=
  fun b hb => W7_of_ne m c b fun w e => hb (Finset.mem_image.mpr ⟨w, Finset.mem_univ _, e⟩)
abbrev W8 : Dev nD → Valuation τ sig (Elt F) := fun c => StableHlo.after hostOps4 (W7 m c)
abbrev VV8 : (c : Dev nD) → (b : Ref sig .tc) → Buf (Elt F) ((c : Thread nD τ).loc b) := fun c b => W8 m c b
def W9 (c : Dev nD) : Valuation τ sig (Elt F) :=
  Pipeline.withArrays spec4 c (W8 m c) fun w => (dat4 (VV8 m) c).arrAt w cfg4.N
theorem W9_arr (c : Dev nD) (w : Fin cfg4.W) :
    W9 m c (Proc.devRef .tc (Pipeline.arrRef spec4 w)) = (dat4 (VV8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev VV9 : (c : Dev nD) → (b : Ref sig .tc) → Buf (Elt F) ((c : Thread nD τ).loc b) := fun c b => W9 m c b
theorem hF4 (c : Dev nD) (w : Fin cfg4.W) : (dat4 (VV8 m) c).arrAt w cfg4.N = VV9 m c (Pipeline.arrRef spec4 w) :=
  (W9_arr m c w).symm
theorem hrest4 (c : Dev nD) : ∀ b, b ∉ Finset.univ.image (Pipeline.arrRef spec4) → VV9 m c b = VV8 m c b :=
  fun b hb => W9_of_ne m c b fun w e => hb (Finset.mem_image.mpr ⟨w, Finset.mem_univ _, e⟩)
abbrev W10 : Dev nD → Valuation τ sig (Elt F) := fun c => StableHlo.after hostOps5 (W9 m c)
abbrev VV10 : (c : Dev nD) → (b : Ref sig .tc) → Buf (Elt F) ((c : Thread nD τ).loc b) := fun c b => W10 m c b

/-! ## The proof data of the five regions, and the thread state -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
  | ⟨2, _⟩ => fun c => dat2 (VV4 m) c
  | ⟨3, _⟩ => fun c => dat3 (VV6 m) c
  | ⟨4, _⟩ => fun c => dat4 (VV8 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0: entered from every buffer at boundary 0's contents, left at boundary 1's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at boundary 2's contents, left at boundary 3's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VV2 m) c)
    unfold Pipeline.ΦA
    iintro ⟨Hp, -, Hr⟩
    isplitl [Hr]; · iexact Hr
    iexact Hp
  hout c := by
    rw [Pipeline.ownSems0_none]
    refine .trans (hout1 (VV2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every buffer at boundary 4's contents, left at boundary 5's. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (VV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (VV4 m) c)
    unfold Pipeline.ΦA
    iintro ⟨Hp, -, Hr⟩
    isplitl [Hr]; · iexact Hr
    iexact Hp
  hout c := by
    rw [Pipeline.ownSems0_none]
    refine .trans (hout2 (VV4 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV4 m c) (VV5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every buffer at boundary 6's contents, left at boundary 7's. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VV6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (VV6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (VV6 m) c)
    unfold Pipeline.ΦA
    iintro ⟨Hp, -, Hr⟩
    isplitl [Hr]; · iexact Hr
    iexact Hp
  hout c := by
    rw [Pipeline.ownSems0_none]
    refine .trans (hout3 (VV6 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VV6 m c) (VV7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every buffer at boundary 8's contents, left at boundary 9's. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VV8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (VV8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VV8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VV8 m c) (VV9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)) ]

theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of the program terminates, nothing
    faulting, and in every final state each buffer the core keeps between segments holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W10 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.KWalk.lean ====
/-
  The last boundary's contents read back through the fold of the run: no host operation and no region writes an
  argument array, so each argument's buffer ends as launched.
-/
import proofs.«111544_j24051816858257_2_alg».proof.Proof.Gen.Kernel.Launch
import proofs.«111544_j24051816858257_2_alg».proof.Proof.Gen.Kernel.Skeleton
import proofs.«111544_j24051816858257_2_alg».proof.Proof.Gen.Kernel.Points
import proofs.«111544_j24051816858257_2_alg».proof.Proof.KRunAll
import proofs.«111544_j24051816858257_2_alg».proof.Proof.Gen.Kernel.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! ## A host stretch leaves what it does not write -/
theorem W2_keep (b : Ref sig .tc) (hb : b ∉ Cert.Kernel.Gen.hostOps1_W) : W2 m c b = W1 m c b :=
  StableHlo.after_of_writes_sub hostOps1 _ Cert.Kernel.Gen.hostOps1_writes hb
theorem W4_keep (b : Ref sig .tc) (hb : b ∉ Cert.Kernel.Gen.hostOps2_W) : W4 m c b = W3 m c b :=
  StableHlo.after_of_writes_sub hostOps2 _ Cert.Kernel.Gen.hostOps2_writes hb
theorem W6_keep (b : Ref sig .tc) (hb : b ∉ Cert.Kernel.Gen.hostOps3_W) : W6 m c b = W5 m c b :=
  StableHlo.after_of_writes_sub hostOps3 _ Cert.Kernel.Gen.hostOps3_writes hb
theorem W8_keep (b : Ref sig .tc) (hb : b ∉ Cert.Kernel.Gen.hostOps4_W) : W8 m c b = W7 m c b :=
  StableHlo.after_of_writes_sub hostOps4 _ Cert.Kernel.Gen.hostOps4_writes hb
theorem W10_keep (b : Ref sig .tc) (hb : b ∉ Cert.Kernel.Gen.hostOps5_W) : W10 m c b = W9 m c b :=
  StableHlo.after_of_writes_sub hostOps5 _ Cert.Kernel.Gen.hostOps5_writes hb

/-! ## The argument arrays at every boundary -/
theorem W1_arg0 : W1 m c main_arg0 = m ((c : Thread nD τ).loc main_arg0) := (W1_of_ne m c main_arg0 (by decide)).trans rfl
theorem W2_arg0 : W2 m c main_arg0 = m ((c : Thread nD τ).loc main_arg0) := (W2_keep m c main_arg0 (by decide)).trans (W1_arg0 m c)
theorem W3_arg0 : W3 m c main_arg0 = m ((c : Thread nD τ).loc main_arg0) := (W3_of_ne m c main_arg0 (by decide)).trans (W2_arg0 m c)
theorem W4_arg0 : W4 m c main_arg0 = m ((c : Thread nD τ).loc main_arg0) := (W4_keep m c main_arg0 (by decide)).trans (W3_arg0 m c)
theorem W5_arg0 : W5 m c main_arg0 = m ((c : Thread nD τ).loc main_arg0) := (W5_of_ne m c main_arg0 (by decide)).trans (W4_arg0 m c)
theorem W6_arg0 : W6 m c main_arg0 = m ((c : Thread nD τ).loc main_arg0) := (W6_keep m c main_arg0 (by decide)).trans (W5_arg0 m c)
theorem W7_arg0 : W7 m c main_arg0 = m ((c : Thread nD τ).loc main_arg0) := (W7_of_ne m c main_arg0 (by decide)).trans (W6_arg0 m c)
theorem W8_arg0 : W8 m c main_arg0 = m ((c : Thread nD τ).loc main_arg0) := (W8_keep m c main_arg0 (by decide)).trans (W7_arg0 m c)
theorem W9_arg0 : W9 m c main_arg0 = m ((c : Thread nD τ).loc main_arg0) := (W9_of_ne m c main_arg0 (by decide)).trans (W8_arg0 m c)
theorem W10_arg0 : W10 m c main_arg0 = m ((c : Thread nD τ).loc main_arg0) := (W10_keep m c main_arg0 (by decide)).trans (W9_arg0 m c)
theorem W1_arg1 : W1 m c main_arg1 = m ((c : Thread nD τ).loc main_arg1) := ((W1_arr m c 0).trans (((dat0 (VV0 m) c).arrAt_in 0 rfl _).trans (A_eq0 (VV0 m) c 0))).trans rfl
theorem W2_arg1 : W2 m c main_arg1 = m ((c : Thread nD τ).loc main_arg1) := (W2_keep m c main_arg1 (by decide)).trans (W1_arg1 m c)
theorem W3_arg1 : W3 m c main_arg1 = m ((c : Thread nD τ).loc main_arg1) := (W3_of_ne m c main_arg1 (by decide)).trans (W2_arg1 m c)
theorem W4_arg1 : W4 m c main_arg1 = m ((c : Thread nD τ).loc main_arg1) := (W4_keep m c main_arg1 (by decide)).trans (W3_arg1 m c)
theorem W5_arg1 : W5 m c main_arg1 = m ((c : Thread nD τ).loc main_arg1) := (W5_of_ne m c main_arg1 (by decide)).trans (W4_arg1 m c)
theorem W6_arg1 : W6 m c main_arg1 = m ((c : Thread nD τ).loc main_arg1) := (W6_keep m c main_arg1 (by decide)).trans (W5_arg1 m c)
theorem W7_arg1 : W7 m c main_arg1 = m ((c : Thread nD τ).loc main_arg1) := (W7_of_ne m c main_arg1 (by decide)).trans (W6_arg1 m c)
theorem W8_arg1 : W8 m c main_arg1 = m ((c : Thread nD τ).loc main_arg1) := (W8_keep m c main_arg1 (by decide)).trans (W7_arg1 m c)
theorem W9_arg1 : W9 m c main_arg1 = m ((c : Thread nD τ).loc main_arg1) := (W9_of_ne m c main_arg1 (by decide)).trans (W8_arg1 m c)
theorem W10_arg1 : W10 m c main_arg1 = m ((c : Thread nD τ).loc main_arg1) := (W10_keep m c main_arg1 (by decide)).trans (W9_arg1 m c)
theorem W1_arg2 : W1 m c main_arg2 = m ((c : Thread nD τ).loc main_arg2) := (W1_of_ne m c main_arg2 (by decide)).trans rfl
theorem W2_arg2 : W2 m c main_arg2 = m ((c : Thread nD τ).loc main_arg2) := (W2_keep m c main_arg2 (by decide)).trans (W1_arg2 m c)
theorem W3_arg2 : W3 m c main_arg2 = m ((c : Thread nD τ).loc main_arg2) := (W3_of_ne m c main_arg2 (by decide)).trans (W2_arg2 m c)
theorem W4_arg2 : W4 m c main_arg2 = m ((c : Thread nD τ).loc main_arg2) := (W4_keep m c main_arg2 (by decide)).trans (W3_arg2 m c)
theorem W5_arg2 : W5 m c main_arg2 = m ((c : Thread nD τ).loc main_arg2) := (W5_of_ne m c main_arg2 (by decide)).trans (W4_arg2 m c)
theorem W6_arg2 : W6 m c main_arg2 = m ((c : Thread nD τ).loc main_arg2) := (W6_keep m c main_arg2 (by decide)).trans (W5_arg2 m c)
theorem W7_arg2 : W7 m c main_arg2 = m ((c : Thread nD τ).loc main_arg2) := (W7_of_ne m c main_arg2 (by decide)).trans (W6_arg2 m c)
theorem W8_arg2 : W8 m c main_arg2 = m ((c : Thread nD τ).loc main_arg2) := (W8_keep m c main_arg2 (by decide)).trans (W7_arg2 m c)
theorem W9_arg2 : W9 m c main_arg2 = m ((c : Thread nD τ).loc main_arg2) := (W9_of_ne m c main_arg2 (by decide)).trans (W8_arg2 m c)
theorem W10_arg2 : W10 m c main_arg2 = m ((c : Thread nD τ).loc main_arg2) := (W10_keep m c main_arg2 (by decide)).trans (W9_arg2 m c)
theorem W1_arg3 : W1 m c main_arg3 = m ((c : Thread nD τ).loc main_arg3) := (W1_of_ne m c main_arg3 (by decide)).trans rfl
theorem W2_arg3 : W2 m c main_arg3 = m ((c : Thread nD τ).loc main_arg3) := (W2_keep m c main_arg3 (by decide)).trans (W1_arg3 m c)
theorem W3_arg3 : W3 m c main_arg3 = m ((c : Thread nD τ).loc main_arg3) := (W3_of_ne m c main_arg3 (by decide)).trans (W2_arg3 m c)
theorem W4_arg3 : W4 m c main_arg3 = m ((c : Thread nD τ).loc main_arg3) := (W4_keep m c main_arg3 (by decide)).trans (W3_arg3 m c)
theorem W5_arg3 : W5 m c main_arg3 = m ((c : Thread nD τ).loc main_arg3) := (W5_of_ne m c main_arg3 (by decide)).trans (W4_arg3 m c)
theorem W6_arg3 : W6 m c main_arg3 = m ((c : Thread nD τ).loc main_arg3) := (W6_keep m c main_arg3 (by decide)).trans (W5_arg3 m c)
theorem W7_arg3 : W7 m c main_arg3 = m ((c : Thread nD τ).loc main_arg3) := (W7_of_ne m c main_arg3 (by decide)).trans (W6_arg3 m c)
theorem W8_arg3 : W8 m c main_arg3 = m ((c : Thread nD τ).loc main_arg3) := (W8_keep m c main_arg3 (by decide)).trans (W7_arg3 m c)
theorem W9_arg3 : W9 m c main_arg3 = m ((c : Thread nD τ).loc main_arg3) := (W9_of_ne m c main_arg3 (by decide)).trans (W8_arg3 m c)
theorem W10_arg3 : W10 m c main_arg3 = m ((c : Thread nD τ).loc main_arg3) := (W10_keep m c main_arg3 (by decide)).trans (W9_arg3 m c)
theorem W1_arg4 : W1 m c main_arg4 = m ((c : Thread nD τ).loc main_arg4) := (W1_of_ne m c main_arg4 (by decide)).trans rfl
theorem W2_arg4 : W2 m c main_arg4 = m ((c : Thread nD τ).loc main_arg4) := (W2_keep m c main_arg4 (by decide)).trans (W1_arg4 m c)
theorem W3_arg4 : W3 m c main_arg4 = m ((c : Thread nD τ).loc main_arg4) := (W3_of_ne m c main_arg4 (by decide)).trans (W2_arg4 m c)
theorem W4_arg4 : W4 m c main_arg4 = m ((c : Thread nD τ).loc main_arg4) := (W4_keep m c main_arg4 (by decide)).trans (W3_arg4 m c)
theorem W5_arg4 : W5 m c main_arg4 = m ((c : Thread nD τ).loc main_arg4) := (W5_of_ne m c main_arg4 (by decide)).trans (W4_arg4 m c)
theorem W6_arg4 : W6 m c main_arg4 = m ((c : Thread nD τ).loc main_arg4) := (W6_keep m c main_arg4 (by decide)).trans (W5_arg4 m c)
theorem W7_arg4 : W7 m c main_arg4 = m ((c : Thread nD τ).loc main_arg4) := (W7_of_ne m c main_arg4 (by decide)).trans (W6_arg4 m c)
theorem W8_arg4 : W8 m c main_arg4 = m ((c : Thread nD τ).loc main_arg4) := (W8_keep m c main_arg4 (by decide)).trans (W7_arg4 m c)
theorem W9_arg4 : W9 m c main_arg4 = m ((c : Thread nD τ).loc main_arg4) := (W9_of_ne m c main_arg4 (by decide)).trans (W8_arg4 m c)
theorem W10_arg4 : W10 m c main_arg4 = m ((c : Thread nD τ).loc main_arg4) := (W10_keep m c main_arg4 (by decide)).trans (W9_arg4 m c)
theorem W1_arg5 : W1 m c main_arg5 = m ((c : Thread nD τ).loc main_arg5) := (W1_of_ne m c main_arg5 (by decide)).trans rfl
theorem W2_arg5 : W2 m c main_arg5 = m ((c : Thread nD τ).loc main_arg5) := (W2_keep m c main_arg5 (by decide)).trans (W1_arg5 m c)
theorem W3_arg5 : W3 m c main_arg5 = m ((c : Thread nD τ).loc main_arg5) := (W3_of_ne m c main_arg5 (by decide)).trans (W2_arg5 m c)
theorem W4_arg5 : W4 m c main_arg5 = m ((c : Thread nD τ).loc main_arg5) := (W4_keep m c main_arg5 (by decide)).trans (W3_arg5 m c)
theorem W5_arg5 : W5 m c main_arg5 = m ((c : Thread nD τ).loc main_arg5) := (W5_of_ne m c main_arg5 (by decide)).trans (W4_arg5 m c)
theorem W6_arg5 : W6 m c main_arg5 = m ((c : Thread nD τ).loc main_arg5) := (W6_keep m c main_arg5 (by decide)).trans (W5_arg5 m c)
theorem W7_arg5 : W7 m c main_arg5 = m ((c : Thread nD τ).loc main_arg5) := (W7_of_ne m c main_arg5 (by decide)).trans (W6_arg5 m c)
theorem W8_arg5 : W8 m c main_arg5 = m ((c : Thread nD τ).loc main_arg5) := (W8_keep m c main_arg5 (by decide)).trans (W7_arg5 m c)
theorem W9_arg5 : W9 m c main_arg5 = m ((c : Thread nD τ).loc main_arg5) := (W9_of_ne m c main_arg5 (by decide)).trans (W8_arg5 m c)
theorem W10_arg5 : W10 m c main_arg5 = m ((c : Thread nD τ).loc main_arg5) := (W10_keep m c main_arg5 (by decide)).trans (W9_arg5 m c)
theorem W1_arg6 : W1 m c main_arg6 = m ((c : Thread nD τ).loc main_arg6) := (W1_of_ne m c main_arg6 (by decide)).trans rfl
theorem W2_arg6 : W2 m c main_arg6 = m ((c : Thread nD τ).loc main_arg6) := (W2_keep m c main_arg6 (by decide)).trans (W1_arg6 m c)
theorem W3_arg6 : W3 m c main_arg6 = m ((c : Thread nD τ).loc main_arg6) := (W3_of_ne m c main_arg6 (by decide)).trans (W2_arg6 m c)
theorem W4_arg6 : W4 m c main_arg6 = m ((c : Thread nD τ).loc main_arg6) := (W4_keep m c main_arg6 (by decide)).trans (W3_arg6 m c)
theorem W5_arg6 : W5 m c main_arg6 = m ((c : Thread nD τ).loc main_arg6) := (W5_of_ne m c main_arg6 (by decide)).trans (W4_arg6 m c)
theorem W6_arg6 : W6 m c main_arg6 = m ((c : Thread nD τ).loc main_arg6) := (W6_keep m c main_arg6 (by decide)).trans (W5_arg6 m c)
theorem W7_arg6 : W7 m c main_arg6 = m ((c : Thread nD τ).loc main_arg6) := (W7_of_ne m c main_arg6 (by decide)).trans (W6_arg6 m c)
theorem W8_arg6 : W8 m c main_arg6 = m ((c : Thread nD τ).loc main_arg6) := (W8_keep m c main_arg6 (by decide)).trans (W7_arg6 m c)
theorem W9_arg6 : W9 m c main_arg6 = m ((c : Thread nD τ).loc main_arg6) := (W9_of_ne m c main_arg6 (by decide)).trans (W8_arg6 m c)
theorem W10_arg6 : W10 m c main_arg6 = m ((c : Thread nD τ).loc main_arg6) := (W10_keep m c main_arg6 (by decide)).trans (W9_arg6 m c)
theorem W1_arg7 : W1 m c main_arg7 = m ((c : Thread nD τ).loc main_arg7) := (W1_of_ne m c main_arg7 (by decide)).trans rfl
theorem W2_arg7 : W2 m c main_arg7 = m ((c : Thread nD τ).loc main_arg7) := (W2_keep m c main_arg7 (by decide)).trans (W1_arg7 m c)
theorem W3_arg7 : W3 m c main_arg7 = m ((c : Thread nD τ).loc main_arg7) := (W3_of_ne m c main_arg7 (by decide)).trans (W2_arg7 m c)
theorem W4_arg7 : W4 m c main_arg7 = m ((c : Thread nD τ).loc main_arg7) := (W4_keep m c main_arg7 (by decide)).trans (W3_arg7 m c)
theorem W5_arg7 : W5 m c main_arg7 = m ((c : Thread nD τ).loc main_arg7) := (W5_of_ne m c main_arg7 (by decide)).trans (W4_arg7 m c)
theorem W6_arg7 : W6 m c main_arg7 = m ((c : Thread nD τ).loc main_arg7) := (W6_keep m c main_arg7 (by decide)).trans (W5_arg7 m c)
theorem W7_arg7 : W7 m c main_arg7 = m ((c : Thread nD τ).loc main_arg7) := (W7_of_ne m c main_arg7 (by decide)).trans (W6_arg7 m c)
theorem W8_arg7 : W8 m c main_arg7 = m ((c : Thread nD τ).loc main_arg7) := (W8_keep m c main_arg7 (by decide)).trans (W7_arg7 m c)
theorem W9_arg7 : W9 m c main_arg7 = m ((c : Thread nD τ).loc main_arg7) := ((W9_arr m c 3).trans (((dat4 (VV8 m) c).arrAt_in 3 rfl _).trans (A_eq4 (VV8 m) c 3))).trans (W8_arg7 m c)
theorem W10_arg7 : W10 m c main_arg7 = m ((c : Thread nD τ).loc main_arg7) := (W10_keep m c main_arg7 (by decide)).trans (W9_arg7 m c)
theorem W1_arg8 : W1 m c main_arg8 = m ((c : Thread nD τ).loc main_arg8) := (W1_of_ne m c main_arg8 (by decide)).trans rfl
theorem W2_arg8 : W2 m c main_arg8 = m ((c : Thread nD τ).loc main_arg8) := (W2_keep m c main_arg8 (by decide)).trans (W1_arg8 m c)
theorem W3_arg8 : W3 m c main_arg8 = m ((c : Thread nD τ).loc main_arg8) := (W3_of_ne m c main_arg8 (by decide)).trans (W2_arg8 m c)
theorem W4_arg8 : W4 m c main_arg8 = m ((c : Thread nD τ).loc main_arg8) := (W4_keep m c main_arg8 (by decide)).trans (W3_arg8 m c)
theorem W5_arg8 : W5 m c main_arg8 = m ((c : Thread nD τ).loc main_arg8) := (W5_of_ne m c main_arg8 (by decide)).trans (W4_arg8 m c)
theorem W6_arg8 : W6 m c main_arg8 = m ((c : Thread nD τ).loc main_arg8) := (W6_keep m c main_arg8 (by decide)).trans (W5_arg8 m c)
theorem W7_arg8 : W7 m c main_arg8 = m ((c : Thread nD τ).loc main_arg8) := (W7_of_ne m c main_arg8 (by decide)).trans (W6_arg8 m c)
theorem W8_arg8 : W8 m c main_arg8 = m ((c : Thread nD τ).loc main_arg8) := (W8_keep m c main_arg8 (by decide)).trans (W7_arg8 m c)
theorem W9_arg8 : W9 m c main_arg8 = m ((c : Thread nD τ).loc main_arg8) := (W9_of_ne m c main_arg8 (by decide)).trans (W8_arg8 m c)
theorem W10_arg8 : W10 m c main_arg8 = m ((c : Thread nD τ).loc main_arg8) := (W10_keep m c main_arg8 (by decide)).trans (W9_arg8 m c)

end Cert.Kernel.Hand

end
-- ==== Proof.Frames.lean ====
/-
  The three frame claims and the idealization's ledger. Each kernel program's frame is its run read at the nine
  argument buffers, which end as launched; the reference's frame is its generated run with the results dropped.
  The ledger's three entries are one rule, applied at the three matrix-product regions: widening back what was
  narrowed is the identity on the extended reals and the rounding through the narrower format on words.
-/
import proofs.«111544_j24051816858257_2_alg».proof.Defs
import proofs.«111544_j24051816858257_2_alg».proof.Proof.Walk
import proofs.«111544_j24051816858257_2_alg».proof.Proof.KWalk
import proofs.«111544_j24051816858257_2_alg».proof.Proof.Gen.ReferenceIdeal.Run
import proofs.«111544_j24051816858257_2_alg».proof.Proof.Gen.Pre_finite_inputs

set_option maxRecDepth 16384

noncomputable section

namespace Cert.Proof.Frames

open Idealize.ShloMosaic Idealize.ShloMosaic.TcCoe Idealize.SL.Sem

theorem frame_k : Cert.frame_Kernel := fun m g _ =>
  (θ_run Cert.Kernel.defs _ _).mono (fun r h c =>
    ⟨(h c _ (Cert.Kernel.Hand.mem_uc Cert.Kernel.main_arg0 (by decide))).trans (Cert.Kernel.Hand.W10_arg0 m c),
      (h c _ (Cert.Kernel.Hand.mem_uc Cert.Kernel.main_arg1 (by decide))).trans (Cert.Kernel.Hand.W10_arg1 m c),
      (h c _ (Cert.Kernel.Hand.mem_uc Cert.Kernel.main_arg2 (by decide))).trans (Cert.Kernel.Hand.W10_arg2 m c),
      (h c _ (Cert.Kernel.Hand.mem_uc Cert.Kernel.main_arg3 (by decide))).trans (Cert.Kernel.Hand.W10_arg3 m c),
      (h c _ (Cert.Kernel.Hand.mem_uc Cert.Kernel.main_arg4 (by decide))).trans (Cert.Kernel.Hand.W10_arg4 m c),
      (h c _ (Cert.Kernel.Hand.mem_uc Cert.Kernel.main_arg5 (by decide))).trans (Cert.Kernel.Hand.W10_arg5 m c),
      (h c _ (Cert.Kernel.Hand.mem_uc Cert.Kernel.main_arg6 (by decide))).trans (Cert.Kernel.Hand.W10_arg6 m c),
      (h c _ (Cert.Kernel.Hand.mem_uc Cert.Kernel.main_arg7 (by decide))).trans (Cert.Kernel.Hand.W10_arg7 m c),
      (h c _ (Cert.Kernel.Hand.mem_uc Cert.Kernel.main_arg8 (by decide))).trans (Cert.Kernel.Hand.W10_arg8 m c)⟩)
    (Cert.Kernel.Hand.run_all (F := Bits) m g)

theorem frame_ki : Cert.frame_KernelIdeal := fun m g _ =>
  (θ_run Cert.KernelIdeal.defs _ _).mono (fun r h c =>
    ⟨(h c _ (Cert.KernelIdeal.Hand.mem_uc Cert.KernelIdeal.main_arg0 (by decide))).trans (Cert.KernelIdeal.Hand.W10_arg0 m c),
      (h c _ (Cert.KernelIdeal.Hand.mem_uc Cert.KernelIdeal.main_arg1 (by decide))).trans (Cert.KernelIdeal.Hand.W10_arg1 m c),
      (h c _ (Cert.KernelIdeal.Hand.mem_uc Cert.KernelIdeal.main_arg2 (by decide))).trans (Cert.KernelIdeal.Hand.W10_arg2 m c),
      (h c _ (Cert.KernelIdeal.Hand.mem_uc Cert.KernelIdeal.main_arg3 (by decide))).trans (Cert.KernelIdeal.Hand.W10_arg3 m c),
      (h c _ (Cert.KernelIdeal.Hand.mem_uc Cert.KernelIdeal.main_arg4 (by decide))).trans (Cert.KernelIdeal.Hand.W10_arg4 m c),
      (h c _ (Cert.KernelIdeal.Hand.mem_uc Cert.KernelIdeal.main_arg5 (by decide))).trans (Cert.KernelIdeal.Hand.W10_arg5 m c),
      (h c _ (Cert.KernelIdeal.Hand.mem_uc Cert.KernelIdeal.main_arg6 (by decide))).trans (Cert.KernelIdeal.Hand.W10_arg6 m c),
      (h c _ (Cert.KernelIdeal.Hand.mem_uc Cert.KernelIdeal.main_arg7 (by decide))).trans (Cert.KernelIdeal.Hand.W10_arg7 m c),
      (h c _ (Cert.KernelIdeal.Hand.mem_uc Cert.KernelIdeal.main_arg8 (by decide))).trans (Cert.KernelIdeal.Hand.W10_arg8 m c)⟩)
    (Cert.KernelIdeal.Hand.run_all (F := Ideal) m g)

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal :=
  ⟨IdealRules.truncf_extf.statement _ _ _, IdealRules.truncf_extf.statement _ _ _, IdealRules.truncf_extf.statement _ _ _⟩

end Cert.Proof.Frames

end
-- ==== Proof.PoolForms.lean ====
/-
  The steps of a softmax pooling down the rows of an array, as the vector and matrix units spell them and as the
  host spells them, are one and the same arrays at the ideal values (floats extended reals, every operation exact).
  General facts, for any extents:

  * a bias vector [b] made a row [1, b] and spread down a rows: a reshape then a row broadcast on one side, two
    broadcasts onto named axes on the other; both read the vector at the column (the case b = 1, one scalar spread
    down a column, included);
  * a column [a, 1] spread over b lanes: both read the column at the row;
  * a product into the zero accumulator is the host's dot_general: both are the plain sum over the contraction index;
  * tanh, exp and the quotient are one function of the entries on both sides;
  * the maximum down the rows from the word of minus infinity: the host folds the same maximum over the rows from
    minus infinity, and then takes the maximum with minus infinity once more, which changes nothing;
  * the sum down the rows from the zero word: the host adds the same entries to its initial zero;
  * a vector reshaped to one row and back is the vector.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PoolForms

open Idealize.ShloMosaic Idealize.ShloMosaic.ValueIdx
open scoped BigOperators

section Layout

variable {α : Type}

/-- A vector [b] broadcast onto axis 1 of the row [1, b] reads, at (u, c), the vector at c. -/
theorem bcast_vec_row_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) (fun ax => ?_)
  match ax with
  | ⟨0, _⟩ =>
    show c.val = if b = 1 then 0 else c.val
    split
    · have := c.isLt; omega
    · rfl

/-- A row [1, b] broadcast onto axes 0, 1 of [a, b] reads, at (p, c), the row at (0, c). -/
theorem bcast_row_rows_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 (0 : Fin 1) c) := by
  refine broadcastInDim_apply (![0, 1] : Fin 2 → Fin 2) h x (ix2 p c) (ix2 (0 : Fin 1) c) (fun ax => ?_)
  match ax with
  | ⟨0, _⟩ => show (0 : ℕ) = if (1 : ℕ) = 1 then 0 else p.val; rw [if_pos rfl]
  | ⟨1, _⟩ =>
    show c.val = if b = 1 then 0 else c.val
    split
    · have := c.isLt; omega
    · rfl

/-- A vector made one row and spread down the rows: the vector unit's reshape and row broadcast against the host's
    two broadcasts onto named axes. -/
theorem rowSpread_eq {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ (![1] : Fin 1 → Fin 2))
    (g2 : (⟨2, ![1, b]⟩ : Shape).BroadcastsInDim ⟨2, ![a, b]⟩ (![0, 1] : Fin 2 → Fin 2)) :
    broadcastTo ⟨2, ![a, b]⟩ (shapeCast ⟨2, ![1, b]⟩ x h1) h2
      = broadcastInDim ⟨2, ![a, b]⟩ (![0, 1] : Fin 2 → Fin 2) g2 (broadcastInDim ⟨2, ![1, b]⟩ (![1] : Fin 1 → Fin 2) g1 x) := by
  funext j
  obtain ⟨p, c, rfl⟩ : ∃ (p : Fin a) (c : Fin b), j = ix2 p c := ⟨j 0, j 1, eq_ix2 j⟩
  rw [broadcastTo_1b_ab_apply, shapeCast_a_1a_apply, bcast_row_rows_apply, bcast_vec_row_apply]

/-- A column [a, 1] spread over b lanes by the vector unit reads, at (p, c), the column at row p. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A column [a, 1] broadcast by the host onto axes 0, 1 of [a, b] reads, at (p, c), the column at row p. -/
theorem bcast_col_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply (![0, 1] : Fin 2 → Fin 2) h v (ix2 p c) (ix2 p (0 : Fin 1)) (fun ax => ?_)
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A column spread over the lanes: the vector unit's broadcast is the host's broadcast onto axes 0, 1. -/
theorem colSpread_eq {a b : ℕ} (v : (⟨2, ![a, 1]⟩ : Shape).Idx → α) (h : (⟨2, ![a, 1]⟩ : Shape).Broadcasts ⟨2, ![a, b]⟩)
    (g : (⟨2, ![a, 1]⟩ : Shape).BroadcastsInDim ⟨2, ![a, b]⟩ (![0, 1] : Fin 2 → Fin 2)) :
    broadcastTo ⟨2, ![a, b]⟩ v h = broadcastInDim ⟨2, ![a, b]⟩ (![0, 1] : Fin 2 → Fin 2) g v := by
  funext j
  obtain ⟨p, c, rfl⟩ : ∃ (p : Fin a) (c : Fin b), j = ix2 p c := ⟨j 0, j 1, eq_ix2 j⟩
  rw [broadcastTo_col_apply, bcast_col_apply]

end Layout

/-- A product into the zero accumulator is the host's dot_general of the operands: the plain sum over the contraction
    index, whatever the precision hints. -/
theorem matmul_zero_eq_dotGeneral {sl sr so : Shape} {φ₁ φ₂ : FTy} (d : DotDims sl sr so) (prec prec' : Option ContractPrecision)
    (l : FVec Ideal sl φ₁) (r : FVec Ideal sr φ₂) :
    matmul d prec l r (constant (F := Ideal) so .f32 0x00000000#32) = Host.dotGeneral d prec' l r := by
  funext j
  show FloatOps.matmul d prec l r (constant (F := Ideal) so .f32 0x00000000#32) j = FloatOps.dotGeneral d prec' .single l r j
  rw [Ideal.matmul_constant_zero_apply, Ideal.dotGeneral_apply]

/-- The kernel's tanh is the host's. -/
theorem tanh_eq_host {s : Shape} {φ : FTy} (x : FVec Ideal s φ) : tanh x = Host.tanh x := rfl

/-- The kernel's exp is the host's. -/
theorem exp_eq_host {s : Shape} {φ : FTy} (x : FVec Ideal s φ) : exp x = Host.exp x := rfl

/-- The kernel's quotient is the host's. -/
theorem divf_eq_host {s : Shape} {φ : FTy} (x y : FVec Ideal s φ) : divf x y = Host.divf x y := rfl

/-- The maximum against minus infinity is the other operand. -/
theorem max_negInf (x : EReal) : max (Ideal.ofBits .f32 0xFF800000#32) x = x := by
  simp [Ideal.ofBits, Ideal.ieee]

/-- The vector unit's maximum down the rows of an [a, b] array from the word of minus infinity is what the host
    computes: its reduce with a maximum body over axis 0 from minus infinity, then once more the maximum with minus
    infinity. -/
theorem colMax_eq_host {a b : ℕ} (v : FVec Ideal ⟨2, ![a, b]⟩ .f32)
    (h : (⟨2, ![a, b]⟩ : Shape).Reduces [0] ⟨1, ![b]⟩) (h' : (⟨2, ![a, b]⟩ : Shape).ReducesTo [0] ⟨1, ![b]⟩)
    (hu : 0 < (⟨0, ![]⟩ : Shape).numel) (g : (⟨0, ![]⟩ : Shape).BroadcastsInDim ⟨1, ![b]⟩ (![] : Fin 0 → Fin 1)) :
    multiReduction .maximumf [0] ⟨1, ![b]⟩ v 0xFF800000#32 h (.inl rfl) rfl
      = maximumf (broadcastInDim ⟨1, ![b]⟩ (![] : Fin 0 → Fin 1) g (constant (F := Ideal) ⟨0, ![]⟩ .f32 0xFF800000#32))
          (Host.reduce FloatOps.maximumf v (constant (F := Ideal) ⟨0, ![]⟩ .f32 0xFF800000#32) h' hu) := by
  funext j
  refine (Ideal.multiReduction_maximumf_single v 0xFF800000#32 h (.inl rfl) rfl j).trans ?_
  show _ = max _ (Host.reduce FloatOps.maximumf v (constant (F := Ideal) ⟨0, ![]⟩ .f32 0xFF800000#32) h' hu j)
  rw [Host.reduce_eq_fold_single FloatOps.maximumf v _ h' h hu j]
  have hb : broadcastInDim ⟨1, ![b]⟩ (![] : Fin 0 → Fin 1) g (constant (F := Ideal) ⟨0, ![]⟩ .f32 0xFF800000#32) j
      = Ideal.ofBits .f32 0xFF800000#32 :=
    broadcastInDim_apply (![] : Fin 0 → Fin 1) g _ j ix0 (fun ax => ax.elim0)
  rw [hb, max_negInf]
  rfl

/-- The vector unit's sum down the rows of an [a, b] array from the zero word is the host's sum over axis 0 from the
    zero scalar. -/
theorem colSum_eq_host {a b : ℕ} (v : FVec Ideal ⟨2, ![a, b]⟩ .f32)
    (h : (⟨2, ![a, b]⟩ : Shape).Reduces [0] ⟨1, ![b]⟩) (h' : (⟨2, ![a, b]⟩ : Shape).ReducesTo [0] ⟨1, ![b]⟩)
    (hu : 0 < (⟨0, ![]⟩ : Shape).numel) :
    multiReduction .add [0] ⟨1, ![b]⟩ v 0x00000000#32 h (.inl rfl) rfl
      = Host.reduceAdd v (constant (F := Ideal) ⟨0, ![]⟩ .f32 0x00000000#32) h' hu := by
  funext j
  refine (Ideal.multiReduction_add_single v 0x00000000#32 h (.inl rfl) rfl j).trans ?_
  simp only [Host.reduceAdd, Ideal.hostReduceAdd_def]
  rw [Ideal.hostReduceAdd_single h' h]
  show _ = Ideal.ofBits .f32 0x00000000#32 + _
  rw [Ideal.ofBits_zero_f32, zero_add]

end Cert.PoolForms

end
-- ==== Proof.PoolEq.lean ====
/-
  The attention pooling: the kernel's second result is the reference's, as a function of the node embeddings.

  Both programs apply the same steps to the embeddings Z (the reference's first result): scores = tanh(Z Wlᵀ + bl) q + b,
  the maximum m of the scores down the 8192 rows, e = exp(scores − m), s = Σ e, attn = e / s, and the pooled vector
  Σ_i attn_i · Z(i, ·).  The last pass writes each step the vector and matrix units' way (products into zero
  accumulators, reshapes and row broadcasts, reductions from an accumulator word); the reference writes the host's
  operations.  Step by step the two spellings are the same arrays at the ideal values, so the two results are equal,
  with no hypothesis on the inputs.
-/
import proofs.«111544_j24051816858257_2_alg».proof.Proof.KFun
import proofs.«111544_j24051816858257_2_alg».proof.Proof.Gen.ReferenceIdeal.Read
import proofs.«111544_j24051816858257_2_alg».proof.Proof.PoolForms

noncomputable section

namespace Cert.PoolEq

open Idealize.ShloMosaic Idealize.ShloMosaic.TcCoe Idealize.SL.Sem Idealize.ShloMosaic.StableHlo
open Cert.ReferenceIdeal Cert.ReferenceIdeal.Gen Cert.ReferenceIdeal.Read

/-- The kernel's pooled vector, computed from the reference's embeddings, is the reference's pooled vector. -/
theorem kernelG_eq (x0 : (⟨S8192x128, .f32⟩ : BufTy).Contents (Elt Ideal)) (x1 : (⟨S8192x8192, .f32⟩ : BufTy).Contents (Elt Ideal))
    (x2 : (⟨S128x256, .f32⟩ : BufTy).Contents (Elt Ideal)) (x3 : (⟨S256x256, .f32⟩ : BufTy).Contents (Elt Ideal))
    (x4 : (⟨S256x128, .f32⟩ : BufTy).Contents (Elt Ideal)) (x5 : (⟨S128x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) :
    val_main_v40 (F := Ideal) x0 x1 x2 x3 x4 x5 x6 x7 x8
      = Cert.KernelIdeal.KFun.kernelG (F := Ideal) (val_main_v16 (F := Ideal) x0 x1 x2 x3 x4) x5 x6 x7 x8 := by
  unfold val_main_v40 val_main_v39 val_main_v38 val_main_v37 val_main_v36 val_main_v35 val_main_v34 val_main_v33 val_main_v32
    val_main_v31 val_main_v30 val_main_v29 val_main_v28 val_main_v27 val_main_v26 val_main_v25 val_main_v24 val_main_v23
    val_main_v22 val_main_v21 val_main_v20 val_main_v19 val_main_v18 val_main_v17 val_main_cst_1 val_main_cst_2 val_main_cst_3
    val_main_cst_4
  generalize val_main_v16 (F := Ideal) x0 x1 x2 x3 x4 = Z
  unfold Cert.KernelIdeal.KFun.kernelG Cert.KernelIdeal.Gen.k4_pay1
  simp only [shapeCast_self, shapeCast_shapeCast,
    Cert.PoolForms.rowSpread_eq _ _ _ bcast_S128_S1x128_1 bcast_S1x128_S8192x128_0_1,
    Cert.PoolForms.rowSpread_eq _ _ _ bcast_S1_S1x1_1 bcast_S1x1_S8192x1_0_1,
    Cert.PoolForms.colSpread_eq _ _ bcast_S8192x1_S8192x128_0_1,
    Cert.PoolForms.matmul_zero_eq_dotGeneral _ none none,
    Cert.PoolForms.tanh_eq_host, Cert.PoolForms.exp_eq_host, Cert.PoolForms.divf_eq_host,
    Cert.PoolForms.colMax_eq_host _ _ reducesTo_S8192x1_S1_d0 h_S_ bcast_S_S1,
    Cert.PoolForms.colSum_eq_host _ _ reducesTo_S8192x1_S1_d0 h_S_,
    Cert.PoolForms.colSum_eq_host _ _ reducesTo_S8192x128_S128_d0 h_S_]
  rfl

end Cert.PoolEq

end
-- ==== Proof.PreDecode.lean ====
/-
  The precondition, read back. The printed predicate is the conjunction of ten reductions by "and": for each of
  the nine argument arrays, every entry's absolute value is below +∞ — so every entry is a real number —, and
  every row sum of the adjacency matrix is above zero.
-/
import proofs.«111544_j24051816858257_2_alg».proof.Pre_finite_inputs
import Idealize.ShloMosaic.Lib.ReduceAll
import Idealize.ShloMosaic.Lib.ValueIdx
import Idealize.ShloMosaic.PureOps.Ideal.Laws

set_option maxRecDepth 16384

noncomputable section

namespace Cert.PreDecode

open Idealize.ShloMosaic Idealize.ShloMosaic.ValueIdx Cert.Pre_finite_inputs
open scoped BigOperators

variable [Cert.Pre_finite_inputs.Facts]

instance : Subsingleton S_.Idx := ⟨fun a b => funext fun d => d.elim0⟩

theorem and1 : ∀ (a b : BitVec 1), IntOp.andi a b = 1#1 ↔ a = 1#1 ∧ b = 1#1 := by decide

theorem ofBool_eq_one (b : Bool) : BitVec.ofBool b = 1#1 ↔ b = true := by cases b <;> decide

/-- The word 0x7F800000 is +∞. -/
theorem inf_word : Ideal.ofBits .f32 2139095040#32 = (⊤ : EReal) := by simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  unfold Ideal.cmp at h
  rw [ofBool_eq_one] at h
  simp only [decide_eq_true_eq] at h
  induction x using EReal.rec with
  | bot => simp at h
  | coe r => exact ⟨r, rfl⟩
  | top => simp at h

/-- One array's conjunct: every entry is a real number. -/
theorem all_real {s : Shape} (x : FVec Ideal s .f32) (hb : S_.BroadcastsInDim s (![] : Fin 0 → Fin s.rank)) {axes : List (Fin s.rank)}
    (hr : s.ReducesTo axes S_) (hu : 0 < S_.numel)
    (h : Host.reduce IntOp.andi (cmpf .olt (Host.absf x) (broadcastInDim s ![] hb (constant S_ .f32 2139095040#32))) (constantI S_ 1 1#1) hr hu ix0 = 1#1) :
    ∀ i, ∃ r : ℝ, x i = (r : EReal) := by
  intro i
  have hi := Host.reduce_andi_all _ _ hr hu ix0 h i
  refine real_of_abs_lt_top (x i) ?_
  rw [← inf_word]
  exact hi

/-- The row-sum conjunct: every row of the matrix sums to more than zero. -/
theorem rows_pos (x1 : FVec Ideal S8192x8192 .f32) (hr1 : S8192x8192.ReducesTo [1] S8192) (hb : S_.BroadcastsInDim S8192 (![] : Fin 0 → Fin S8192.rank))
    (hr0 : S8192.ReducesTo [0] S_) (hu : 0 < S_.numel)
    (h : Host.reduce IntOp.andi (cmpf .ogt (Host.reduceAdd x1 (constant S_ .f32 0#32) hr1 hu) (broadcastInDim S8192 ![] hb (constant S_ .f32 0#32)))
      (constantI S_ 1 1#1) hr0 hu ix0 = 1#1) :
    ∀ i : Fin 8192, (0 : EReal) < ∑ j : Fin 8192, x1 (ix2 i j) := by
  intro i
  have hi := Host.reduce_andi_all _ _ hr0 hu ix0 h (ix1 i)
  have e : Host.reduceAdd x1 (constant (F := Ideal) S_ .f32 0#32) hr1 hu (ix1 i) = Ideal.ofBits .f32 0#32 + ∑ j : Fin 8192, x1 (ix2 i j) := by
    simp only [Host.reduceAdd, Ideal.hostReduceAdd_def]
    rw [Ideal.hostReduceAdd_single hr1 (by decide)]
    refine congrArg₂ (· + ·) rfl (Finset.sum_congr rfl fun k _ => ?_)
    exact congrArg x1 (funext fun a => Fin.ext (by match a with | ⟨0, _⟩ => rfl | ⟨1, _⟩ => rfl))
  have hc : Ideal.cmp .ogt (Host.reduceAdd x1 (constant (F := Ideal) S_ .f32 0#32) hr1 hu (ix1 i)) (Ideal.ofBits .f32 0#32) = 1#1 := hi
  rw [e, Ideal.ofBits_zero_f32, zero_add] at hc
  unfold Ideal.cmp at hc
  rw [ofBool_eq_one] at hc
  simpa only [decide_eq_true_eq] using hc

/-- THE PRECONDITION DECODED. -/
theorem pre_decode (x0 : FVec Ideal S8192x128 .f32) (x1 : FVec Ideal S8192x8192 .f32) (x2 : FVec Ideal S128x256 .f32) (x3 : FVec Ideal S256x256 .f32)
    (x4 : FVec Ideal S256x128 .f32) (x5 : FVec Ideal S128x128 .f32) (x6 : FVec Ideal S128 .f32) (x7 : FVec Ideal S128x1 .f32) (x8 : FVec Ideal S1 .f32)
    (h : Cert.Pre_finite_inputs.fn (F := Ideal) x0 x1 x2 x3 x4 x5 x6 x7 x8 = (fun _ => 1#1)) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal))
      ∧ (∀ i, ∃ r : ℝ, x8 i = (r : EReal)) ∧ (∀ i : Fin 8192, (0 : EReal) < ∑ j : Fin 8192, x1 (ix2 i j)) := by
  have h0 := congrFun h ix0
  dsimp only [fn, fn_part1, fn_part2] at h0
  obtain ⟨h0, c9⟩ := (and1 _ _).mp h0
  obtain ⟨h0, c8⟩ := (and1 _ _).mp h0
  obtain ⟨h0, c7⟩ := (and1 _ _).mp h0
  obtain ⟨h0, c6⟩ := (and1 _ _).mp h0
  obtain ⟨h0, c5⟩ := (and1 _ _).mp h0
  obtain ⟨h0, c4⟩ := (and1 _ _).mp h0
  obtain ⟨h0, c3⟩ := (and1 _ _).mp h0
  obtain ⟨h0, c2⟩ := (and1 _ _).mp h0
  obtain ⟨c0, c1⟩ := (and1 _ _).mp h0
  exact ⟨all_real x0 _ _ _ c0, all_real x1 _ _ _ c1, all_real x2 _ _ _ c2, all_real x3 _ _ _ c3, all_real x4 _ _ _ c4,
    all_real x5 _ _ _ c5, all_real x6 _ _ _ c6, all_real x7 _ _ _ c7, all_real x8 _ _ _ c8, rows_pos x1 _ _ _ _ c9⟩

end Cert.PreDecode

end
-- ==== Proof.Algebraic.lean ====
/-
  The two idealized programs end with equal results. The kernel's run ends with its two result buffers at the
  whole-array functions of its nine arguments; the reference's generated run ends with its two results at the
  composed term of its operations. Under the precondition every argument entry is a real number and every row of
  the adjacency matrix sums to more than zero; then the first results are one function (the three layers), and
  the second results are the same operations applied to the first.
-/
import proofs.«111544_j24051816858257_2_alg».proof.Defs
import proofs.«111544_j24051816858257_2_alg».proof.Proof.Walk
import proofs.«111544_j24051816858257_2_alg».proof.Proof.PoolEq
import proofs.«111544_j24051816858257_2_alg».proof.Proof.PreDecode
import proofs.«111544_j24051816858257_2_alg».proof.Proof.Gen.ReferenceIdeal.Read
import proofs.«111544_j24051816858257_2_alg».proof.Proof.Gen.Pre_finite_inputs

set_option maxRecDepth 16384

noncomputable section

namespace Cert.Proof.Alg

open Idealize.ShloMosaic Idealize.ShloMosaic.TcCoe Idealize.SL.Sem Idealize.ShloMosaic.ValueIdx
open Cert.KernelIdeal.KFun
open scoped BigOperators

/-- The claim, from the equality of the first results as functions of real arguments with positive row sums. -/
theorem algebraic_of
    (hZ : ∀ (x : FVec Ideal Cert.KernelIdeal.S8192x128 .f32) (A : FVec Ideal Cert.KernelIdeal.S8192x8192 .f32) (W1 : FVec Ideal Cert.KernelIdeal.S128x256 .f32)
        (W2 : FVec Ideal Cert.KernelIdeal.S256x256 .f32) (W3 : FVec Ideal Cert.KernelIdeal.S256x128 .f32),
        (∀ i, ∃ r : ℝ, x i = (r : EReal)) → (∀ i, ∃ r : ℝ, A i = (r : EReal)) → (∀ i, ∃ r : ℝ, W1 i = (r : EReal)) → (∀ i, ∃ r : ℝ, W2 i = (r : EReal)) → (∀ i, ∃ r : ℝ, W3 i = (r : EReal)) →
        (∀ i : Fin 8192, (0 : EReal) < ∑ j : Fin 8192, A (ix2 i j)) →
        kernelZ (F := Ideal) x A W1 W2 W3 = Cert.ReferenceIdeal.Read.val_main_v16 (F := Ideal) x A W1 W2 W3) :
    Cert.algebraic_KernelIdeal_ReferenceIdeal := by
  intro m g m' g' hpre hagree
  refine ⟨fun c => (kernelZ (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), fun c => kernelG (F := Ideal) (kernelZ (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Hand.mem_uc Cert.KernelIdeal.main_v12 (by decide))).trans (Cert.KernelIdeal.Hand.W10_Z m c),
        (h c _ (Cert.KernelIdeal.Hand.mem_uc Cert.KernelIdeal.main_v17 (by decide))).trans (Cert.KernelIdeal.Hand.W10_G m c),
        (h c _ (Cert.KernelIdeal.Hand.mem_uc Cert.KernelIdeal.main_arg0 (by decide))).trans (Cert.KernelIdeal.Hand.W10_arg0 m c),
        (h c _ (Cert.KernelIdeal.Hand.mem_uc Cert.KernelIdeal.main_arg1 (by decide))).trans (Cert.KernelIdeal.Hand.W10_arg1 m c),
        (h c _ (Cert.KernelIdeal.Hand.mem_uc Cert.KernelIdeal.main_arg2 (by decide))).trans (Cert.KernelIdeal.Hand.W10_arg2 m c),
        (h c _ (Cert.KernelIdeal.Hand.mem_uc Cert.KernelIdeal.main_arg3 (by decide))).trans (Cert.KernelIdeal.Hand.W10_arg3 m c),
        (h c _ (Cert.KernelIdeal.Hand.mem_uc Cert.KernelIdeal.main_arg4 (by decide))).trans (Cert.KernelIdeal.Hand.W10_arg4 m c),
        (h c _ (Cert.KernelIdeal.Hand.mem_uc Cert.KernelIdeal.main_arg5 (by decide))).trans (Cert.KernelIdeal.Hand.W10_arg5 m c),
        (h c _ (Cert.KernelIdeal.Hand.mem_uc Cert.KernelIdeal.main_arg6 (by decide))).trans (Cert.KernelIdeal.Hand.W10_arg6 m c),
        (h c _ (Cert.KernelIdeal.Hand.mem_uc Cert.KernelIdeal.main_arg7 (by decide))).trans (Cert.KernelIdeal.Hand.W10_arg7 m c),
        (h c _ (Cert.KernelIdeal.Hand.mem_uc Cert.KernelIdeal.main_arg8 (by decide))).trans (Cert.KernelIdeal.Hand.W10_arg8 m c)⟩)
      (Cert.KernelIdeal.Hand.run_all (F := Ideal) m g)
  · refine (θ_run Cert.ReferenceIdeal.defs _ _).mono (fun r h c => ?_) (Cert.ReferenceIdeal.Value.run (F := Ideal) m' g')
    obtain ⟨e0, e1, e2, e3, e4, e5, e6, e7, e8⟩ := hagree c
    obtain ⟨hx, hA, hW1, hW2, hW3, -, -, -, -, hpos⟩ := Cert.PreDecode.pre_decode _ _ _ _ _ _ _ _ _ (hpre c)
    have hz := hZ _ _ _ _ _ hx hA hW1 hW2 hW3 hpos
    refine ⟨?_, ?_, (h c).2.2⟩
    · rw [(h c).1, e0, e1, e2, e3, e4]
      exact (Cert.ReferenceIdeal.Read.val_main_v16_eq _ _ _ _ _).trans hz.symm
    · rw [(h c).2.1, Cert.ReferenceIdeal.Read.val_main_v40_eq, e0, e1, e2, e3, e4, e5, e6, e7, e8, Cert.PoolEq.kernelG_eq, ← hz]

end Cert.Proof.Alg

end
-- ==== Proof.RefAt.lean ====
/-
  The reference's stages read at an index, at the ideal values. With d_i the power −1/2 of the i-th row sum of
  the adjacency matrix A: the normalised matrix is (d_i · A(i,k)) · d_k; each layer is the product of the
  normalised matrix with (previous layer × weight matrix), the first two clamped below at zero. And the small
  host products of the kernel program are the reference's own.
-/
import proofs.«111544_j24051816858257_2_alg».proof.Proof.Gen.ReferenceIdeal.Read
import proofs.«111544_j24051816858257_2_alg».proof.Proof.KFun

set_option maxRecDepth 16384

noncomputable section

namespace Cert.Layers

open Idealize.ShloMosaic Idealize.ShloMosaic.ValueIdx
open scoped BigOperators

/-- d_i: the power −1/2 of the row sum. -/
theorem ref_d_apply (A : FVec Ideal ⟨2, ![8192, 8192]⟩ .f32) (i : Fin 8192) :
    Cert.ReferenceIdeal.Read.val_main_v2 (F := Ideal) A (ix1 i) = Ideal.pow (0 + ∑ k : Fin 8192, A (ix2 i k)) (Ideal.ofBits .f32 0xBF000000#32) := by
  rw [Cert.ReferenceIdeal.Read.val_main_v2_apply, Cert.ReferenceIdeal.Read.val_main_v0_apply, Cert.ReferenceIdeal.Read.val_main_v1_apply, Cert.ReferenceIdeal.Read.val_main_cst_apply, Cert.ReferenceIdeal.Read.val_main_cst_0_apply]
  simp only [Ideal.hostPowf_def, Ideal.ofBits_def, Ideal.ofBits_zero_f32]
  refine congrArg (fun s => Ideal.pow (0 + s) _) (Finset.sum_congr rfl fun k _ => congrArg A ?_)
  exact funext fun a => Fin.ext (by match a with | ⟨0, _⟩ => rfl | ⟨1, _⟩ => rfl)

/-- The normalised matrix. -/
theorem ref_nadj_apply (A : FVec Ideal ⟨2, ![8192, 8192]⟩ .f32) (i k : Fin 8192) :
    Cert.ReferenceIdeal.Read.val_main_v8 (F := Ideal) A (ix2 i k)
      = (Cert.ReferenceIdeal.Read.val_main_v2 (F := Ideal) A (ix1 i) * A (ix2 i k)) * Cert.ReferenceIdeal.Read.val_main_v2 (F := Ideal) A (ix1 k) := by
  have e1 : Cert.ReferenceIdeal.Read.idx_main_v3 (Cert.ReferenceIdeal.Read.idx_main_v4 (ix2 i k)) = ix1 i := funext fun a => Fin.ext (by match a with | ⟨0, _⟩ => rfl)
  have e2 : Cert.ReferenceIdeal.Read.idx_main_v6 (Cert.ReferenceIdeal.Read.idx_main_v7 (ix2 i k)) = ix1 k := funext fun a => Fin.ext (by match a with | ⟨0, _⟩ => rfl)
  rw [Cert.ReferenceIdeal.Read.val_main_v8_apply, Cert.ReferenceIdeal.Read.val_main_v5_apply, Cert.ReferenceIdeal.Read.val_main_v4_apply, Cert.ReferenceIdeal.Read.val_main_v3_apply, Cert.ReferenceIdeal.Read.val_main_v7_apply,
    Cert.ReferenceIdeal.Read.val_main_v6_apply, e1, e2]
  rfl

theorem ref_v9_apply (x : FVec Ideal ⟨2, ![8192, 128]⟩ .f32) (W1 : FVec Ideal ⟨2, ![128, 256]⟩ .f32) (i : Fin 8192) (c : Fin 256) :
    Cert.ReferenceIdeal.Read.val_main_v9 (F := Ideal) x W1 (ix2 i c) = ∑ k : Fin 128, x (ix2 i k) * W1 (ix2 k c) := by
  rw [Cert.ReferenceIdeal.Read.val_main_v9_apply]
  refine Finset.sum_congr rfl fun k _ => ?_
  have e1 : Cert.ReferenceIdeal.Read.lidx_main_v9 (ix2 i c) k = ix2 i k := funext fun a => Fin.ext (by match a with | ⟨0, _⟩ => rfl | ⟨1, _⟩ => rfl)
  have e2 : Cert.ReferenceIdeal.Read.ridx_main_v9 (ix2 i c) k = ix2 k c := funext fun a => Fin.ext (by match a with | ⟨0, _⟩ => rfl | ⟨1, _⟩ => rfl)
  rw [e1, e2]

theorem ref_v10_apply (x : FVec Ideal ⟨2, ![8192, 128]⟩ .f32) (A : FVec Ideal ⟨2, ![8192, 8192]⟩ .f32) (W1 : FVec Ideal ⟨2, ![128, 256]⟩ .f32) (i : Fin 8192) (c : Fin 256) :
    Cert.ReferenceIdeal.Read.val_main_v10 (F := Ideal) x A W1 (ix2 i c) = ∑ k : Fin 8192, Cert.ReferenceIdeal.Read.val_main_v8 (F := Ideal) A (ix2 i k) * Cert.ReferenceIdeal.Read.val_main_v9 (F := Ideal) x W1 (ix2 k c) := by
  rw [Cert.ReferenceIdeal.Read.val_main_v10_apply]
  refine Finset.sum_congr rfl fun k _ => ?_
  have e1 : Cert.ReferenceIdeal.Read.lidx_main_v10 (ix2 i c) k = ix2 i k := funext fun a => Fin.ext (by match a with | ⟨0, _⟩ => rfl | ⟨1, _⟩ => rfl)
  have e2 : Cert.ReferenceIdeal.Read.ridx_main_v10 (ix2 i c) k = ix2 k c := funext fun a => Fin.ext (by match a with | ⟨0, _⟩ => rfl | ⟨1, _⟩ => rfl)
  rw [e1, e2]

theorem ref_v11_apply (x : FVec Ideal ⟨2, ![8192, 128]⟩ .f32) (A : FVec Ideal ⟨2, ![8192, 8192]⟩ .f32) (W1 : FVec Ideal ⟨2, ![128, 256]⟩ .f32) (i : Fin 8192) (c : Fin 256) :
    Cert.ReferenceIdeal.Read.val_main_v11 (F := Ideal) x A W1 (ix2 i c) = max (Cert.ReferenceIdeal.Read.val_main_v10 (F := Ideal) x A W1 (ix2 i c)) 0 := by
  rw [Cert.ReferenceIdeal.Read.val_main_v11_apply, Cert.ReferenceIdeal.Read.val_main_call0_v0_apply, Cert.ReferenceIdeal.Read.val_main_call0_cst_apply]
  simp only [Ideal.maximumf_def, Ideal.ofBits_def, Ideal.ofBits_zero_f32]

theorem ref_v12_apply (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (i : Fin 8192) (c : Fin 256) :
    Cert.ReferenceIdeal.Read.val_main_v12 (F := Ideal) x A W1 W2 (ix2 i c) = ∑ k : Fin 256, Cert.ReferenceIdeal.Read.val_main_v11 (F := Ideal) x A W1 (ix2 i k) * W2 (ix2 k c) := by
  rw [Cert.ReferenceIdeal.Read.val_main_v12_apply]
  refine Finset.sum_congr rfl fun k _ => ?_
  have e1 : Cert.ReferenceIdeal.Read.lidx_main_v12 (ix2 i c) k = ix2 i k := funext fun a => Fin.ext (by match a with | ⟨0, _⟩ => rfl | ⟨1, _⟩ => rfl)
  have e2 : Cert.ReferenceIdeal.Read.ridx_main_v12 (ix2 i c) k = ix2 k c := funext fun a => Fin.ext (by match a with | ⟨0, _⟩ => rfl | ⟨1, _⟩ => rfl)
  rw [e1, e2]

theorem ref_v13_apply (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (i : Fin 8192) (c : Fin 256) :
    Cert.ReferenceIdeal.Read.val_main_v13 (F := Ideal) x A W1 W2 (ix2 i c) = ∑ k : Fin 8192, Cert.ReferenceIdeal.Read.val_main_v8 (F := Ideal) A (ix2 i k) * Cert.ReferenceIdeal.Read.val_main_v12 (F := Ideal) x A W1 W2 (ix2 k c) := by
  rw [Cert.ReferenceIdeal.Read.val_main_v13_apply]
  refine Finset.sum_congr rfl fun k _ => ?_
  have e1 : Cert.ReferenceIdeal.Read.lidx_main_v13 (ix2 i c) k = ix2 i k := funext fun a => Fin.ext (by match a with | ⟨0, _⟩ => rfl | ⟨1, _⟩ => rfl)
  have e2 : Cert.ReferenceIdeal.Read.ridx_main_v13 (ix2 i c) k = ix2 k c := funext fun a => Fin.ext (by match a with | ⟨0, _⟩ => rfl | ⟨1, _⟩ => rfl)
  rw [e1, e2]

theorem ref_v14_apply (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (i : Fin 8192) (c : Fin 256) :
    Cert.ReferenceIdeal.Read.val_main_v14 (F := Ideal) x A W1 W2 (ix2 i c) = max (Cert.ReferenceIdeal.Read.val_main_v13 (F := Ideal) x A W1 W2 (ix2 i c)) 0 := by
  rw [Cert.ReferenceIdeal.Read.val_main_v14_apply, Cert.ReferenceIdeal.Read.val_main_call1_v0_apply, Cert.ReferenceIdeal.Read.val_main_call1_cst_apply]
  simp only [Ideal.maximumf_def, Ideal.ofBits_def, Ideal.ofBits_zero_f32]

theorem ref_v15_apply (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (i : Fin 8192) (c : Fin 128) :
    Cert.ReferenceIdeal.Read.val_main_v15 (F := Ideal) x A W1 W2 W3 (ix2 i c) = ∑ k : Fin 256, Cert.ReferenceIdeal.Read.val_main_v14 (F := Ideal) x A W1 W2 (ix2 i k) * W3 (ix2 k c) := by
  rw [Cert.ReferenceIdeal.Read.val_main_v15_apply]
  refine Finset.sum_congr rfl fun k _ => ?_
  have e1 : Cert.ReferenceIdeal.Read.lidx_main_v15 (ix2 i c) k = ix2 i k := funext fun a => Fin.ext (by match a with | ⟨0, _⟩ => rfl | ⟨1, _⟩ => rfl)
  have e2 : Cert.ReferenceIdeal.Read.ridx_main_v15 (ix2 i c) k = ix2 k c := funext fun a => Fin.ext (by match a with | ⟨0, _⟩ => rfl | ⟨1, _⟩ => rfl)
  rw [e1, e2]

theorem ref_v16_apply (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (i : Fin 8192) (c : Fin 128) :
    Cert.ReferenceIdeal.Read.val_main_v16 (F := Ideal) x A W1 W2 W3 (ix2 i c) = ∑ k : Fin 8192, Cert.ReferenceIdeal.Read.val_main_v8 (F := Ideal) A (ix2 i k) * Cert.ReferenceIdeal.Read.val_main_v15 (F := Ideal) x A W1 W2 W3 (ix2 k c) := by
  rw [Cert.ReferenceIdeal.Read.val_main_v16_apply]
  refine Finset.sum_congr rfl fun k _ => ?_
  have e1 : Cert.ReferenceIdeal.Read.lidx_main_v16 (ix2 i c) k = ix2 i k := funext fun a => Fin.ext (by match a with | ⟨0, _⟩ => rfl | ⟨1, _⟩ => rfl)
  have e2 : Cert.ReferenceIdeal.Read.ridx_main_v16 (ix2 i c) k = ix2 k c := funext fun a => Fin.ext (by match a with | ⟨0, _⟩ => rfl | ⟨1, _⟩ => rfl)
  rw [e1, e2]

/-! ## The kernel program's small host products are the reference's -/

theorem hostdot1_eq (x : FVec Ideal ⟨2, ![8192, 128]⟩ .f32) (W1 : FVec Ideal ⟨2, ![128, 256]⟩ .f32) :
    Host.dotGeneral (F := Ideal) Cert.KernelIdeal.dot_S8192x128_S128x256_S8192x256_1_0_0_1_n_n none x W1 = Cert.ReferenceIdeal.Read.val_main_v9 (F := Ideal) x W1 := rfl

theorem hostdot2_eq (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) :
    Host.dotGeneral (F := Ideal) (φ₁ := .f32) Cert.KernelIdeal.dot_S8192x256_S256x256_S8192x256_1_0_0_1_n_n none (Cert.ReferenceIdeal.Read.val_main_v11 (F := Ideal) x A W1 : FVec Ideal ⟨2, ![8192, 256]⟩ .f32) W2
      = Cert.ReferenceIdeal.Read.val_main_v12 (F := Ideal) x A W1 W2 := rfl

theorem hostdot3_eq (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) :
    Host.dotGeneral (F := Ideal) (φ₁ := .f32) Cert.KernelIdeal.dot_S8192x256_S256x128_S8192x128_1_0_0_1_n_n none (Cert.ReferenceIdeal.Read.val_main_v14 (F := Ideal) x A W1 W2 : FVec Ideal ⟨2, ![8192, 256]⟩ .f32) W3
      = Cert.ReferenceIdeal.Read.val_main_v15 (F := Ideal) x A W1 W2 W3 := rfl

end Cert.Layers

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.Pay0.lean ====
/-
  The first pass's two block results read at an index, at the ideal values (floats extended reals, every
  operation exact, a change of format the identity). For a block of 512 rows of the adjacency matrix: the
  column of reciprocal square roots holds, at row p, the reciprocal square root of the sum of row p; the
  block at the narrower format is the block itself.
-/
import proofs.«111544_j24051816858257_2_alg».proof.Proof.KFun
import proofs.«111544_j24051816858257_2_alg».proof.Proof.LibColumns

noncomputable section

namespace Cert.Layers

open Idealize.ShloMosaic Idealize.ShloMosaic.ValueIdx
open scoped BigOperators
open Cert.KernelIdeal Cert.KernelIdeal.Gen

/-- Row p of the first pass's column: the reciprocal square root of the sum over row p of the block. -/
theorem k0_pay1_apply (v0 : FVec Ideal S512x8192 .f32) (p : Fin 512) (u : Fin 1) :
    k0_pay1 (F := Ideal) v0 (ix2 p u) = Ideal.rsqrt (∑ k : Fin 8192, v0 (ix2 p k)) := by
  unfold k0_pay1
  show FloatOps.rsqrt (shapeCast S512x1 (multiReduction .add [1] S512 v0 0x00000000#32 reduces_S512x8192_S512 (.inl rfl) rfl)
    shapeCasts_S512_S512x1 (ix2 p u)) = _
  rw [Ideal.rsqrt_def, Cert.Columns.shapeCast_a_a1_apply]
  exact congrArg Ideal.rsqrt (Cert.Columns.laneSum_apply v0 0x00000000#32 reduces_S512x8192_S512 (.inl rfl) rfl p)

/-- The block at the narrower format is the block. -/
theorem k0_pay2_apply (v0 : FVec Ideal S512x8192 .f32) (i : S512x8192.Idx) :
    k0_pay2 (F := Ideal) v0 i = v0 i := rfl

end Cert.Layers

end
-- ==== Proof.LayerDefs.lean ====
/-
  The four blocks of 2048 of a contraction over 8192 indices, and one block's contribution to an entry of
  the accumulator of a pass: the partial product with the right-hand side, plus the partial product with the
  right-hand side minus itself (the second, narrower, pass of the two-pass product: zero when the right-hand
  side is finite).
-/
import Mathlib.Data.EReal.Operations
import Mathlib.Algebra.BigOperators.Fin

noncomputable section

namespace Cert.Layers

open scoped BigOperators

/-- Index kk of block kb, for four blocks of 2048 among 8192. -/
def bix (kb : Fin 4) (kk : Fin 2048) : Fin 8192 :=
  ⟨2048 * kb.val + kk.val, by have := kb.isLt; have := kk.isLt; omega⟩

/-- One block's contribution to an entry of the accumulator: Σ f · s over the block plus Σ f · (s − s) over it. -/
def tile (f s : Fin 8192 → EReal) (kb : Fin 4) : EReal :=
  (∑ kk : Fin 2048, f (bix kb kk) * s (bix kb kk)) + ∑ kk : Fin 2048, f (bix kb kk) * (s (bix kb kk) - s (bix kb kk))

end Cert.Layers

end
-- ==== Proof.KAt0.lean ====
/-
  The kernel's first pass over the whole adjacency matrix, read at an index at the ideal values: the
  column D holds at row i the reciprocal square root of the sum of row i of A, and the narrower-format copy
  of A is A. Also the readers of blocks of rows and of tiles at an index, and the recombination of a row
  number from its block number and its row inside the block.
-/
import proofs.«111544_j24051816858257_2_alg».proof.Proof.KFun
import proofs.«111544_j24051816858257_2_alg».proof.Proof.Pay0
import proofs.«111544_j24051816858257_2_alg».proof.Proof.LayerDefs

noncomputable section

namespace Cert.Layers

open Idealize.ShloMosaic Idealize.ShloMosaic.ValueIdx
open scoped BigOperators
open Cert.KernelIdeal Cert.KernelIdeal.Gen Cert.KernelIdeal.KFun

/-- A row number is 512 times its block number plus its row inside the block. -/
theorem row_split512 (i : Fin 8192) (h : 512 * (blkOf 512 16 (by decide) i).val + (rowIn 512 16 (by decide) i).val < 8192) :
    (⟨512 * (blkOf 512 16 (by decide) i).val + (rowIn 512 16 (by decide) i).val, h⟩ : Fin 8192) = i :=
  Fin.ext (Nat.div_add_mod i.val 512)

/-- A row number is 2048 times its block number plus its row inside the block. -/
theorem row_split2048 (i : Fin 8192) : bix (blkOf 2048 4 (by decide) i) (rowIn 2048 4 (by decide) i) = i :=
  Fin.ext (Nat.div_add_mod i.val 2048)

/-- A block of 2048 rows read at an index. -/
theorem rows2048_apply {C : Nat} {e : EltTy} (X : Vec Ideal ⟨2, ![8192, C]⟩ e) (t : Fin 4) (p : Fin 2048) (c : Fin C) :
    rows2048 X t (ix2 p c) = X (ix2 (bix t p) c) := rfl

/-- A 2048 × 2048 tile read at an index. -/
theorem tile2048_apply {e : EltTy} (X : Vec Ideal ⟨2, ![8192, 8192]⟩ e) (ib kb : Fin 4) (p k : Fin 2048) :
    tile2048 X ib kb (ix2 p k) = X (ix2 (bix ib p) (bix kb k)) := rfl

/-- The reciprocal square root of the sum of row i of A. -/
def rdeg (A : FVec Ideal S8192x8192 .f32) (i : Fin 8192) : EReal := Ideal.rsqrt (∑ k : Fin 8192, A (ix2 i k))

/-- Row i of the column D: the reciprocal square root of the sum of row i of A. -/
theorem KD_apply (A : FVec Ideal S8192x8192 .f32) (i : Fin 8192) (u : Fin 1) :
    KD (F := Ideal) A (ix2 i u) = rdeg A i := by
  unfold rdeg
  show k0_pay1 (F := Ideal) (rows512 A (blkOf 512 16 (by decide) i)) (ix2 (rowIn 512 16 (by decide) i) u) = _
  rw [k0_pay1_apply]
  refine congrArg Ideal.rsqrt (Finset.sum_congr rfl fun k _ => ?_)
  exact congrArg (fun r : Fin 8192 => A (ix2 r k)) (row_split512 i _)

/-- The narrower-format copy of A is A. -/
theorem KA_apply (A : FVec Ideal S8192x8192 .f32) (i k : Fin 8192) :
    (KA (F := Ideal) A (ix2 i k) : EReal) = A (ix2 i k) := by
  show (k0_pay2 (F := Ideal) (rows512 A (blkOf 512 16 (by decide) i)) (ix2 (rowIn 512 16 (by decide) i) k) : EReal) = _
  rw [k0_pay2_apply]
  exact congrArg (fun r : Fin 8192 => A (ix2 r k)) (row_split512 i _)

end Cert.Layers

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.LayerAlgebra.lean ====
/-
  The real-number algebra of one graph-convolution layer.
  * The accumulator. A row of the matrix against a column of the right-hand side, taken in four tiles of 2048, each
    tile adding the product with the column and the product with (column − column): when the column's entries
    are real numbers the second product is zero, and the four tiles add up to the whole sum.
  * The rescaling. For real numbers, d_i · Σ_k a_k · (δ_k · g_k) = Σ_k ((d_i · a_k) · δ_k) · g_k : the scaling of
    the rows and of the columns of the matrix moves inside the sum.
  * The inverse square root of a positive real is its power −1/2.
-/
import Idealize.ShloMosaic.PureOps.Ideal.Laws
import proofs.«111544_j24051816858257_2_alg».proof.Proof.LibReals
import proofs.«111544_j24051816858257_2_alg».proof.Proof.LibBlockSumGen
import proofs.«111544_j24051816858257_2_alg».proof.Proof.LayerDefs

noncomputable section

namespace Cert.Layers

open Idealize.ShloMosaic Cert.Reals
open scoped BigOperators

theorem acc_blocks (f s : Fin 8192 → EReal) (hs : ∀ k, IsRealS (s k)) :
    (((0 + tile f s 0) + tile f s 1) + tile f s 2) + tile f s 3 = ∑ k : Fin 8192, f k * s k := by
  have hz : ∀ k, s k - s k = 0 := fun k => by
    obtain ⟨r, hr⟩ := hs k
    rw [hr, ← EReal.coe_sub, sub_self, EReal.coe_zero]
  have ht : ∀ kb, tile f s kb = ∑ kk : Fin 2048, f (bix kb kk) * s (bix kb kk) := fun kb => by
    unfold tile
    simp only [hz, mul_zero, Finset.sum_const_zero, add_zero]
  rw [ht, ht, ht, ht, zero_add, Cert.LibBlockSumGen.sum_blocks (show 8192 = 4 * 2048 from rfl) (fun k => f k * s k),
    Fin.sum_univ_four]
  rfl

theorem scale_sum (f δ g : Fin 8192 → EReal) (di : EReal) (hf : ∀ k, IsRealS (f k)) (hδ : ∀ k, IsRealS (δ k))
    (hg : ∀ k, IsRealS (g k)) (hdi : IsRealS di) :
    (∑ k, f k * (δ k * g k)) * di = ∑ k, ((di * f k) * δ k) * g k := by
  choose fr hfr using hf
  choose dr hdr using hδ
  choose gr hgr using hg
  obtain ⟨d, hd⟩ := hdi
  simp only [hfr, hdr, hgr, hd, ← EReal.coe_mul, ← coe_fintype_sum]
  refine congrArg _ ?_
  rw [Finset.sum_mul]
  exact Finset.sum_congr rfl fun k _ => by ring

/-- The word 0xBF000000 is −1/2. -/
theorem neg_half_word : Ideal.ofBits .f32 0xBF000000#32 = ((-(1 / 2) : ℝ) : EReal) := by
  simp [Ideal.ofBits, Ideal.ieee, -EReal.coe_mul]; norm_num

theorem rsqrt_eq_pow_neg_half (s : EReal) (hs : IsRealS s) (hpos : 0 < s) :
    Ideal.rsqrt s = Ideal.pow (0 + s) (Ideal.ofBits .f32 0xBF000000#32) := by
  obtain ⟨r, rfl⟩ := hs
  have hr : 0 < r := EReal.coe_pos.mp hpos
  rw [zero_add, rsqrt_coe_pos hr, neg_half_word, Ideal.pow_coe_coe]
  refine congrArg _ ?_
  show (Real.sqrt r)⁻¹ = r ^ (-(1 / 2) : ℝ)
  rw [Real.rpow_neg hr.le, Real.sqrt_eq_rpow]

end Cert.Layers

end
-- ==== Proof.RefReal.lean ====
/-
  The reference's three graph-convolution layers as closed sums, and the finiteness of every stage. With
  δ i the reciprocal square root of the sum of row i of the adjacency matrix A (every entry a real, every row
  sum positive): the reference's per-row factor, the row sum raised to the power −1/2, is δ i; its normalised
  adjacency matrix at (i, k) is (δ i · A (i, k)) · δ k, a real; and each layer's product with a real array G
  is Σ_k ((δ i · A (i, k)) · δ k) · G (k, c), a real. Hence every stage of the three layers is real.
-/
import proofs.«111544_j24051816858257_2_alg».proof.Proof.RefAt
import proofs.«111544_j24051816858257_2_alg».proof.Proof.KAt0
import proofs.«111544_j24051816858257_2_alg».proof.Proof.LayerAlgebra
import proofs.«111544_j24051816858257_2_alg».proof.Proof.LibReals

noncomputable section

namespace Cert.Layers

open Idealize.ShloMosaic Idealize.ShloMosaic.ValueIdx
open scoped BigOperators
open Cert.ReferenceIdeal.Read Cert.Reals

/-- A finite sum of products of reals is a real. -/
theorem sum_mul_real {n : ℕ} (f g : Fin n → EReal) (hf : ∀ k, IsRealS (f k)) (hg : ∀ k, IsRealS (g k)) :
    IsRealS (∑ k, f k * g k) := isRealS_sum _ _ fun k _ => (hf k).mul (hg k)

/-- The row sums of a real matrix with positive row sums have real reciprocal square roots. -/
theorem rdeg_real (A : FVec Ideal ⟨2, ![8192, 8192]⟩ .f32) (hA : ∀ i, ∃ r : ℝ, A i = (r : EReal))
    (hpos : ∀ i : Fin 8192, (0 : EReal) < ∑ j : Fin 8192, A (ix2 i j)) (i : Fin 8192) : IsRealS (rdeg A i) :=
  IsRealS.rsqrt (IsReal.sum_univ (f := fun k : Fin 8192 => A (ix2 i k)) fun k => hA (ix2 i k)) (hpos i)

/-- The reference's per-row factor is the reciprocal square root of the row sum. -/
theorem ref_d_eq (A : FVec Ideal ⟨2, ![8192, 8192]⟩ .f32) (hA : ∀ i, ∃ r : ℝ, A i = (r : EReal))
    (hpos : ∀ i : Fin 8192, (0 : EReal) < ∑ j : Fin 8192, A (ix2 i j)) (i : Fin 8192) : val_main_v2 (F := Ideal) A (ix1 i) = rdeg A i := by
  rw [ref_d_apply]
  exact (rsqrt_eq_pow_neg_half _ (IsReal.sum_univ (f := fun k : Fin 8192 => A (ix2 i k)) fun k => hA (ix2 i k)) (hpos i)).symm

/-- The normalised adjacency matrix at (i, k). -/
theorem ref_nadj_eq (A : FVec Ideal ⟨2, ![8192, 8192]⟩ .f32) (hA : ∀ i, ∃ r : ℝ, A i = (r : EReal))
    (hpos : ∀ i : Fin 8192, (0 : EReal) < ∑ j : Fin 8192, A (ix2 i j)) (i k : Fin 8192) :
    val_main_v8 (F := Ideal) A (ix2 i k) = (rdeg A i * A (ix2 i k)) * rdeg A k := by
  rw [ref_nadj_apply, ref_d_eq A hA hpos, ref_d_eq A hA hpos]

/-- It is real. -/
theorem nadj_real (A : FVec Ideal ⟨2, ![8192, 8192]⟩ .f32) (hA : ∀ i, ∃ r : ℝ, A i = (r : EReal))
    (hpos : ∀ i : Fin 8192, (0 : EReal) < ∑ j : Fin 8192, A (ix2 i j)) (i k : Fin 8192) : IsRealS ((rdeg A i * A (ix2 i k)) * rdeg A k) :=
  ((rdeg_real A hA hpos i).mul (hA (ix2 i k))).mul (rdeg_real A hA hpos k)

/-- A layer's product with a real array is real. -/
theorem nadj_sum_real (A : FVec Ideal ⟨2, ![8192, 8192]⟩ .f32) (hA : ∀ i, ∃ r : ℝ, A i = (r : EReal))
    (hpos : ∀ i : Fin 8192, (0 : EReal) < ∑ j : Fin 8192, A (ix2 i j)) (g : Fin 8192 → EReal) (hg : ∀ k, IsRealS (g k)) (i : Fin 8192) :
    IsRealS (∑ k : Fin 8192, ((rdeg A i * A (ix2 i k)) * rdeg A k) * g k) :=
  sum_mul_real _ _ (fun k => nadj_real A hA hpos i k) hg

/-! ## Layer 1 -/

theorem v9_real (x : FVec Ideal ⟨2, ![8192, 128]⟩ .f32) (W1 : FVec Ideal ⟨2, ![128, 256]⟩ .f32) (hx : ∀ i, ∃ r : ℝ, x i = (r : EReal)) (hW1 : ∀ i, ∃ r : ℝ, W1 i = (r : EReal)) (j : (⟨2, ![8192, 256]⟩ : Shape).Idx) :
    IsRealS (val_main_v9 (F := Ideal) x W1 j) := by
  obtain ⟨i, c, rfl⟩ : ∃ (i : Fin 8192) (c : Fin 256), j = ix2 i c := ⟨j 0, j 1, eq_ix2 j⟩
  rw [ref_v9_apply]
  exact sum_mul_real _ _ (fun k => hx (ix2 i k)) (fun k => hW1 (ix2 k c))

theorem ref_pass1 (x : FVec Ideal ⟨2, ![8192, 128]⟩ .f32) (A : FVec Ideal ⟨2, ![8192, 8192]⟩ .f32) (W1 : FVec Ideal ⟨2, ![128, 256]⟩ .f32) (hA : ∀ i, ∃ r : ℝ, A i = (r : EReal))
    (hpos : ∀ i : Fin 8192, (0 : EReal) < ∑ j : Fin 8192, A (ix2 i j)) (i : Fin 8192) (c : Fin 256) :
    val_main_v11 (F := Ideal) x A W1 (ix2 i c)
      = max (∑ k : Fin 8192, ((rdeg A i * A (ix2 i k)) * rdeg A k) * val_main_v9 (F := Ideal) x W1 (ix2 k c)) 0 := by
  rw [ref_v11_apply, ref_v10_apply]
  exact congrArg (fun t => max t 0) (Finset.sum_congr rfl fun k _ => by rw [ref_nadj_eq A hA hpos])

theorem v11_real (x : FVec Ideal ⟨2, ![8192, 128]⟩ .f32) (A : FVec Ideal ⟨2, ![8192, 8192]⟩ .f32) (W1 : FVec Ideal ⟨2, ![128, 256]⟩ .f32) (hx : ∀ i, ∃ r : ℝ, x i = (r : EReal)) (hA : ∀ i, ∃ r : ℝ, A i = (r : EReal)) (hW1 : ∀ i, ∃ r : ℝ, W1 i = (r : EReal))
    (hpos : ∀ i : Fin 8192, (0 : EReal) < ∑ j : Fin 8192, A (ix2 i j)) (j : (⟨2, ![8192, 256]⟩ : Shape).Idx) :
    IsRealS (val_main_v11 (F := Ideal) x A W1 j) := by
  obtain ⟨i, c, rfl⟩ : ∃ (i : Fin 8192) (c : Fin 256), j = ix2 i c := ⟨j 0, j 1, eq_ix2 j⟩
  rw [ref_pass1 x A W1 hA hpos]
  exact (nadj_sum_real A hA hpos _ (fun k => v9_real x W1 hx hW1 (ix2 k c)) i).max isRealS_zero

/-! ## Layer 2 -/

theorem v12_real (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal))
    (hpos : ∀ i : Fin 8192, (0 : EReal) < ∑ j : Fin 8192, A (ix2 i j)) (j : (⟨2, ![8192, 256]⟩ : Shape).Idx) :
    IsRealS (val_main_v12 (F := Ideal) x A W1 W2 j) := by
  obtain ⟨i, c, rfl⟩ : ∃ (i : Fin 8192) (c : Fin 256), j = ix2 i c := ⟨j 0, j 1, eq_ix2 j⟩
  rw [ref_v12_apply]
  exact sum_mul_real _ _ (fun k => v11_real x A W1 hx hA hW1 hpos (ix2 i k)) (fun k => hW2 (ix2 k c))

theorem ref_pass2 (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (hA : ∀ i, ∃ r : ℝ, A i = (r : EReal))
    (hpos : ∀ i : Fin 8192, (0 : EReal) < ∑ j : Fin 8192, A (ix2 i j)) (i : Fin 8192) (c : Fin 256) :
    val_main_v14 (F := Ideal) x A W1 W2 (ix2 i c)
      = max (∑ k : Fin 8192, ((rdeg A i * A (ix2 i k)) * rdeg A k) * val_main_v12 (F := Ideal) x A W1 W2 (ix2 k c)) 0 := by
  rw [ref_v14_apply, ref_v13_apply]
  exact congrArg (fun t => max t 0) (Finset.sum_congr rfl fun k _ => by rw [ref_nadj_eq A hA hpos])

theorem v14_real (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal))
    (hpos : ∀ i : Fin 8192, (0 : EReal) < ∑ j : Fin 8192, A (ix2 i j)) (j : (⟨2, ![8192, 256]⟩ : Shape).Idx) :
    IsRealS (val_main_v14 (F := Ideal) x A W1 W2 j) := by
  obtain ⟨i, c, rfl⟩ : ∃ (i : Fin 8192) (c : Fin 256), j = ix2 i c := ⟨j 0, j 1, eq_ix2 j⟩
  rw [ref_pass2 x A W1 W2 hA hpos]
  exact (nadj_sum_real A hA hpos _ (fun k => v12_real x A W1 W2 hx hA hW1 hW2 hpos (ix2 k c)) i).max isRealS_zero

/-! ## Layer 3 -/

theorem v15_real (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal)) (hW3 : ∀ i, ∃ r : ℝ, W3 i = (r : EReal))
    (hpos : ∀ i : Fin 8192, (0 : EReal) < ∑ j : Fin 8192, A (ix2 i j)) (j : (⟨2, ![8192, 128]⟩ : Shape).Idx) :
    IsRealS (val_main_v15 (F := Ideal) x A W1 W2 W3 j) := by
  obtain ⟨i, c, rfl⟩ : ∃ (i : Fin 8192) (c : Fin 128), j = ix2 i c := ⟨j 0, j 1, eq_ix2 j⟩
  rw [ref_v15_apply]
  exact sum_mul_real _ _ (fun k => v14_real x A W1 W2 hx hA hW1 hW2 hpos (ix2 i k)) (fun k => hW3 (ix2 k c))

theorem ref_pass3 (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (hA : ∀ i, ∃ r : ℝ, A i = (r : EReal))
    (hpos : ∀ i : Fin 8192, (0 : EReal) < ∑ j : Fin 8192, A (ix2 i j)) (i : Fin 8192) (c : Fin 128) :
    val_main_v16 (F := Ideal) x A W1 W2 W3 (ix2 i c)
      = ∑ k : Fin 8192, ((rdeg A i * A (ix2 i k)) * rdeg A k) * val_main_v15 (F := Ideal) x A W1 W2 W3 (ix2 k c) := by
  rw [ref_v16_apply]
  exact Finset.sum_congr rfl fun k _ => by rw [ref_nadj_eq A hA hpos]

theorem v16_real (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal)) (hW3 : ∀ i, ∃ r : ℝ, W3 i = (r : EReal))
    (hpos : ∀ i : Fin 8192, (0 : EReal) < ∑ j : Fin 8192, A (ix2 i j)) (j : (⟨2, ![8192, 128]⟩ : Shape).Idx) :
    IsRealS (val_main_v16 (F := Ideal) x A W1 W2 W3 j) := by
  obtain ⟨i, c, rfl⟩ : ∃ (i : Fin 8192) (c : Fin 128), j = ix2 i c := ⟨j 0, j 1, eq_ix2 j⟩
  rw [ref_pass3 x A W1 W2 W3 hA hpos]
  exact nadj_sum_real A hA hpos _ (fun k => v15_real x A W1 W2 W3 hx hA hW1 hW2 hW3 hpos (ix2 k c)) i

end Cert.Layers

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.Pay1.lean ====
/-
  The payloads of the second pass read at an index, at the ideal values (floats extended reals, every operation
  exact, a change of format the identity). For a 2048 × 2048 tile a of the adjacency matrix, a block s of
  2048 rows of the scaled right-hand side (256 columns) and the accumulator v: the fresh accumulator is zero;
  the updated accumulator at (p, c) is v (p, c) + (Σ_k a (p, k) · s (k, c) + Σ_k a (p, k) · (s (k, c) − s (k, c)));
  the pass's result at (p, c) is the accumulator there times the column entry of row p, clamped below at zero.
-/
import proofs.«111544_j24051816858257_2_alg».proof.Proof.KFun
import proofs.«111544_j24051816858257_2_alg».proof.Proof.LibColumns
import proofs.«111544_j24051816858257_2_alg».proof.Proof.LibPlainDot

noncomputable section

namespace Cert.Layers

open Idealize.ShloMosaic Idealize.ShloMosaic.ValueIdx
open scoped BigOperators
open Cert.KernelIdeal Cert.KernelIdeal.Gen

/-- The fresh accumulator is zero everywhere. -/
theorem k1_pay1_apply (i : S2048x256.Idx) : k1_pay1 (F := Ideal) i = 0 := by
  unfold k1_pay1
  simp only [shapeCast_self]
  exact Ideal.ofBits_zero_f32

/-- The accumulator after one tile, at (p, c). -/
theorem k1_pay2_apply (v6 : FVec Ideal S2048x256 .f32) (v8 : FVec Ideal S2048x2048 .bf16) (v17 : FVec Ideal S2048x256 .f32)
    (p : Fin 2048) (c : Fin 256) :
    k1_pay2 (F := Ideal) v6 v8 v17 (ix2 p c)
      = v17 (ix2 p c) + ((∑ k : Fin 2048, v8 (ix2 p k) * v6 (ix2 k c))
          + ∑ k : Fin 2048, v8 (ix2 p k) * (v6 (ix2 k c) - v6 (ix2 k c))) := by
  have hD : dot_S2048x2048_S2048x256_S2048x256_1_0_0_1_n_n = DotDims.plain 2048 2048 256 := rfl
  unfold k1_pay2
  simp only [shapeCast_self, hD]
  show v17 (ix2 p c)
      + (matmul (DotDims.plain 2048 2048 256) none v8 (truncf .bf16 v6 bitsLt_bf16_f32)
            (constant (F := Ideal) ⟨2, ![2048, 256]⟩ .f32 0x00000000#32) (ix2 p c)
          + matmul (DotDims.plain 2048 2048 256) none v8 (truncf .bf16 (subf v6 v6) bitsLt_bf16_f32)
            (constant (F := Ideal) ⟨2, ![2048, 256]⟩ .f32 0x00000000#32) (ix2 p c)) = _
  rw [Cert.Lib.PlainDot.matmul_plain_zero_apply, Cert.Lib.PlainDot.matmul_plain_zero_apply]
  rfl

/-- The pass's result at (p, c). -/
theorem k1_pay3_apply (v25 : FVec Ideal S2048x256 .f32) (v26 : FVec Ideal S2048x1 .f32) (p : Fin 2048) (c : Fin 256) :
    k1_pay3 (F := Ideal) v25 v26 (ix2 p c) = max (v25 (ix2 p c) * v26 (ix2 p 0)) 0 := by
  unfold k1_pay3
  simp only [shapeCast_self]
  show max (v25 (ix2 p c) * broadcastTo S2048x256 v26 broadcasts_S2048x1_S2048x256 (ix2 p c)) (Ideal.ofBits .f32 0x00000000#32) = _
  rw [Cert.Columns.broadcastTo_a1_ab_apply v26 _ p c 0, Ideal.ofBits_zero_f32]

end Cert.Layers

end
-- ==== Proof.KAt1.lean ====
/-
  The second pass of the kernel over whole arrays, read at an index at the ideal values. For the adjacency
  matrix a (at the narrower format), the column d and a scaled right-hand side s of 256 columns: the
  accumulator of a block of rows after its four tiles is, at a row r and a column c, zero plus the four
  tiles' contributions in turn; the pass's result at (i, c) is that accumulator for row i times d (i, 0),
  clamped below at zero.
-/
import proofs.«111544_j24051816858257_2_alg».proof.Proof.KFun
import proofs.«111544_j24051816858257_2_alg».proof.Proof.Pay1
import proofs.«111544_j24051816858257_2_alg».proof.Proof.KAt0
import proofs.«111544_j24051816858257_2_alg».proof.Proof.LayerDefs

noncomputable section

namespace Cert.Layers

open Idealize.ShloMosaic Idealize.ShloMosaic.ValueIdx
open scoped BigOperators
open Cert.KernelIdeal Cert.KernelIdeal.Gen Cert.KernelIdeal.KFun

/-- The accumulator of row block ib after the four tiles, at the block's row p and column c. -/
theorem acc1_apply (Ab : FVec Ideal S8192x8192 .bf16) (S : FVec Ideal S8192x256 .f32) (ib : Fin 4) (p : Fin 2048) (c : Fin 256) :
    acc1 (F := Ideal) Ab S ib 3 (by decide) (ix2 p c)
      = (((0 + tile (fun k => (Ab (ix2 (bix ib p) k) : EReal)) (fun k => S (ix2 k c)) 0)
          + tile (fun k => (Ab (ix2 (bix ib p) k) : EReal)) (fun k => S (ix2 k c)) 1)
          + tile (fun k => (Ab (ix2 (bix ib p) k) : EReal)) (fun k => S (ix2 k c)) 2)
          + tile (fun k => (Ab (ix2 (bix ib p) k) : EReal)) (fun k => S (ix2 k c)) 3 := by
  show k1_pay2 (F := Ideal) (rows2048 S ⟨3, by decide⟩) (tile2048 Ab ib ⟨3, by decide⟩)
    (k1_pay2 (F := Ideal) (rows2048 S ⟨2, by decide⟩) (tile2048 Ab ib ⟨2, by decide⟩)
      (k1_pay2 (F := Ideal) (rows2048 S ⟨1, by decide⟩) (tile2048 Ab ib ⟨1, by decide⟩)
        (k1_pay2 (F := Ideal) (rows2048 S ⟨0, by decide⟩) (tile2048 Ab ib ⟨0, by decide⟩) (k1_pay1 (F := Ideal))))) (ix2 p c) = _
  rw [k1_pay2_apply, k1_pay2_apply, k1_pay2_apply, k1_pay2_apply, k1_pay1_apply]
  rfl

/-- The pass's result at row i and column c. -/
theorem KH1_apply (Ab : FVec Ideal S8192x8192 .bf16) (D : FVec Ideal S8192x1 .f32) (S : FVec Ideal S8192x256 .f32)
    (i : Fin 8192) (c : Fin 256) :
    KH1 (F := Ideal) Ab D S (ix2 i c)
      = max (((((0 + tile (fun k => (Ab (ix2 i k) : EReal)) (fun k => S (ix2 k c)) 0)
          + tile (fun k => (Ab (ix2 i k) : EReal)) (fun k => S (ix2 k c)) 1)
          + tile (fun k => (Ab (ix2 i k) : EReal)) (fun k => S (ix2 k c)) 2)
          + tile (fun k => (Ab (ix2 i k) : EReal)) (fun k => S (ix2 k c)) 3) * D (ix2 i 0)) 0 := by
  show k1_pay3 (F := Ideal) (acc1 Ab S (blkOf 2048 4 (by decide) i) 3 (by decide)) (rows2048 D (blkOf 2048 4 (by decide) i))
    (ix2 (rowIn 2048 4 (by decide) i) c) = _
  rw [k1_pay3_apply, acc1_apply, rows2048_apply, row_split2048]

end Cert.Layers

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LayerK1.lean ====
/-
  One graph-convolution pass of the kernel as a closed sum. With δ i the reciprocal square root of the sum
  of row i of the adjacency matrix A (every entry of A a real, every row sum positive) and G a real array of
  256 columns, the pass applied to the scaled right-hand side δ k · G (k, c) gives at (i, c)
  max (Σ_k ((δ i · A (i, k)) · δ k) · G (k, c), 0): the four tiles' contributions add up to the whole contraction (the
  second product of each tile is against s − s = 0), and the scalings move inside the sum in the reals.
-/
import proofs.«111544_j24051816858257_2_alg».proof.Proof.KAt1
import proofs.«111544_j24051816858257_2_alg».proof.Proof.LayerAlgebra
import proofs.«111544_j24051816858257_2_alg».proof.Proof.LibReals
import proofs.«111544_j24051816858257_2_alg».proof.Proof.LibHostColumns

noncomputable section

namespace Cert.Layers

open Idealize.ShloMosaic Idealize.ShloMosaic.ValueIdx
open scoped BigOperators
open Cert.KernelIdeal Cert.KernelIdeal.Gen Cert.KernelIdeal.KFun Cert.Reals

theorem pass1_apply (A : FVec Ideal S8192x8192 .f32) (G : FVec Ideal S8192x256 .f32)
    (hA : ∀ i, ∃ r : ℝ, A i = (r : EReal)) (hG : ∀ i, ∃ r : ℝ, G i = (r : EReal))
    (hδ : ∀ i : Fin 8192, IsRealS (rdeg A i)) (i : Fin 8192) (c : Fin 256) :
    KH1 (F := Ideal) (KA A) (KD A) (mulf (broadcastInDim S8192x256 ![0, 1] bcast_S8192x1_S8192x256_0_1 (KD A)) G) (ix2 i c)
      = max (∑ k : Fin 8192, ((rdeg A i * A (ix2 i k)) * rdeg A k) * G (ix2 k c)) 0 := by
  have hf : (fun k : Fin 8192 => (KA (F := Ideal) A (ix2 i k) : EReal)) = fun k => A (ix2 i k) :=
    funext fun k => KA_apply A i k
  have hs : (fun k : Fin 8192 => mulf (broadcastInDim S8192x256 ![0, 1] bcast_S8192x1_S8192x256_0_1 (KD (F := Ideal) A)) G (ix2 k c))
      = fun k => rdeg A k * G (ix2 k c) := funext fun k => by
    show broadcastInDim S8192x256 ![0, 1] bcast_S8192x1_S8192x256_0_1 (KD (F := Ideal) A) (ix2 k c) * G (ix2 k c) = _
    rw [Cert.Lib.HostColumns.bcast_col_lanes_apply _ _ k c 0, KD_apply]
  rw [KH1_apply, hf, hs, KD_apply, acc_blocks _ _ (fun k => (hδ k).mul (hG (ix2 k c))),
    scale_sum (fun k => A (ix2 i k)) (rdeg A) (fun k => G (ix2 k c)) (rdeg A i) (fun k => hA (ix2 i k)) hδ
      (fun k => hG (ix2 k c)) (hδ i)]

end Cert.Layers

end
-- ==== Proof.Pay2.lean ====
/-
  The payloads of the third pass read at an index, at the ideal values (floats extended reals, every operation
  exact, a change of format the identity). For a 2048 × 2048 tile a of the adjacency matrix, a block s of
  2048 rows of the scaled right-hand side (256 columns) and the accumulator v: the fresh accumulator is zero;
  the updated accumulator at (p, c) is v (p, c) + (Σ_k a (p, k) · s (k, c) + Σ_k a (p, k) · (s (k, c) − s (k, c)));
  the pass's result at (p, c) is the accumulator there times the column entry of row p, clamped below at zero.
-/
import proofs.«111544_j24051816858257_2_alg».proof.Proof.KFun
import proofs.«111544_j24051816858257_2_alg».proof.Proof.LibColumns
import proofs.«111544_j24051816858257_2_alg».proof.Proof.LibPlainDot

noncomputable section

namespace Cert.Layers

open Idealize.ShloMosaic Idealize.ShloMosaic.ValueIdx
open scoped BigOperators
open Cert.KernelIdeal Cert.KernelIdeal.Gen

/-- The fresh accumulator is zero everywhere. -/
theorem k2_pay1_apply (i : S2048x256.Idx) : k2_pay1 (F := Ideal) i = 0 := by
  unfold k2_pay1
  simp only [shapeCast_self]
  exact Ideal.ofBits_zero_f32

/-- The accumulator after one tile, at (p, c). -/
theorem k2_pay2_apply (v6 : FVec Ideal S2048x256 .f32) (v8 : FVec Ideal S2048x2048 .bf16) (v17 : FVec Ideal S2048x256 .f32)
    (p : Fin 2048) (c : Fin 256) :
    k2_pay2 (F := Ideal) v6 v8 v17 (ix2 p c)
      = v17 (ix2 p c) + ((∑ k : Fin 2048, v8 (ix2 p k) * v6 (ix2 k c))
          + ∑ k : Fin 2048, v8 (ix2 p k) * (v6 (ix2 k c) - v6 (ix2 k c))) := by
  have hD : dot_S2048x2048_S2048x256_S2048x256_1_0_0_1_n_n = DotDims.plain 2048 2048 256 := rfl
  unfold k2_pay2
  simp only [shapeCast_self, hD]
  show v17 (ix2 p c)
      + (matmul (DotDims.plain 2048 2048 256) none v8 (truncf .bf16 v6 bitsLt_bf16_f32)
            (constant (F := Ideal) ⟨2, ![2048, 256]⟩ .f32 0x00000000#32) (ix2 p c)
          + matmul (DotDims.plain 2048 2048 256) none v8 (truncf .bf16 (subf v6 v6) bitsLt_bf16_f32)
            (constant (F := Ideal) ⟨2, ![2048, 256]⟩ .f32 0x00000000#32) (ix2 p c)) = _
  rw [Cert.Lib.PlainDot.matmul_plain_zero_apply, Cert.Lib.PlainDot.matmul_plain_zero_apply]
  rfl

/-- The pass's result at (p, c). -/
theorem k2_pay3_apply (v25 : FVec Ideal S2048x256 .f32) (v26 : FVec Ideal S2048x1 .f32) (p : Fin 2048) (c : Fin 256) :
    k2_pay3 (F := Ideal) v25 v26 (ix2 p c) = max (v25 (ix2 p c) * v26 (ix2 p 0)) 0 := by
  unfold k2_pay3
  simp only [shapeCast_self]
  show max (v25 (ix2 p c) * broadcastTo S2048x256 v26 broadcasts_S2048x1_S2048x256 (ix2 p c)) (Ideal.ofBits .f32 0x00000000#32) = _
  rw [Cert.Columns.broadcastTo_a1_ab_apply v26 _ p c 0, Ideal.ofBits_zero_f32]

end Cert.Layers

end
-- ==== Proof.KAt2.lean ====
/-
  The third pass of the kernel over whole arrays, read at an index at the ideal values. For the adjacency
  matrix a (at the narrower format), the column d and a scaled right-hand side s of 256 columns: the
  accumulator of a block of rows after its four tiles is, at a row r and a column c, zero plus the four
  tiles' contributions in turn; the pass's result at (i, c) is that accumulator for row i times d (i, 0),
  clamped below at zero.
-/
import proofs.«111544_j24051816858257_2_alg».proof.Proof.KFun
import proofs.«111544_j24051816858257_2_alg».proof.Proof.Pay2
import proofs.«111544_j24051816858257_2_alg».proof.Proof.KAt0
import proofs.«111544_j24051816858257_2_alg».proof.Proof.LayerDefs

noncomputable section

namespace Cert.Layers

open Idealize.ShloMosaic Idealize.ShloMosaic.ValueIdx
open scoped BigOperators
open Cert.KernelIdeal Cert.KernelIdeal.Gen Cert.KernelIdeal.KFun

/-- The accumulator of row block ib after the four tiles, at the block's row p and column c. -/
theorem acc2_apply (Ab : FVec Ideal S8192x8192 .bf16) (S : FVec Ideal S8192x256 .f32) (ib : Fin 4) (p : Fin 2048) (c : Fin 256) :
    acc2 (F := Ideal) Ab S ib 3 (by decide) (ix2 p c)
      = (((0 + tile (fun k => (Ab (ix2 (bix ib p) k) : EReal)) (fun k => S (ix2 k c)) 0)
          + tile (fun k => (Ab (ix2 (bix ib p) k) : EReal)) (fun k => S (ix2 k c)) 1)
          + tile (fun k => (Ab (ix2 (bix ib p) k) : EReal)) (fun k => S (ix2 k c)) 2)
          + tile (fun k => (Ab (ix2 (bix ib p) k) : EReal)) (fun k => S (ix2 k c)) 3 := by
  show k2_pay2 (F := Ideal) (rows2048 S ⟨3, by decide⟩) (tile2048 Ab ib ⟨3, by decide⟩)
    (k2_pay2 (F := Ideal) (rows2048 S ⟨2, by decide⟩) (tile2048 Ab ib ⟨2, by decide⟩)
      (k2_pay2 (F := Ideal) (rows2048 S ⟨1, by decide⟩) (tile2048 Ab ib ⟨1, by decide⟩)
        (k2_pay2 (F := Ideal) (rows2048 S ⟨0, by decide⟩) (tile2048 Ab ib ⟨0, by decide⟩) (k2_pay1 (F := Ideal))))) (ix2 p c) = _
  rw [k2_pay2_apply, k2_pay2_apply, k2_pay2_apply, k2_pay2_apply, k2_pay1_apply]
  rfl

/-- The pass's result at row i and column c. -/
theorem KH2_apply (Ab : FVec Ideal S8192x8192 .bf16) (D : FVec Ideal S8192x1 .f32) (S : FVec Ideal S8192x256 .f32)
    (i : Fin 8192) (c : Fin 256) :
    KH2 (F := Ideal) Ab D S (ix2 i c)
      = max (((((0 + tile (fun k => (Ab (ix2 i k) : EReal)) (fun k => S (ix2 k c)) 0)
          + tile (fun k => (Ab (ix2 i k) : EReal)) (fun k => S (ix2 k c)) 1)
          + tile (fun k => (Ab (ix2 i k) : EReal)) (fun k => S (ix2 k c)) 2)
          + tile (fun k => (Ab (ix2 i k) : EReal)) (fun k => S (ix2 k c)) 3) * D (ix2 i 0)) 0 := by
  show k2_pay3 (F := Ideal) (acc2 Ab S (blkOf 2048 4 (by decide) i) 3 (by decide)) (rows2048 D (blkOf 2048 4 (by decide) i))
    (ix2 (rowIn 2048 4 (by decide) i) c) = _
  rw [k2_pay3_apply, acc2_apply, rows2048_apply, row_split2048]

end Cert.Layers

end
-- ==== Proof.LayerK2.lean ====
/-
  One graph-convolution pass of the kernel as a closed sum. With δ i the reciprocal square root of the sum
  of row i of the adjacency matrix A (every entry of A a real, every row sum positive) and G a real array of
  256 columns, the pass applied to the scaled right-hand side δ k · G (k, c) gives at (i, c)
  max (Σ_k ((δ i · A (i, k)) · δ k) · G (k, c), 0): the four tiles' contributions add up to the whole contraction (the
  second product of each tile is against s − s = 0), and the scalings move inside the sum in the reals.
-/
import proofs.«111544_j24051816858257_2_alg».proof.Proof.KAt2
import proofs.«111544_j24051816858257_2_alg».proof.Proof.LayerAlgebra
import proofs.«111544_j24051816858257_2_alg».proof.Proof.LibReals
import proofs.«111544_j24051816858257_2_alg».proof.Proof.LibHostColumns

noncomputable section

namespace Cert.Layers

open Idealize.ShloMosaic Idealize.ShloMosaic.ValueIdx
open scoped BigOperators
open Cert.KernelIdeal Cert.KernelIdeal.Gen Cert.KernelIdeal.KFun Cert.Reals

theorem pass2_apply (A : FVec Ideal S8192x8192 .f32) (G : FVec Ideal S8192x256 .f32)
    (hA : ∀ i, ∃ r : ℝ, A i = (r : EReal)) (hG : ∀ i, ∃ r : ℝ, G i = (r : EReal))
    (hδ : ∀ i : Fin 8192, IsRealS (rdeg A i)) (i : Fin 8192) (c : Fin 256) :
    KH2 (F := Ideal) (KA A) (KD A) (mulf (broadcastInDim S8192x256 ![0, 1] bcast_S8192x1_S8192x256_0_1 (KD A)) G) (ix2 i c)
      = max (∑ k : Fin 8192, ((rdeg A i * A (ix2 i k)) * rdeg A k) * G (ix2 k c)) 0 := by
  have hf : (fun k : Fin 8192 => (KA (F := Ideal) A (ix2 i k) : EReal)) = fun k => A (ix2 i k) :=
    funext fun k => KA_apply A i k
  have hs : (fun k : Fin 8192 => mulf (broadcastInDim S8192x256 ![0, 1] bcast_S8192x1_S8192x256_0_1 (KD (F := Ideal) A)) G (ix2 k c))
      = fun k => rdeg A k * G (ix2 k c) := funext fun k => by
    show broadcastInDim S8192x256 ![0, 1] bcast_S8192x1_S8192x256_0_1 (KD (F := Ideal) A) (ix2 k c) * G (ix2 k c) = _
    rw [Cert.Lib.HostColumns.bcast_col_lanes_apply _ _ k c 0, KD_apply]
  rw [KH2_apply, hf, hs, KD_apply, acc_blocks _ _ (fun k => (hδ k).mul (hG (ix2 k c))),
    scale_sum (fun k => A (ix2 i k)) (rdeg A) (fun k => G (ix2 k c)) (rdeg A i) (fun k => hA (ix2 i k)) hδ
      (fun k => hG (ix2 k c)) (hδ i)]

end Cert.Layers

end
-- ==== Proof.Pay3.lean ====
/-
  The payloads of the fourth pass read at an index, at the ideal values (floats extended reals, every operation
  exact, a change of format the identity). For a 2048 × 2048 tile a of the adjacency matrix, a block s of
  2048 rows of the scaled right-hand side (128 columns) and the accumulator v: the fresh accumulator is zero;
  the updated accumulator at (p, c) is v (p, c) + (Σ_k a (p, k) · s (k, c) + Σ_k a (p, k) · (s (k, c) − s (k, c)));
  the pass's result at (p, c) is the accumulator there times the column entry of row p.
-/
import proofs.«111544_j24051816858257_2_alg».proof.Proof.KFun
import proofs.«111544_j24051816858257_2_alg».proof.Proof.LibColumns
import proofs.«111544_j24051816858257_2_alg».proof.Proof.LibPlainDot

noncomputable section

namespace Cert.Layers

open Idealize.ShloMosaic Idealize.ShloMosaic.ValueIdx
open scoped BigOperators
open Cert.KernelIdeal Cert.KernelIdeal.Gen

/-- The fresh accumulator is zero everywhere. -/
theorem k3_pay1_apply (i : S2048x128.Idx) : k3_pay1 (F := Ideal) i = 0 := by
  unfold k3_pay1
  simp only [shapeCast_self]
  exact Ideal.ofBits_zero_f32

/-- The accumulator after one tile, at (p, c). -/
theorem k3_pay2_apply (v6 : FVec Ideal S2048x128 .f32) (v8 : FVec Ideal S2048x2048 .bf16) (v17 : FVec Ideal S2048x128 .f32)
    (p : Fin 2048) (c : Fin 128) :
    k3_pay2 (F := Ideal) v6 v8 v17 (ix2 p c)
      = v17 (ix2 p c) + ((∑ k : Fin 2048, v8 (ix2 p k) * v6 (ix2 k c))
          + ∑ k : Fin 2048, v8 (ix2 p k) * (v6 (ix2 k c) - v6 (ix2 k c))) := by
  have hD : dot_S2048x2048_S2048x128_S2048x128_1_0_0_1_n_n = DotDims.plain 2048 2048 128 := rfl
  unfold k3_pay2
  simp only [shapeCast_self, hD]
  show v17 (ix2 p c)
      + (matmul (DotDims.plain 2048 2048 128) none v8 (truncf .bf16 v6 bitsLt_bf16_f32)
            (constant (F := Ideal) ⟨2, ![2048, 128]⟩ .f32 0x00000000#32) (ix2 p c)
          + matmul (DotDims.plain 2048 2048 128) none v8 (truncf .bf16 (subf v6 v6) bitsLt_bf16_f32)
            (constant (F := Ideal) ⟨2, ![2048, 128]⟩ .f32 0x00000000#32) (ix2 p c)) = _
  rw [Cert.Lib.PlainDot.matmul_plain_zero_apply, Cert.Lib.PlainDot.matmul_plain_zero_apply]
  rfl

/-- The pass's result at (p, c). -/
theorem k3_pay3_apply (v25 : FVec Ideal S2048x128 .f32) (v26 : FVec Ideal S2048x1 .f32) (p : Fin 2048) (c : Fin 128) :
    k3_pay3 (F := Ideal) v25 v26 (ix2 p c) = v25 (ix2 p c) * v26 (ix2 p 0) := by
  unfold k3_pay3
  simp only [shapeCast_self]
  show v25 (ix2 p c) * broadcastTo S2048x128 v26 broadcasts_S2048x1_S2048x128 (ix2 p c) = _
  rw [Cert.Columns.broadcastTo_a1_ab_apply v26 _ p c 0]

end Cert.Layers

end
-- ==== Proof.KAt3.lean ====
/-
  The fourth pass of the kernel over whole arrays, read at an index at the ideal values. For the adjacency
  matrix a (at the narrower format), the column d and a scaled right-hand side s of 128 columns: the
  accumulator of a block of rows after its four tiles is, at a row r and a column c, zero plus the four
  tiles' contributions in turn; the pass's result at (i, c) is that accumulator for row i times d (i, 0).
-/
import proofs.«111544_j24051816858257_2_alg».proof.Proof.KFun
import proofs.«111544_j24051816858257_2_alg».proof.Proof.Pay3
import proofs.«111544_j24051816858257_2_alg».proof.Proof.KAt0
import proofs.«111544_j24051816858257_2_alg».proof.Proof.LayerDefs

noncomputable section

namespace Cert.Layers

open Idealize.ShloMosaic Idealize.ShloMosaic.ValueIdx
open scoped BigOperators
open Cert.KernelIdeal Cert.KernelIdeal.Gen Cert.KernelIdeal.KFun

/-- The accumulator of row block ib after the four tiles, at the block's row p and column c. -/
theorem acc3_apply (Ab : FVec Ideal S8192x8192 .bf16) (S : FVec Ideal S8192x128 .f32) (ib : Fin 4) (p : Fin 2048) (c : Fin 128) :
    acc3 (F := Ideal) Ab S ib 3 (by decide) (ix2 p c)
      = (((0 + tile (fun k => (Ab (ix2 (bix ib p) k) : EReal)) (fun k => S (ix2 k c)) 0)
          + tile (fun k => (Ab (ix2 (bix ib p) k) : EReal)) (fun k => S (ix2 k c)) 1)
          + tile (fun k => (Ab (ix2 (bix ib p) k) : EReal)) (fun k => S (ix2 k c)) 2)
          + tile (fun k => (Ab (ix2 (bix ib p) k) : EReal)) (fun k => S (ix2 k c)) 3 := by
  show k3_pay2 (F := Ideal) (rows2048 S ⟨3, by decide⟩) (tile2048 Ab ib ⟨3, by decide⟩)
    (k3_pay2 (F := Ideal) (rows2048 S ⟨2, by decide⟩) (tile2048 Ab ib ⟨2, by decide⟩)
      (k3_pay2 (F := Ideal) (rows2048 S ⟨1, by decide⟩) (tile2048 Ab ib ⟨1, by decide⟩)
        (k3_pay2 (F := Ideal) (rows2048 S ⟨0, by decide⟩) (tile2048 Ab ib ⟨0, by decide⟩) (k3_pay1 (F := Ideal))))) (ix2 p c) = _
  rw [k3_pay2_apply, k3_pay2_apply, k3_pay2_apply, k3_pay2_apply, k3_pay1_apply]
  rfl

/-- The pass's result at row i and column c. -/
theorem KZ_apply (Ab : FVec Ideal S8192x8192 .bf16) (D : FVec Ideal S8192x1 .f32) (S : FVec Ideal S8192x128 .f32)
    (i : Fin 8192) (c : Fin 128) :
    KZ (F := Ideal) Ab D S (ix2 i c)
      = ((((0 + tile (fun k => (Ab (ix2 i k) : EReal)) (fun k => S (ix2 k c)) 0)
          + tile (fun k => (Ab (ix2 i k) : EReal)) (fun k => S (ix2 k c)) 1)
          + tile (fun k => (Ab (ix2 i k) : EReal)) (fun k => S (ix2 k c)) 2)
          + tile (fun k => (Ab (ix2 i k) : EReal)) (fun k => S (ix2 k c)) 3) * D (ix2 i 0) := by
  show k3_pay3 (F := Ideal) (acc3 Ab S (blkOf 2048 4 (by decide) i) 3 (by decide)) (rows2048 D (blkOf 2048 4 (by decide) i))
    (ix2 (rowIn 2048 4 (by decide) i) c) = _
  rw [k3_pay3_apply, acc3_apply, rows2048_apply, row_split2048]

end Cert.Layers

end
-- ==== Proof.LayerK3.lean ====
/-
  One graph-convolution pass of the kernel as a closed sum. With δ i the reciprocal square root of the sum
  of row i of the adjacency matrix A (every entry of A a real, every row sum positive) and G a real array of
  128 columns, the pass applied to the scaled right-hand side δ k · G (k, c) gives at (i, c)
  Σ_k ((δ i · A (i, k)) · δ k) · G (k, c): the four tiles' contributions add up to the whole contraction (the
  second product of each tile is against s − s = 0), and the scalings move inside the sum in the reals.
-/
import proofs.«111544_j24051816858257_2_alg».proof.Proof.KAt3
import proofs.«111544_j24051816858257_2_alg».proof.Proof.LayerAlgebra
import proofs.«111544_j24051816858257_2_alg».proof.Proof.LibReals
import proofs.«111544_j24051816858257_2_alg».proof.Proof.LibHostColumns

noncomputable section

namespace Cert.Layers

open Idealize.ShloMosaic Idealize.ShloMosaic.ValueIdx
open scoped BigOperators
open Cert.KernelIdeal Cert.KernelIdeal.Gen Cert.KernelIdeal.KFun Cert.Reals

theorem pass3_apply (A : FVec Ideal S8192x8192 .f32) (G : FVec Ideal S8192x128 .f32)
    (hA : ∀ i, ∃ r : ℝ, A i = (r : EReal)) (hG : ∀ i, ∃ r : ℝ, G i = (r : EReal))
    (hδ : ∀ i : Fin 8192, IsRealS (rdeg A i)) (i : Fin 8192) (c : Fin 128) :
    KZ (F := Ideal) (KA A) (KD A) (mulf (broadcastInDim S8192x128 ![0, 1] bcast_S8192x1_S8192x128_0_1 (KD A)) G) (ix2 i c)
      = ∑ k : Fin 8192, ((rdeg A i * A (ix2 i k)) * rdeg A k) * G (ix2 k c) := by
  have hf : (fun k : Fin 8192 => (KA (F := Ideal) A (ix2 i k) : EReal)) = fun k => A (ix2 i k) :=
    funext fun k => KA_apply A i k
  have hs : (fun k : Fin 8192 => mulf (broadcastInDim S8192x128 ![0, 1] bcast_S8192x1_S8192x128_0_1 (KD (F := Ideal) A)) G (ix2 k c))
      = fun k => rdeg A k * G (ix2 k c) := funext fun k => by
    show broadcastInDim S8192x128 ![0, 1] bcast_S8192x1_S8192x128_0_1 (KD (F := Ideal) A) (ix2 k c) * G (ix2 k c) = _
    rw [Cert.Lib.HostColumns.bcast_col_lanes_apply _ _ k c 0, KD_apply]
  rw [KZ_apply, hf, hs, KD_apply, acc_blocks _ _ (fun k => (hδ k).mul (hG (ix2 k c))),
    scale_sum (fun k => A (ix2 i k)) (rdeg A) (fun k => G (ix2 k c)) (rdeg A i) (fun k => hA (ix2 i k)) hδ
      (fun k => hG (ix2 k c)) (hδ i)]

end Cert.Layers

end
-- ==== Proof.LayersEq.lean ====
/-
  The three graph-convolution layers: the kernel's first result is the reference's. With δ i the reciprocal
  square root of the sum of row i of the adjacency matrix A (every entry of every argument a real, every row
  sum of A positive), each pass of the kernel applied to the right-hand side scaled by δ and each layer of the
  reference are the same closed sum Σ_k ((δ i · A (i, k)) · δ k) · G (k, c) (clamped below at zero in the first
  two layers), G the product of the previous layer's result with the layer's weights — the same host product
  in both programs. So the layers' results agree one after the other, as whole arrays, and every entry of
  the result is a real.
-/
import proofs.«111544_j24051816858257_2_alg».proof.Proof.RefReal
import proofs.«111544_j24051816858257_2_alg».proof.Proof.LayerK1
import proofs.«111544_j24051816858257_2_alg».proof.Proof.LayerK2
import proofs.«111544_j24051816858257_2_alg».proof.Proof.LayerK3

noncomputable section

namespace Cert.Layers

open Idealize.ShloMosaic Idealize.ShloMosaic.ValueIdx
open scoped BigOperators
open Cert.KernelIdeal.KFun Cert.ReferenceIdeal.Read Cert.Reals

/-- The first layer. -/
theorem layer1 (x : FVec Ideal ⟨2, ![8192, 128]⟩ .f32) (A : FVec Ideal ⟨2, ![8192, 8192]⟩ .f32) (W1 : FVec Ideal ⟨2, ![128, 256]⟩ .f32) (hx : ∀ i, ∃ r : ℝ, x i = (r : EReal)) (hA : ∀ i, ∃ r : ℝ, A i = (r : EReal)) (hW1 : ∀ i, ∃ r : ℝ, W1 i = (r : EReal))
    (hpos : ∀ i : Fin 8192, (0 : EReal) < ∑ j : Fin 8192, A (ix2 i j)) :
    KH1 (F := Ideal) (KA A) (KD A) (scaled1 (KD A) x W1) = val_main_v11 (F := Ideal) x A W1 := by
  funext j
  obtain ⟨i, c, rfl⟩ : ∃ (i : Fin 8192) (c : Fin 256), j = ix2 i c := ⟨j 0, j 1, eq_ix2 j⟩
  unfold scaled1
  rw [hostdot1_eq, pass1_apply A _ hA (v9_real x W1 hx hW1) (rdeg_real A hA hpos), ref_pass1 x A W1 hA hpos]

/-- The second layer, from the first layer's result. -/
theorem layer2 (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal))
    (hpos : ∀ i : Fin 8192, (0 : EReal) < ∑ j : Fin 8192, A (ix2 i j)) :
    KH2 (F := Ideal) (KA A) (KD A) (scaled2 (KD A) (val_main_v11 (F := Ideal) x A W1) W2) = val_main_v14 (F := Ideal) x A W1 W2 := by
  funext j
  obtain ⟨i, c, rfl⟩ : ∃ (i : Fin 8192) (c : Fin 256), j = ix2 i c := ⟨j 0, j 1, eq_ix2 j⟩
  unfold scaled2
  rw [hostdot2_eq, pass2_apply A _ hA (v12_real x A W1 W2 hx hA hW1 hW2 hpos) (rdeg_real A hA hpos), ref_pass2 x A W1 W2 hA hpos]

/-- The third layer, from the second layer's result. -/
theorem layer3 (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal)) (hW3 : ∀ i, ∃ r : ℝ, W3 i = (r : EReal))
    (hpos : ∀ i : Fin 8192, (0 : EReal) < ∑ j : Fin 8192, A (ix2 i j)) :
    KZ (F := Ideal) (KA A) (KD A) (scaled3 (KD A) (val_main_v14 (F := Ideal) x A W1 W2) W3) = val_main_v16 (F := Ideal) x A W1 W2 W3 := by
  funext j
  obtain ⟨i, c, rfl⟩ : ∃ (i : Fin 8192) (c : Fin 128), j = ix2 i c := ⟨j 0, j 1, eq_ix2 j⟩
  unfold scaled3
  rw [hostdot3_eq, pass3_apply A _ hA (v15_real x A W1 W2 W3 hx hA hW1 hW2 hW3 hpos) (rdeg_real A hA hpos),
    ref_pass3 x A W1 W2 W3 hA hpos]

/-- THE LAYERS: the kernel's first result is the reference's node embeddings. -/
theorem kernelZ_eq (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal)) (hW3 : ∀ i, ∃ r : ℝ, W3 i = (r : EReal))
    (hpos : ∀ i : Fin 8192, (0 : EReal) < ∑ j : Fin 8192, A (ix2 i j)) :
    kernelZ (F := Ideal) x A W1 W2 W3 = val_main_v16 (F := Ideal) x A W1 W2 W3 := by
  unfold kernelZ
  rw [layer1 x A W1 hx hA hW1 hpos, layer2 x A W1 W2 hx hA hW1 hW2 hpos, layer3 x A W1 W2 W3 hx hA hW1 hW2 hW3 hpos]

/-- Every entry of the kernel's first result is a real. -/
theorem kernelZ_real (x : FVec Ideal ⟨2, ![8192, 128]⟩ .f32) (A : FVec Ideal ⟨2, ![8192, 8192]⟩ .f32) (W1 : FVec Ideal ⟨2, ![128, 256]⟩ .f32) (W2 : FVec Ideal ⟨2, ![256, 256]⟩ .f32) (W3 : FVec Ideal ⟨2, ![256, 128]⟩ .f32) (hx : ∀ i, ∃ r : ℝ, x i = (r : EReal)) (hA : ∀ i, ∃ r : ℝ, A i = (r : EReal)) (hW1 : ∀ i, ∃ r : ℝ, W1 i = (r : EReal)) (hW2 : ∀ i, ∃ r : ℝ, W2 i = (r : EReal)) (hW3 : ∀ i, ∃ r : ℝ, W3 i = (r : EReal))
    (hpos : ∀ i : Fin 8192, (0 : EReal) < ∑ j : Fin 8192, A (ix2 i j))
    (j : (⟨2, ![8192, 128]⟩ : Shape).Idx) : ∃ r : ℝ, kernelZ (F := Ideal) x A W1 W2 W3 j = (r : EReal) := by
  rw [kernelZ_eq x A W1 W2 W3 hx hA hW1 hW2 hW3 hpos]
  exact v16_real x A W1 W2 W3 hx hA hW1 hW2 hW3 hpos j

end Cert.Layers

end
-- ==== Proof.lean ====
/-
  The certificate of a three-layer graph convolution with attention pooling: a kernel program of five kernel
  regions against a plain reference.

  With A the adjacency matrix, s_i its i-th row sum and d_i = s_i^(−1/2), the reference forms the normalised
  matrix N(i,k) = (d_i · A(i,k)) · d_k and, layer by layer, H ↦ max(N (H W), 0) (the last layer without the clamp);
  then scores tanh(Z Wlᵀ + bl) q + b, their softmax down the nodes and the pooled row Σ_i attn_i · Z(i, ·).
  The kernel program computes d as the inverse square root of the row sums in one pass over A (keeping A at a
  narrower format, which is the identity on the extended reals), forms each layer as d_i · Σ_k A(i,k) · (d_k · (H W)(k, ·))
  in four tiles of the contraction, each tile adding also the product with (S − S) for the scaled right-hand side
  S, and pools in one last region.

  The two are equal as extended reals under the precondition that every input is finite and every row sum of A
  is above zero: then d_i is one and the same positive real on both sides, every quantity in the layers is a real
  number, S − S = 0, the four tiles add up to the whole contraction, and the two scalings move inside the sum.
  At a zero row sum the two programs do differ (the power gives 0 where the inverse square root gives +∞), which
  is why the row sums are asked to be positive. The pooling needs no finiteness: both sides apply the same
  operations to the same embeddings.

  The frames: each kernel program is run as ten segments (five regions, five stretches of host operations), the
  contents of the core's buffers followed from boundary to boundary; the argument buffers end as launched.
-/
import proofs.«111544_j24051816858257_2_alg».proof.Defs
import proofs.«111544_j24051816858257_2_alg».proof.Proof.Frames
import proofs.«111544_j24051816858257_2_alg».proof.Proof.Algebraic
import proofs.«111544_j24051816858257_2_alg».proof.Proof.LayersEq

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, Cert.Proof.Frames.preserves,
    Cert.Proof.Alg.algebraic_of Cert.Layers.kernelZ_eq⟩

end Cert.Proof

end
